-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S1000000x64 : Shape := ⟨2, ![1000000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S128x64 .f32) (main_arg17 : FVec F S64 .f32) (main_arg18 : FVec F S64 .f32) (main_arg19 : FVec F S64 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128x64 .f32) (main_arg17 : FVec F S64 .f32) (main_arg18 : FVec F S64 .f32) (main_arg19 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S64 .f32) (main_arg11 : FVec F S64 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64 .f32) (main_arg19 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S64 .f32) (main_arg11 : FVec F S64 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64 .f32) (main_arg19 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S1000000 32) (main_arg2 : IVec S1000000 32) (main_arg3 : FVec F S1000000x64 .f32) (main_arg4 : FVec F S192x128 .f32) (main_arg5 : FVec F S128 .f32) (main_arg6 : FVec F S128x128 .f32) (main_arg7 : FVec F S128 .f32) (main_arg8 : FVec F S128x64 .f32) (main_arg9 : FVec F S64 .f32) (main_arg10 : FVec F S64 .f32) (main_arg11 : FVec F S64 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64 .f32) (main_arg19 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S1000000 : Shape := ⟨1, ![1000000]⟩
abbrev S1000000x64 : Shape := ⟨2, ![1000000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1x128 : Shape := ⟨2, ![1, 128]⟩
abbrev S1x64 : Shape := ⟨2, ![1, 64]⟩
abbrev S64x128 : Shape := ⟨2, ![64, 128]⟩
abbrev S4000x64 : Shape := ⟨2, ![4000, 64]⟩
abbrev S4000x128 : Shape := ⟨2, ![4000, 128]⟩
abbrev S4000 : Shape := ⟨1, ![4000]⟩
abbrev S4000x1 : Shape := ⟨2, ![4000, 1]⟩
abbrev S2000000x64 : Shape := ⟨2, ![2000000, 64]⟩
abbrev S2000000 : Shape := ⟨1, ![2000000]⟩
abbrev S2000000x1 : Shape := ⟨2, ![2000000, 1]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 64
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000x64, .f32⟩
  | .hbm, ⟨4, _⟩ => ⟨S192x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S100000x64, .bf16⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .bf16⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .bf16⟩
  | .hbm, ⟨39, _⟩ => ⟨S1x128, .f32⟩
  | .hbm, ⟨40, _⟩ => ⟨S1x128, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x128, .f32⟩
  | .hbm, ⟨45, _⟩ => ⟨S1x128, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S64x128, .f32⟩
  | .hbm, ⟨53, _⟩ => ⟨S64x128, .f32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S2000000x64, .f32⟩
  | .hbm, ⟨58, _⟩ => ⟨S2000000, .i32⟩
  | .hbm, ⟨59, _⟩ => ⟨S_, .f32⟩
  | .hbm, ⟨60, _⟩ => ⟨S100000x64, .f32⟩
  | .hbm, ⟨61, _⟩ => ⟨S2000000x1, .i32⟩
  | .hbm, ⟨62, _⟩ => ⟨S100000x64, .f32⟩
  | .hbm, ⟨63, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .bf16⟩
  | .local _ .vmem, ⟨3, _⟩ => ⟨S4000x64, .bf16⟩
  | .local _ .vmem, ⟨4, _⟩ => ⟨S4000x64, .bf16⟩
  | .local _ .vmem, ⟨5, _⟩ => ⟨S4000x64, .bf16⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x128, .f32⟩
  | .local _ .vmem, ⟨25, _⟩ => ⟨S64x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S128x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg11_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem11_1 : DmaSem sig := 34

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S128_S1x128 : S128.ShapeCasts S1x128
  shapeCasts_S64_S1x64 : S64.ShapeCasts S1x64
  slices_S192x128_S64x128_0_0 : S192x128.Slices ![0, 0] S64x128
  slices_S192x128_S64x128_64_0 : S192x128.Slices ![64, 0] S64x128
  slices_S192x128_S64x128_128_0 : S192x128.Slices ![128, 0] S64x128
  slices_S128x128_S64x128_0_0 : S128x128.Slices ![0, 0] S64x128
  slices_S128x128_S64x128_64_0 : S128x128.Slices ![64, 0] S64x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  concatenates_S1000000x64_S1000000x64_S2000000x64_d0 : Shape.Concatenates [S1000000x64, S1000000x64] S2000000x64 0
  concatenates_S1000000_S1000000_S2000000_d0 : Shape.Concatenates [S1000000, S1000000] S2000000 0
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1000000x1_S1000000x64_1_0_n_n_0_1_164_wf : GatherDims.WF S100000x64 S1000000x1 S1000000x64 [1] [0] [] [0] [] 1 ![1, 64]
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  scatter_S100000x64_S2000000x1_S2000000x64_1_0_0_1_wf : ScatterDims.WF S100000x64 S2000000x1 S2000000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .bf16 = 32 ∨ (Rect.block (s := S1000000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1000000x64.size a
  hwx0_2 : ∀ i : grid0.Coords, EltTy.bits .bf16 = 32 ∨ (Rect.block (s := S1000000x64) S4000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x64.size a ≤ S1000000x64.size a
  hwx0_13 : ∀ i : grid0.Coords, EltTy.bits .f32 = 32 ∨ (Rect.block (s := S1000000x64) S4000x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x64.size a ≤ S1000000x64.size a
  hwx0_14 : ∀ i : grid0.Coords, EltTy.bits .f32 = 32 ∨ (Rect.block (s := S1000000x64) S4000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S100000x64.size a
  hwx1_11 : ∀ i : grid1.Coords, EltTy.bits .f32 = 32 ∨ (Rect.block (s := S100000x64) S5000x64.size (cc1_transform_11 i) (hinb1_11 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg3) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30_0) S4000x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v30_1) S4000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v37) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S1000000x64 : Shape := ⟨2, ![1000000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x192 : Shape := ⟨2, ![1000000, 192]⟩
abbrev S1000000x128 : Shape := ⟨2, ![1000000, 128]⟩
abbrev S1x128 : Shape := ⟨2, ![1, 128]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x64, .f32⟩
  | 1 => ⟨S1000000, .i32⟩
  | 2 => ⟨S1000000, .i32⟩
  | 3 => ⟨S1000000x64, .f32⟩
  | 4 => ⟨S192x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64, .f32⟩
  | 11 => ⟨S64, .f32⟩
  | 12 => ⟨S128x128, .f32⟩
  | 13 => ⟨S128, .f32⟩
  | 14 => ⟨S128x128, .f32⟩
  | 15 => ⟨S128, .f32⟩
  | 16 => ⟨S128x64, .f32⟩
  | 17 => ⟨S64, .f32⟩
  | 18 => ⟨S64, .f32⟩
  | 19 => ⟨S64, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x64, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S1000000x192, .f32⟩
  | 39 => ⟨S1000000x128, .f32⟩
  | 40 => ⟨S1x128, .f32⟩
  | 41 => ⟨S1000000x128, .f32⟩
  | 42 => ⟨S1000000x128, .f32⟩
  | 43 => ⟨S1000000x128, .f32⟩
  | 44 => ⟨S1000000x128, .f32⟩
  | 45 => ⟨S1x128, .f32⟩
  | 46 => ⟨S1000000x128, .f32⟩
  | 47 => ⟨S1000000x128, .f32⟩
  | 48 => ⟨S1000000x128, .f32⟩
  | 49 => ⟨S1000000x64, .f32⟩
  | 50 => ⟨S1x64, .f32⟩
  | 51 => ⟨S1000000x64, .f32⟩
  | 52 => ⟨S1000000x64, .f32⟩
  | 53 => ⟨S_, .f32⟩
  | 54 => ⟨S1000000, .f32⟩
  | 55 => ⟨S1000000x1, .f32⟩
  | 56 => ⟨S_, .f32⟩
  | 57 => ⟨S1000000x1, .f32⟩
  | 58 => ⟨S1000000x1, .f32⟩
  | 59 => ⟨S1000000x64, .f32⟩
  | 60 => ⟨S1000000x64, .f32⟩
  | 61 => ⟨S1000000x64, .f32⟩
  | 62 => ⟨S_, .f32⟩
  | 63 => ⟨S1000000, .f32⟩
  | 64 => ⟨S1000000x1, .f32⟩
  | 65 => ⟨S_, .f32⟩
  | 66 => ⟨S1000000x1, .f32⟩
  | 67 => ⟨S1000000x1, .f32⟩
  | 68 => ⟨S1000000x64, .f32⟩
  | 69 => ⟨S1000000x64, .f32⟩
  | 70 => ⟨S_, .f32⟩
  | 71 => ⟨S1000000x1, .f32⟩
  | 72 => ⟨S1000000x1, .f32⟩
  | 73 => ⟨S1000000x1, .f32⟩
  | 74 => ⟨S1000000x64, .f32⟩
  | 75 => ⟨S1000000x64, .f32⟩
  | 76 => ⟨S1x64, .f32⟩
  | 77 => ⟨S1000000x64, .f32⟩
  | 78 => ⟨S1000000x64, .f32⟩
  | 79 => ⟨S1x64, .f32⟩
  | 80 => ⟨S1000000x64, .f32⟩
  | 81 => ⟨S1000000x64, .f32⟩
  | 82 => ⟨S_, .f32⟩
  | 83 => ⟨S100000x64, .f32⟩
  | 84 => ⟨S1000000x1, .i32⟩
  | 85 => ⟨S100000x64, .f32⟩
  | 86 => ⟨S1000000x64, .f32⟩
  | 87 => ⟨S_, .f32⟩
  | 88 => ⟨S100000x64, .f32⟩
  | 89 => ⟨S1000000x1, .i32⟩
  | 90 => ⟨S100000x64, .f32⟩
  | 91 => ⟨S100000x64, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S100000x128, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S100000x64, .f32⟩
  | 114 => ⟨S100000x64, .f32⟩
  | 115 => ⟨S100000x64, .f32⟩
  | 116 => ⟨S_, .f32⟩
  | 117 => ⟨S100000, .f32⟩
  | 118 => ⟨S100000x1, .f32⟩
  | 119 => ⟨S_, .f32⟩
  | 120 => ⟨S100000x1, .f32⟩
  | 121 => ⟨S100000x1, .f32⟩
  | 122 => ⟨S100000x64, .f32⟩
  | 123 => ⟨S100000x64, .f32⟩
  | 124 => ⟨S_, .f32⟩
  | 125 => ⟨S100000x1, .f32⟩
  | 126 => ⟨S100000x1, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S100000x64, .f32⟩
  | 9 => ⟨S1000000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_9 : Ref sig .tc := ⟨.hbm, 107, rfl⟩
abbrev main_v76 : Ref sig .tc := ⟨.hbm, 108, rfl⟩
abbrev main_v77 : Ref sig .tc := ⟨.hbm, 109, rfl⟩
abbrev main_cst_10 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_11 : Ref sig .tc := ⟨.hbm, 116, rfl⟩
abbrev main_v83 : Ref sig .tc := ⟨.hbm, 117, rfl⟩
abbrev main_v84 : Ref sig .tc := ⟨.hbm, 118, rfl⟩
abbrev main_cst_12 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_13 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x128_S100000x128_0_1 : S1x128.BroadcastsInDim S100000x128 (![0, 1] : Fin 2 → Fin S100000x128.rank)
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x192_S192x128_S1000000x128_1_0_0_1_n_n_wf : DotDims.WF S1000000x192 S192x128 S1000000x128 [1] [0] [0] [1] [] []
  dot_S1000000x128_S128x128_S1000000x128_1_0_0_1_n_n_wf : DotDims.WF S1000000x128 S128x128 S1000000x128 [1] [0] [0] [1] [] []
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its two result arrays named.

  @main is four segments: host operations, the edge stage's grid, host operations, the node stage's grid. At the end of
  the last segment every unscoped buffer of a TensorCore holds the contents the run's fold through the segments gives
  it (`Gen.W4`). Read at the two result buffers: the node stage's output array is what its grid's write-backs leave
  (`arrAt` of the node stage's output window after the last point), and the edge stage's second output array, which no
  later segment writes, is still what the edge stage's write-backs left. The argument arrays are as launched.
-/
import proofs.«124261_j53137335386495_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The node stage's output array at the end of the run: what the node grid's write-backs leave. -/
theorem W4_out (c : Dev nD) : W4 m ρ c (Proc.devRef .tc main_v37) = (dat1 (V3 m ρ) c).arrAt 11 cfg1.N :=
  W4_arr m ρ c 11

/-- The edge stage's second output array at the end of the run: no later segment writes it, so it is still what the
    edge grid's write-backs left. -/
theorem W4_edgeOut (c : Dev nD) : W4 m ρ c (Proc.devRef .tc main_v30_1) = (dat0 (V1 m ρ) c).arrAt 14 cfg0.N :=
  calc W4 m ρ c (Proc.devRef .tc main_v30_1)
    _ = W3 m ρ c (Proc.devRef .tc main_v30_1) := W4_of_ne m ρ c main_v30_1 (by decide)
    _ = W2 m ρ c (Proc.devRef .tc main_v30_1) := StableHlo.after_of_forall_not_mem (b := Proc.devRef .tc main_v30_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 14 cfg0.N := W2_arr m ρ c 14

set_option backward.isDefEq.respectTransparency.types false in
/-- THE RUN: from any memory with zero counters every weakly fair execution of @main terminates, nothing faulting,
    with the two result buffers at the end-of-run contents of the fold and the argument arrays as launched. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_v30_1) = W4 m ρ c (Proc.devRef .tc main_v30_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       h c _ (mem_uc main_v30_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)

end Cert.KernelIdeal.RunValue

end
-- ==== Proof.HostStages.lean ====
/-
  The host stages of the program, read as equations.

  The program is two tiled regions among stretches of host array operations: 34 operations, the first region, 7
  operations, the second region. This file says what each region finds in each of its input arrays when it is entered,
  as the composed term of the host operations that made it, over the program's arguments as launched (written A k below
  for argument k) and, for the second region, over the first region's first output.

  Region 0 reads: three arguments untouched (A 3, A 6, A 8); two gathers of rows of the narrowed table A 0, at the row
  numbers A 2 and A 1 with negative numbers wrapped (i < 0 ? i + 100000 : i) and laid as one column; the three blocks
  of 64 rows of the 192 x 128 weights A 4; and five vectors (A 5, A 7, A 9, A 10, A 11) each recast as a one-row matrix.

  Region 1 reads: three arguments untouched (A 0, A 14, A 16); the two blocks of 64 rows of the 128 x 128 weights A 12;
  five vectors (A 13, A 15, A 17, A 18, A 19) each recast as a one-row matrix; and the scatter-add, into a zero
  100000 x 64 table, of the rows [ Msg ; -Msg ] at the row numbers [ A 2 ; A 1 ] laid as one column, Msg being the
  first region's first output.

  Each equation is the fold of the host operations' results at one buffer: an operation rewrites its own result buffer
  and leaves every other; a region rewrites its own arrays and leaves every other buffer.
-/
import proofs.«124261_j53137335386495_2_alg».proof.Proof.Gen.KernelIdeal.Frame
import Idealize.ShloMosaic.Lib.StableHlo.Run
import Idealize.ShloMosaic.PureOps.Ideal

set_option maxRecDepth 16384

noncomputable section

namespace Cert.KernelIdeal.HostStages

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Closes "the fold of the listed operations leaves this buffer as it was": no operation of the list writes it. -/
local macro "untouched" ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Row numbers with the negative ones wrapped, i < 0 ? i + 100000 : i, laid as one column. -/
def gidx (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 100000#32))) i)

/-! ## Region 0's entry contents -/

/-- Region 0 finds argument 3 as launched: no host operation before it writes it. -/
theorem V1_arg3 (c : Dev nD) : V1 m ρ c main_arg3 = m ((c : Thread nD τ).loc main_arg3) := by
  untouched hostOps0 main_arg3

/-- Region 0 finds argument 6 as launched: no host operation before it writes it. -/
theorem V1_arg6 (c : Dev nD) : V1 m ρ c main_arg6 = m ((c : Thread nD τ).loc main_arg6) := by
  untouched hostOps0 main_arg6

/-- Region 0 finds argument 8 as launched: no host operation before it writes it. -/
theorem V1_arg8 (c : Dev nD) : V1 m ρ c main_arg8 = m ((c : Thread nD τ).loc main_arg8) := by
  untouched hostOps0 main_arg8

/-- Region 0's second input: the rows of the narrowed table A 0 at the wrapped row numbers A 2. -/
theorem V1_v7 (c : Dev nD) : (V1 m ρ c main_v7 : FVec Ideal S1000000x64 .bf16) = (Host.gather gather_S100000x64_S1000000x1_S1000000x64_1_0_n_n_0_1_164 (truncf .bf16 (m ((c : Thread nD τ).loc main_arg0) : FVec Ideal S100000x64 .f32) bitsLt_bf16_f32) (gidx (m ((c : Thread nD τ).loc main_arg2))) : FVec Ideal S1000000x64 .bf16) := by
  show StableHlo.after hostOps0 (W0 m ρ c) (Proc.devRef .tc main_v7) = _
  dsimp only [hostOps0]
  after_results_simp
  rfl

/-- Region 0's third input: the rows of the narrowed table A 0 at the wrapped row numbers A 1. -/
theorem V1_v14 (c : Dev nD) : (V1 m ρ c main_v14 : FVec Ideal S1000000x64 .bf16) = (Host.gather gather_S100000x64_S1000000x1_S1000000x64_1_0_n_n_0_1_164 (truncf .bf16 (m ((c : Thread nD τ).loc main_arg0) : FVec Ideal S100000x64 .f32) bitsLt_bf16_f32) (gidx (m ((c : Thread nD τ).loc main_arg1))) : FVec Ideal S1000000x64 .bf16) := by
  show StableHlo.after hostOps0 (W0 m ρ c) (Proc.devRef .tc main_v14) = _
  dsimp only [hostOps0]
  after_results_simp
  rfl

/-- Rows 0..63 of the weights A 4. -/
theorem V1_v25 (c : Dev nD) : (V1 m ρ c main_v25 : FVec Ideal S64x128 .f32) = extractStridedSlice S64x128 ![0, 0] (m ((c : Thread nD τ).loc main_arg4)) slices_S192x128_S64x128_0_0 := by
  show StableHlo.after hostOps0 (W0 m ρ c) (Proc.devRef .tc main_v25) = _
  dsimp only [hostOps0]
  after_results_simp

/-- Rows 64..127 of the weights A 4. -/
theorem V1_v26 (c : Dev nD) : (V1 m ρ c main_v26 : FVec Ideal S64x128 .f32) = extractStridedSlice S64x128 ![64, 0] (m ((c : Thread nD τ).loc main_arg4)) slices_S192x128_S64x128_64_0 := by
  show StableHlo.after hostOps0 (W0 m ρ c) (Proc.devRef .tc main_v26) = _
  dsimp only [hostOps0]
  after_results_simp

/-- Rows 128..191 of the weights A 4. -/
theorem V1_v27 (c : Dev nD) : (V1 m ρ c main_v27 : FVec Ideal S64x128 .f32) = extractStridedSlice S64x128 ![128, 0] (m ((c : Thread nD τ).loc main_arg4)) slices_S192x128_S64x128_128_0 := by
  show StableHlo.after hostOps0 (W0 m ρ c) (Proc.devRef .tc main_v27) = _
  dsimp only [hostOps0]
  after_results_simp

/-- The vector A 5 as a one-row matrix. -/
theorem V1_v15 (c : Dev nD) : (V1 m ρ c main_v15 : FVec Ideal S1x128 .f32) = shapeCast S1x128 (m ((c : Thread nD τ).loc main_arg5)) shapeCasts_S128_S1x128 := by
  show StableHlo.after hostOps0 (W0 m ρ c) (Proc.devRef .tc main_v15) = _
  dsimp only [hostOps0]
  after_results_simp
  rfl

/-- The vector A 7 as a one-row matrix. -/
theorem V1_v16 (c : Dev nD) : (V1 m ρ c main_v16 : FVec Ideal S1x128 .f32) = shapeCast S1x128 (m ((c : Thread nD τ).loc main_arg7)) shapeCasts_S128_S1x128 := by
  show StableHlo.after hostOps0 (W0 m ρ c) (Proc.devRef .tc main_v16) = _
  dsimp only [hostOps0]
  after_results_simp
  rfl

/-- The vector A 9 as a one-row matrix. -/
theorem V1_v17 (c : Dev nD) : (V1 m ρ c main_v17 : FVec Ideal S1x64 .f32) = shapeCast S1x64 (m ((c : Thread nD τ).loc main_arg9)) shapeCasts_S64_S1x64 := by
  show StableHlo.after hostOps0 (W0 m ρ c) (Proc.devRef .tc main_v17) = _
  dsimp only [hostOps0]
  after_results_simp
  rfl

/-- The vector A 10 as a one-row matrix. -/
theorem V1_v18 (c : Dev nD) : (V1 m ρ c main_v18 : FVec Ideal S1x64 .f32) = shapeCast S1x64 (m ((c : Thread nD τ).loc main_arg10)) shapeCasts_S64_S1x64 := by
  show StableHlo.after hostOps0 (W0 m ρ c) (Proc.devRef .tc main_v18) = _
  dsimp only [hostOps0]
  after_results_simp
  rfl

/-- The vector A 11 as a one-row matrix. -/
theorem V1_v19 (c : Dev nD) : (V1 m ρ c main_v19 : FVec Ideal S1x64 .f32) = shapeCast S1x64 (m ((c : Thread nD τ).loc main_arg11)) shapeCasts_S64_S1x64 := by
  show StableHlo.after hostOps0 (W0 m ρ c) (Proc.devRef .tc main_v19) = _
  dsimp only [hostOps0]
  after_results_simp
  rfl

/-! ## Region 1's entry contents

A buffer is walked back from region 1's entry: through the 7 host operations (none writes it, or it is their result),
through region 0 (which rewrites its own arrays only), through the 34 host operations. -/

/-- Region 1 finds argument 0 as launched: no host operation writes it and it is no array of region 0. -/
theorem V3_arg0 (c : Dev nD) : V3 m ρ c main_arg0 = m ((c : Thread nD τ).loc main_arg0) :=
  calc V3 m ρ c main_arg0
    _ = W2 m ρ c (Proc.devRef .tc main_arg0) := by untouched hostOps1 main_arg0
    _ = W1 m ρ c (Proc.devRef .tc main_arg0) := W2_of_ne m ρ c main_arg0 (by decide)
    _ = m ((c : Thread nD τ).loc main_arg0) := by untouched hostOps0 main_arg0

/-- Region 1 finds argument 14 as launched: no host operation writes it and it is no array of region 0. -/
theorem V3_arg14 (c : Dev nD) : V3 m ρ c main_arg14 = m ((c : Thread nD τ).loc main_arg14) :=
  calc V3 m ρ c main_arg14
    _ = W2 m ρ c (Proc.devRef .tc main_arg14) := by untouched hostOps1 main_arg14
    _ = W1 m ρ c (Proc.devRef .tc main_arg14) := W2_of_ne m ρ c main_arg14 (by decide)
    _ = m ((c : Thread nD τ).loc main_arg14) := by untouched hostOps0 main_arg14

/-- Region 1 finds argument 16 as launched: no host operation writes it and it is no array of region 0. -/
theorem V3_arg16 (c : Dev nD) : V3 m ρ c main_arg16 = m ((c : Thread nD τ).loc main_arg16) :=
  calc V3 m ρ c main_arg16
    _ = W2 m ρ c (Proc.devRef .tc main_arg16) := by untouched hostOps1 main_arg16
    _ = W1 m ρ c (Proc.devRef .tc main_arg16) := W2_of_ne m ρ c main_arg16 (by decide)
    _ = m ((c : Thread nD τ).loc main_arg16) := by untouched hostOps0 main_arg16

/-- Rows 0..63 of the weights A 12. -/
theorem V3_v28 (c : Dev nD) : (V3 m ρ c main_v28 : FVec Ideal S64x128 .f32) = extractStridedSlice S64x128 ![0, 0] (m ((c : Thread nD τ).loc main_arg12)) slices_S128x128_S64x128_0_0 := by
  have e1 : W3 m ρ c (Proc.devRef .tc main_v28) = W2 m ρ c (Proc.devRef .tc main_v28) := by
    untouched hostOps1 main_v28
  have e2 : W2 m ρ c (Proc.devRef .tc main_v28) = W1 m ρ c (Proc.devRef .tc main_v28) :=
    W2_of_ne m ρ c main_v28 (by decide)
  refine e1.trans (e2.trans ?_)
  show StableHlo.after hostOps0 (W0 m ρ c) (Proc.devRef .tc main_v28) = _
  dsimp only [hostOps0]
  after_results_simp

/-- Rows 64..127 of the weights A 12. -/
theorem V3_v29 (c : Dev nD) : (V3 m ρ c main_v29 : FVec Ideal S64x128 .f32) = extractStridedSlice S64x128 ![64, 0] (m ((c : Thread nD τ).loc main_arg12)) slices_S128x128_S64x128_64_0 := by
  have e1 : W3 m ρ c (Proc.devRef .tc main_v29) = W2 m ρ c (Proc.devRef .tc main_v29) := by
    untouched hostOps1 main_v29
  have e2 : W2 m ρ c (Proc.devRef .tc main_v29) = W1 m ρ c (Proc.devRef .tc main_v29) :=
    W2_of_ne m ρ c main_v29 (by decide)
  refine e1.trans (e2.trans ?_)
  show StableHlo.after hostOps0 (W0 m ρ c) (Proc.devRef .tc main_v29) = _
  dsimp only [hostOps0]
  after_results_simp

/-- The vector A 13 as a one-row matrix. -/
theorem V3_v20 (c : Dev nD) : (V3 m ρ c main_v20 : FVec Ideal S1x128 .f32) = shapeCast S1x128 (m ((c : Thread nD τ).loc main_arg13)) shapeCasts_S128_S1x128 := by
  have e1 : W3 m ρ c (Proc.devRef .tc main_v20) = W2 m ρ c (Proc.devRef .tc main_v20) := by
    untouched hostOps1 main_v20
  have e2 : W2 m ρ c (Proc.devRef .tc main_v20) = W1 m ρ c (Proc.devRef .tc main_v20) :=
    W2_of_ne m ρ c main_v20 (by decide)
  refine e1.trans (e2.trans ?_)
  show StableHlo.after hostOps0 (W0 m ρ c) (Proc.devRef .tc main_v20) = _
  dsimp only [hostOps0]
  after_results_simp
  rfl

/-- The vector A 15 as a one-row matrix. -/
theorem V3_v21 (c : Dev nD) : (V3 m ρ c main_v21 : FVec Ideal S1x128 .f32) = shapeCast S1x128 (m ((c : Thread nD τ).loc main_arg15)) shapeCasts_S128_S1x128 := by
  have e1 : W3 m ρ c (Proc.devRef .tc main_v21) = W2 m ρ c (Proc.devRef .tc main_v21) := by
    untouched hostOps1 main_v21
  have e2 : W2 m ρ c (Proc.devRef .tc main_v21) = W1 m ρ c (Proc.devRef .tc main_v21) :=
    W2_of_ne m ρ c main_v21 (by decide)
  refine e1.trans (e2.trans ?_)
  show StableHlo.after hostOps0 (W0 m ρ c) (Proc.devRef .tc main_v21) = _
  dsimp only [hostOps0]
  after_results_simp
  rfl

/-- The vector A 17 as a one-row matrix. -/
theorem V3_v22 (c : Dev nD) : (V3 m ρ c main_v22 : FVec Ideal S1x64 .f32) = shapeCast S1x64 (m ((c : Thread nD τ).loc main_arg17)) shapeCasts_S64_S1x64 := by
  have e1 : W3 m ρ c (Proc.devRef .tc main_v22) = W2 m ρ c (Proc.devRef .tc main_v22) := by
    untouched hostOps1 main_v22
  have e2 : W2 m ρ c (Proc.devRef .tc main_v22) = W1 m ρ c (Proc.devRef .tc main_v22) :=
    W2_of_ne m ρ c main_v22 (by decide)
  refine e1.trans (e2.trans ?_)
  show StableHlo.after hostOps0 (W0 m ρ c) (Proc.devRef .tc main_v22) = _
  dsimp only [hostOps0]
  after_results_simp
  rfl

/-- The vector A 18 as a one-row matrix. -/
theorem V3_v23 (c : Dev nD) : (V3 m ρ c main_v23 : FVec Ideal S1x64 .f32) = shapeCast S1x64 (m ((c : Thread nD τ).loc main_arg18)) shapeCasts_S64_S1x64 := by
  have e1 : W3 m ρ c (Proc.devRef .tc main_v23) = W2 m ρ c (Proc.devRef .tc main_v23) := by
    untouched hostOps1 main_v23
  have e2 : W2 m ρ c (Proc.devRef .tc main_v23) = W1 m ρ c (Proc.devRef .tc main_v23) :=
    W2_of_ne m ρ c main_v23 (by decide)
  refine e1.trans (e2.trans ?_)
  show StableHlo.after hostOps0 (W0 m ρ c) (Proc.devRef .tc main_v23) = _
  dsimp only [hostOps0]
  after_results_simp
  rfl

/-- The vector A 19 as a one-row matrix. -/
theorem V3_v24 (c : Dev nD) : (V3 m ρ c main_v24 : FVec Ideal S1x64 .f32) = shapeCast S1x64 (m ((c : Thread nD τ).loc main_arg19)) shapeCasts_S64_S1x64 := by
  have e1 : W3 m ρ c (Proc.devRef .tc main_v24) = W2 m ρ c (Proc.devRef .tc main_v24) := by
    untouched hostOps1 main_v24
  have e2 : W2 m ρ c (Proc.devRef .tc main_v24) = W1 m ρ c (Proc.devRef .tc main_v24) :=
    W2_of_ne m ρ c main_v24 (by decide)
  refine e1.trans (e2.trans ?_)
  show StableHlo.after hostOps0 (W0 m ρ c) (Proc.devRef .tc main_v24) = _
  dsimp only [hostOps0]
  after_results_simp
  rfl

/-- Region 0's first output as region 0 leaves it: its write-backs folded over all the grid's points. -/
abbrev Msg (c : Dev nD) : FVec Ideal S1000000x64 .f32 := (dat0 (V1 m ρ) c).arrAt 13 cfg0.N

/-- Between the regions, region 0's first output buffer holds `Msg`. -/
theorem W2_v30_0 (c : Dev nD) : (W2 m ρ c (Proc.devRef .tc main_v30_0) : FVec Ideal S1000000x64 .f32) = Msg m ρ c :=
  W2_arr m ρ c 13

/-- Between the regions, argument 1 is as launched. -/
theorem W2_arg1 (c : Dev nD) : W2 m ρ c (Proc.devRef .tc main_arg1) = m ((c : Thread nD τ).loc main_arg1) :=
  (W2_of_ne m ρ c main_arg1 (by decide)).trans (by untouched hostOps0 main_arg1)

/-- Between the regions, argument 2 is as launched. -/
theorem W2_arg2 (c : Dev nD) : W2 m ρ c (Proc.devRef .tc main_arg2) = m ((c : Thread nD τ).loc main_arg2) :=
  (W2_of_ne m ρ c main_arg2 (by decide)).trans (by untouched hostOps0 main_arg2)

/-- Region 1's second input: into a zero 100000 x 64 table, the rows [ Msg ; -Msg ] added at the row numbers
    [ A 2 ; A 1 ] laid as one column. -/
theorem V3_v36 (c : Dev nD) : (V3 m ρ c main_v36 : FVec Ideal S100000x64 .f32)
    = (Host.scatterAdd scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0
          (concatenate S2000000 0 [⟨S1000000, (m ((c : Thread nD τ).loc main_arg2))⟩, ⟨S1000000, (m ((c : Thread nD τ).loc main_arg1))⟩] concatenates_S1000000_S1000000_S2000000_d0))
        (concatenate S2000000x64 0 [⟨S1000000x64, Msg m ρ c⟩, ⟨S1000000x64, Host.negf (Msg m ρ c)⟩]
          concatenates_S1000000x64_S1000000x64_S2000000x64_d0) : FVec Ideal S100000x64 .f32) := by
  show StableHlo.after hostOps1 (W2 m ρ c) (Proc.devRef .tc main_v36) = _
  dsimp only [hostOps1]
  after_results
  rw [W2_arg2 m ρ c, W2_arg1 m ρ c, W2_v30_0 m ρ c]

end Cert.KernelIdeal.HostStages

end
-- ==== Proof.LibGatherScatter.lean ====
/-
  Index lemmas for the host gather and the host accumulating scatter at the dimension numbers of a row lookup
  `x[idx]` and of an accumulation `x.at[idx].add(u)` along axis 0, with the indices carried as a column `[M, 1]`
  (the index vector's axis is the last one and has size one). `N` is the number of rows of the operand, `M` the
  number of indices, `C` the number of columns. A gathered element is the operand's at the index read signed and
  clamped into `[0, N − 1]`; an update lands on row `n` exactly when its index, read signed and NOT clamped, is `n`;
  so at the exact sum an accumulated row is the operand's plus the sum of the updates whose index is that row.
-/
import Idealize.ShloMosaic.Lib.ValueIdx
import Idealize.ShloMosaic.PureOps.Ideal
import Idealize.ShloMosaic.PureOps.Ideal.Laws

noncomputable section

open scoped BigOperators

namespace Cert.GatherScatter

open Idealize.ShloMosaic Idealize.ShloMosaic.ValueIdx

/-! ## The gather of whole rows: operand `[N, C]`, indices `[M, 1]`, result `[M, C]` -/

/-- The dimension numbers of a gather of whole rows: operand `[N, C]`, start indices `[M, 1]`, result `[M, C]`;
    the result's axis 1 is the one offset axis, the operand's axis 0 is collapsed and is the one the start index
    names, a slice is one row `[1, C]`. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand's element in column `j` of the row whose number is the start
    index `idx[e, 0]`, read signed and clamped into `[0, N − 1]`. -/
theorem gather_row_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j)
      = x (ix2 ⟨min (idx (ix2 e 0)).toInt.toNat (N - 1), by omega⟩ j) := by
  -- axis 0: no batching and no offset coordinate (the axis is collapsed); the start is the clamped index
  have h0 : (rowGatherDims N M C wf).start (ix2 e j) idx 0 + (rowGatherDims N M C wf).batchCoord (ix2 e j) 0
      + (rowGatherDims N M C wf).offCoord (ix2 e j) 0 = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e j) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: the start index does not name it (start 0), no batching; the offset coordinate is the column
  have h1 : (rowGatherDims N M C wf).start (ix2 e j) idx 1 + (rowGatherDims N M C wf).batchCoord (ix2 e j) 1
      + (rowGatherDims N M C wf).offCoord (ix2 e j) 1 = j.val := by
    rw [GatherDims.batchCoord_eq_zero _ _ _ List.not_mem_nil]
    unfold GatherDims.start GatherDims.offCoord
    have hne : (1 : Fin 2) ∉ [(0 : Fin 2)] := by decide
    rw [dif_neg (show (1 : Fin 2) ∉ (rowGatherDims N M C wf).startIndexMap from hne),
      dif_pos ((GatherDims.mem_sKept _ _).mpr ⟨hne, List.not_mem_nil⟩)]
    simp only [Nat.add_zero, Nat.zero_add]
    rfl
  unfold Host.gather
  congr 1
  funext a
  refine Fin.ext ?_
  match a with
  | ⟨0, _⟩ => exact h0
  | ⟨1, _⟩ => exact h1

/-! ## The gather of single elements: operand `[N]`, indices `[M, 1]`, result `[M]` -/

/-- The dimension numbers of a gather of single elements of a flat operand: operand `[N]`, start indices `[M, 1]`,
    result `[M]`; no offset axis, the operand's one axis is collapsed and is the one the start index names, a slice
    is one element. The conditions `wf` are decided on a program's literal shapes. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand's element whose number is the start index `idx[e, 0]`, read signed and
    clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulation of whole rows: operand `[N, C]`, indices `[M, 1]`, updates `[M, C]` -/

/-- The dimension numbers of a scatter of whole rows: operand `[N, C]`, scatter indices `[M, 1]`, updates `[M, C]`;
    the updates' axis 1 is the one window axis, the operand's axis 0 is inserted and is the one the scatter index
    names. The conditions `wf` are decided on a program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the operand's axis 0 the window of update `(e, j)` starts at the scatter index `idx[e, 0]`, read signed. -/
theorem rowScatter_start_zero :
    (rowScatterDims N M C wf).start (ix2 e j) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e j)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which the scatter index does not name, the window starts at `0`. -/
theorem rowScatter_start_one : (rowScatterDims N M C wf).start (ix2 e j) idx 1 = 0 := by
  unfold ScatterDims.start
  have hne : (1 : Fin 2) ∉ [(0 : Fin 2)] := by decide
  rw [dif_neg (show (1 : Fin 2) ∉ (rowScatterDims N M C wf).scatterDimsToOperandDims from hne)]

/-- The operand's axis 0 is inserted: the window coordinate there is `0`. -/
theorem rowScatter_window_zero : (rowScatterDims N M C wf).window (ix2 e j) 0 = 0 := by
  unfold ScatterDims.window
  have hk : (0 : Fin 2) ∉ (List.finRange 2).filter (· ∉ [(0 : Fin 2)]) := by decide
  rw [dif_neg (show (0 : Fin 2) ∉ (rowScatterDims N M C wf).sKept from hk)]

/-- On the operand's axis 1 the window coordinate of update `(e, j)` is the column `j`. -/
theorem rowScatter_window_one : (rowScatterDims N M C wf).window (ix2 e j) 1 = j.val := by
  unfold ScatterDims.window
  have hk : (1 : Fin 2) ∈ (List.finRange 2).filter (· ∉ [(0 : Fin 2)]) := by decide
  rw [dif_pos (show (1 : Fin 2) ∈ (rowScatterDims N M C wf).sKept from hk)]
  rfl

/-- WHERE A ROW UPDATE LANDS: update `(e, j)` lands on operand element `(n, j')` exactly when its scatter index
    `idx[e, 0]`, read signed (and not clamped), is `n` and the columns agree; an index outside `[0, N − 1]` lands
    nowhere. -/
theorem scatter_row_lands (n : Fin N) (j' : Fin C) :
    (rowScatterDims N M C wf).resultIdx? (ix2 e j) idx = some (ix2 n j')
      ↔ (idx (ix2 e 0)).toInt = (n.val : Int) ∧ j = j' := by
  have s0 := rowScatter_start_zero wf idx e j
  have s1 := rowScatter_start_one wf idx e j
  have w0 := rowScatter_window_zero wf e j
  have w1 := rowScatter_window_one wf e j
  unfold ScatterDims.resultIdx?
  split
  · rename_i h
    rw [Option.some.injEq]
    constructor
    · intro hf
      have h0 := h 0
      have e0 := congrArg Fin.val (congrFun hf 0)
      have e1 := congrArg Fin.val (congrFun hf 1)
      simp only [s0, s1, w0, w1] at h0 e0 e1
      refine ⟨?_, Fin.ext ?_⟩
      · have : ((idx (ix2 e 0)).toInt + ((0 : Nat) : Int)).toNat = n.val := e0
        omega
      · have : ((0 : Int) + (j.val : Int)).toNat = j'.val := e1
        omega
    · rintro ⟨hn, rfl⟩
      funext a
      refine Fin.ext ?_
      match a with
      | ⟨0, _⟩ =>
        show ((rowScatterDims N M C wf).start (ix2 e j) idx 0 + ((rowScatterDims N M C wf).window (ix2 e j) 0 : Nat)).toNat = n.val
        rw [s0, w0, hn]; omega
      | ⟨1, _⟩ =>
        show ((rowScatterDims N M C wf).start (ix2 e j) idx 1 + ((rowScatterDims N M C wf).window (ix2 e j) 1 : Nat)).toNat = j.val
        rw [s1, w1]; omega
  · rename_i h
    constructor
    · intro hf; exact absurd hf (by simp)
    · rintro ⟨hn, rfl⟩
      refine absurd (fun a => ?_) h
      match a with
      | ⟨0, _⟩ =>
        show 0 ≤ (rowScatterDims N M C wf).start (ix2 e j) idx 0 + ((rowScatterDims N M C wf).window (ix2 e j) 0 : Nat)
          ∧ (rowScatterDims N M C wf).start (ix2 e j) idx 0 + ((rowScatterDims N M C wf).window (ix2 e j) 0 : Nat) < (N : Int)
        rw [s0, w0, hn]; have := n.isLt; omega
      | ⟨1, _⟩ =>
        show 0 ≤ (rowScatterDims N M C wf).start (ix2 e j) idx 1 + ((rowScatterDims N M C wf).window (ix2 e j) 1 : Nat)
          ∧ (rowScatterDims N M C wf).start (ix2 e j) idx 1 + ((rowScatterDims N M C wf).window (ix2 e j) 1 : Nat) < (C : Int)
        rw [s1, w1]; have := j.isLt; omega

end RowScatter

/-- THE ROW ACCUMULATION READ AT `(n, j)`, at the exact sum: the operand's element plus the sum, over the updates
    `e` whose scatter index `idx[e, 0]` read signed is the row `n`, of the update's element in column `j`. -/
theorem scatterAdd_row_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowScatterDims N M C wf) x idx upd (ix2 n j)
      = x (ix2 n j) + ∑ e ∈ Finset.univ.filter (fun e : Fin M => (idx (ix2 e 0)).toInt = (n.val : Int)),
          upd (ix2 e j) := by
  unfold Ideal.hostScatterAdd
  refine congrArg (x (ix2 n j) + ·) ?_
  rw [Finset.sum_filter, sum_idx2, Finset.sum_filter]
  refine Finset.sum_congr rfl fun e _ => ?_
  simp only [scatter_row_lands]
  by_cases hn : (idx (ix2 e 0)).toInt = (n.val : Int)
  · simp only [hn, true_and, if_true]
    rw [Finset.sum_ite_eq' Finset.univ j (fun b => upd (ix2 e b)), if_pos (Finset.mem_univ j)]
  · simp only [hn, false_and, if_false, Finset.sum_const_zero]

/-! ## The accumulation of single elements: operand `[N]`, indices `[M, 1]`, updates `[M]` -/

/-- The dimension numbers of a scatter of single elements into a flat operand: operand `[N]`, scatter indices
    `[M, 1]`, updates `[M]`; no window axis, the operand's one axis is inserted and is the one the scatter index
    names. The conditions `wf` are decided on a program's literal shapes. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

/-- On the operand's one axis the window of update `e` starts at the scatter index `idx[e, 0]`, read signed. -/
theorem flatScatter_start_zero :
    (flatScatterDims N M wf).start (ix1 e) idx 0 = (idx (ix2 e 0)).toInt := by
  unfold ScatterDims.start
  rw [dif_pos (show (0 : Fin 1) ∈ (flatScatterDims N M wf).scatterDimsToOperandDims from List.mem_singleton.mpr rfl)]
  have hsi : (flatScatterDims N M wf).siIdx (ix1 e)
      ⟨List.idxOf (0 : Fin 1) (flatScatterDims N M wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: the window coordinate there is `0`. -/
theorem flatScatter_window_zero : (flatScatterDims N M wf).window (ix1 e) 0 = 0 := by
  unfold ScatterDims.window
  have hk : (0 : Fin 1) ∉ (List.finRange 1).filter (· ∉ [(0 : Fin 1)]) := by decide
  rw [dif_neg (show (0 : Fin 1) ∉ (flatScatterDims N M wf).sKept from hk)]

/-- WHERE A FLAT UPDATE LANDS: update `e` lands on operand element `n` exactly when its scatter index `idx[e, 0]`,
    read signed (and not clamped), is `n`; an index outside `[0, N − 1]` lands nowhere. -/
theorem scatter_flat_lands (n : Fin N) :
    (flatScatterDims N M wf).resultIdx? (ix1 e) idx = some (ix1 n) ↔ (idx (ix2 e 0)).toInt = (n.val : Int) := by
  have s0 := flatScatter_start_zero wf idx e
  have w0 := flatScatter_window_zero wf e
  unfold ScatterDims.resultIdx?
  split
  · rename_i h
    rw [Option.some.injEq]
    constructor
    · intro hf
      have h0 := h 0
      have e0 := congrArg Fin.val (congrFun hf 0)
      simp only [s0, w0] at h0 e0
      have : ((idx (ix2 e 0)).toInt + ((0 : Nat) : Int)).toNat = n.val := e0
      omega
    · intro hn
      funext a
      obtain rfl : a = 0 := Subsingleton.elim _ _
      refine Fin.ext ?_
      show ((flatScatterDims N M wf).start (ix1 e) idx 0 + ((flatScatterDims N M wf).window (ix1 e) 0 : Nat)).toNat = n.val
      rw [s0, w0, hn]; omega
  · rename_i h
    constructor
    · intro hf; exact absurd hf (by simp)
    · intro hn
      refine absurd (fun a => ?_) h
      obtain rfl : a = 0 := Subsingleton.elim _ _
      show 0 ≤ (flatScatterDims N M wf).start (ix1 e) idx 0 + ((flatScatterDims N M wf).window (ix1 e) 0 : Nat)
        ∧ (flatScatterDims N M wf).start (ix1 e) idx 0 + ((flatScatterDims N M wf).window (ix1 e) 0 : Nat) < (N : Int)
      rw [s0, w0, hn]; have := n.isLt; omega

end FlatScatter

/-- A sum over a rank-1 index set is the sum over its one coordinate. -/
theorem sum_idx1 {A : Type*} [AddCommMonoid A] {n : Nat} (f : (⟨1, ![n]⟩ : Shape).Idx → A) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE FLAT ACCUMULATION READ AT `n`, at the exact sum: the operand's element plus the sum of the updates `e` whose
    scatter index `idx[e, 0]` read signed is `n`. -/
theorem scatterAdd_flat_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e 0)).toInt = (n.val : Int)),
          upd (ix1 e) := by
  unfold Ideal.hostScatterAdd
  refine congrArg (x (ix1 n) + ·) ?_
  rw [Finset.sum_filter, sum_idx1, Finset.sum_filter]
  refine Finset.sum_congr rfl fun e _ => ?_
  simp only [scatter_flat_lands]

end Cert.GatherScatter

end
-- ==== Proof.LibStackedPieces.lean ====
/-
  Arrays laid one after another along their first axis, read at an entry.

  `jnp.concatenate([x1, x2, x3], axis=0)` of matrices of one width (or of vectors) reads, at row r, the piece whose span of
  rows holds r, at the row r less the rows of the pieces before it; every other coordinate is unchanged. Stated for three
  and for two pieces, for matrices [n, w] and for vectors [n], at any extents and any element type, with the row inside
  the piece given by the caller together with the one arithmetic fact that places it (so each lemma applies to a printed
  concatenation by unification and the side goal is closed by `rfl` or `omega`).
-/
import Idealize.ShloMosaic.Lib.Pipeline.Value
import Idealize.ShloMosaic.Lib.ValueIdx

noncomputable section

namespace Cert.LibStackedPieces

open Idealize.ShloMosaic Idealize.ShloMosaic.ValueIdx

section Stack
variable {α : Type}

/-- Three matrices stacked by rows: row r of the stack is row r' of the piece whose span holds r. -/
theorem stack3_rows_0 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n1) (hr : r.val = r'.val) :
    concatenate ⟨2, ![n, w]⟩ 0 [⟨⟨2, ![n1, w]⟩, x1⟩, ⟨⟨2, ![n2, w]⟩, x2⟩, ⟨⟨2, ![n3, w]⟩, x3⟩] h (ix2 r e) = x1 (ix2 r' e) :=
  concatenate_apply_piece 0 [⟨⟨2, ![n1, w]⟩, x1⟩, ⟨⟨2, ![n2, w]⟩, x2⟩, ⟨⟨2, ![n3, w]⟩, x3⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack3_rows_1 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n2) (hr : r.val = n1 + r'.val) :
    concatenate ⟨2, ![n, w]⟩ 0 [⟨⟨2, ![n1, w]⟩, x1⟩, ⟨⟨2, ![n2, w]⟩, x2⟩, ⟨⟨2, ![n3, w]⟩, x3⟩] h (ix2 r e) = x2 (ix2 r' e) :=
  concatenate_apply_piece 0 [⟨⟨2, ![n1, w]⟩, x1⟩, ⟨⟨2, ![n2, w]⟩, x2⟩, ⟨⟨2, ![n3, w]⟩, x3⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack3_rows_2 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n3) (hr : r.val = n1 + n2 + r'.val) :
    concatenate ⟨2, ![n, w]⟩ 0 [⟨⟨2, ![n1, w]⟩, x1⟩, ⟨⟨2, ![n2, w]⟩, x2⟩, ⟨⟨2, ![n3, w]⟩, x3⟩] h (ix2 r e) = x3 (ix2 r' e) :=
  concatenate_apply_piece 0 [⟨⟨2, ![n1, w]⟩, x1⟩, ⟨⟨2, ![n2, w]⟩, x2⟩, ⟨⟨2, ![n3, w]⟩, x3⟩] h (ix2 r e) 2 (by simp) _ x3 rfl rfl (n1 + n2) (by simp) (ix2 r' e)
    (fun b hb => by match b with | ⟨0, _⟩ => exact absurd rfl hb | ⟨1, _⟩ => rfl) (by show n1 + n2 + r'.val = r.val; omega)

/-- Three vectors laid end to end. -/
theorem stack3_vec_0 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n1) (hr : r.val = r'.val) :
    concatenate ⟨1, ![n]⟩ 0 [⟨⟨1, ![n1]⟩, x1⟩, ⟨⟨1, ![n2]⟩, x2⟩, ⟨⟨1, ![n3]⟩, x3⟩] h (ix1 r) = x1 (ix1 r') :=
  concatenate_apply_piece 0 [⟨⟨1, ![n1]⟩, x1⟩, ⟨⟨1, ![n2]⟩, x2⟩, ⟨⟨1, ![n3]⟩, x3⟩] h (ix1 r) 0 (by simp) _ x1 rfl rfl 0 (by simp) (ix1 r')
    (fun b hb => by match b with | ⟨0, _⟩ => exact absurd rfl hb) (by show 0 + r'.val = r.val; omega)
theorem stack3_vec_1 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n2) (hr : r.val = n1 + r'.val) :
    concatenate ⟨1, ![n]⟩ 0 [⟨⟨1, ![n1]⟩, x1⟩, ⟨⟨1, ![n2]⟩, x2⟩, ⟨⟨1, ![n3]⟩, x3⟩] h (ix1 r) = x2 (ix1 r') :=
  concatenate_apply_piece 0 [⟨⟨1, ![n1]⟩, x1⟩, ⟨⟨1, ![n2]⟩, x2⟩, ⟨⟨1, ![n3]⟩, x3⟩] h (ix1 r) 1 (by simp) _ x2 rfl rfl n1 (by simp) (ix1 r')
    (fun b hb => by match b with | ⟨0, _⟩ => exact absurd rfl hb) (by show n1 + r'.val = r.val; omega)
theorem stack3_vec_2 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n3) (hr : r.val = n1 + n2 + r'.val) :
    concatenate ⟨1, ![n]⟩ 0 [⟨⟨1, ![n1]⟩, x1⟩, ⟨⟨1, ![n2]⟩, x2⟩, ⟨⟨1, ![n3]⟩, x3⟩] h (ix1 r) = x3 (ix1 r') :=
  concatenate_apply_piece 0 [⟨⟨1, ![n1]⟩, x1⟩, ⟨⟨1, ![n2]⟩, x2⟩, ⟨⟨1, ![n3]⟩, x3⟩] h (ix1 r) 2 (by simp) _ x3 rfl rfl (n1 + n2) (by simp) (ix1 r')
    (fun b hb => by match b with | ⟨0, _⟩ => exact absurd rfl hb) (by show n1 + n2 + r'.val = r.val; omega)

/-- Two matrices stacked by rows, and two vectors laid end to end. -/
theorem stack2_rows_0 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n1) (hr : r.val = r'.val) :
    concatenate ⟨2, ![n, w]⟩ 0 [⟨⟨2, ![n1, w]⟩, x1⟩, ⟨⟨2, ![n2, w]⟩, x2⟩] h (ix2 r e) = x1 (ix2 r' e) :=
  concatenate_apply_piece 0 [⟨⟨2, ![n1, w]⟩, x1⟩, ⟨⟨2, ![n2, w]⟩, x2⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack2_rows_1 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n2) (hr : r.val = n1 + r'.val) :
    concatenate ⟨2, ![n, w]⟩ 0 [⟨⟨2, ![n1, w]⟩, x1⟩, ⟨⟨2, ![n2, w]⟩, x2⟩] h (ix2 r e) = x2 (ix2 r' e) :=
  concatenate_apply_piece 0 [⟨⟨2, ![n1, w]⟩, x1⟩, ⟨⟨2, ![n2, w]⟩, x2⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack2_vec_0 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n1) (hr : r.val = r'.val) :
    concatenate ⟨1, ![n]⟩ 0 [⟨⟨1, ![n1]⟩, x1⟩, ⟨⟨1, ![n2]⟩, x2⟩] h (ix1 r) = x1 (ix1 r') :=
  concatenate_apply_piece 0 [⟨⟨1, ![n1]⟩, x1⟩, ⟨⟨1, ![n2]⟩, x2⟩] h (ix1 r) 0 (by simp) _ x1 rfl rfl 0 (by simp) (ix1 r')
    (fun b hb => by match b with | ⟨0, _⟩ => exact absurd rfl hb) (by show 0 + r'.val = r.val; omega)
theorem stack2_vec_1 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n2) (hr : r.val = n1 + r'.val) :
    concatenate ⟨1, ![n]⟩ 0 [⟨⟨1, ![n1]⟩, x1⟩, ⟨⟨1, ![n2]⟩, x2⟩] h (ix1 r) = x2 (ix1 r') :=
  concatenate_apply_piece 0 [⟨⟨1, ![n1]⟩, x1⟩, ⟨⟨1, ![n2]⟩, x2⟩] h (ix1 r) 1 (by simp) _ x2 rfl rfl n1 (by simp) (ix1 r')
    (fun b hb => by match b with | ⟨0, _⟩ => exact absurd rfl hb) (by show n1 + r'.val = r.val; omega)

end Stack

end Cert.LibStackedPieces

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibScatterConcat.lean ====
/-
  One accumulating scatter of two stacked pieces is the sum of two accumulating scatters, at the extended reals.

  Let u₁, u₂ be matrices with E rows and C columns, i₁, i₂ vectors of E row numbers, and z a zero matrix with N rows
  and C columns. Accumulating the rows of the stack [u₁ ; u₂] (2E rows) at the row numbers [i₁ ; i₂], each carried as
  a column, into z gives at entry (n, j)

      0 + Σ_{e < 2E, [i₁ ; i₂](e) = n} [u₁ ; u₂](e, j)
        = Σ_{e < E, i₁(e) = n} u₁(e, j) + Σ_{e < E, i₂(e) = n} u₂(e, j),

  a finite sum over Fin (E + E) split into its first E and its last E terms; and the right-hand side is the entry
  (n, j) of the sum of the accumulation of u₁ at i₁ into a zero matrix and of u₂ at i₂ into a zero matrix. Only
  0 + x = x and the splitting of a finite sum in a commutative monoid are used: nothing is cancelled, no sum need be
  finite, and a row number outside [0, N − 1] (read signed, not clamped) lands nowhere on either side.

  Also: at the extended reals a change of float format is the identity, so a gather from a table whose format was
  narrowed first is the gather from the table itself.
-/
import proofs.«124261_j53137335386495_2_alg».proof.Proof.LibGatherScatter
import proofs.«124261_j53137335386495_2_alg».proof.Proof.LibStackedPieces
import proofs.«124261_j53137335386495_2_alg».proof.Proof.LibHostReads

noncomputable section

open scoped BigOperators

namespace Cert.LibScatterConcat

open Idealize.ShloMosaic Idealize.ShloMosaic.ValueIdx Cert.GatherScatter

/-- A sum over those `e : Fin (m + n)` that satisfy `p` is the sum over the first `m` that do plus the sum over the
    last `n` that do (in any commutative monoid). -/
theorem sum_filter_fin_add {A : Type*} [AddCommMonoid A] {m n : Nat} (p : Fin (m + n) → Prop) [DecidablePred p]
    (f : Fin (m + n) → A) :
    ∑ e ∈ Finset.univ.filter p, f e
      = ∑ e ∈ Finset.univ.filter (fun e : Fin m => p (Fin.castAdd n e)), f (Fin.castAdd n e)
        + ∑ e ∈ Finset.univ.filter (fun e : Fin n => p (Fin.natAdd m e)), f (Fin.natAdd m e) := by
  rw [Finset.sum_filter, Finset.sum_filter, Finset.sum_filter, Fin.sum_univ_add]

/-- THE ROW ACCUMULATION WITH ITS ROW NUMBERS GIVEN AS A VECTOR, READ AT (n, j): the operand's entry plus the sum,
    over the updates `e` whose row number `i(e)` read signed is `n`, of the update's entry in column `j`. The vector
    of `M` row numbers (`M ≠ 1`) is carried as a column `[M, 1]`. -/
theorem scatterAdd_col_apply {N M C w : Nat} {φ : FTy} (hM : M ≠ 1)
    (wf : ScatterDims.WF ⟨2, ![N, C]⟩ ⟨2, ![M, 1]⟩ ⟨2, ![M, C]⟩ [1] [0] [0] 1)
    (x : FVec Ideal ⟨2, ![N, C]⟩ φ) (g : (⟨1, ![M]⟩ : Shape).BroadcastsInDim ⟨2, ![M, 1]⟩ ![0])
    (i : IVec ⟨1, ![M]⟩ w) (u : FVec Ideal ⟨2, ![M, C]⟩ φ) (n : Fin N) (j : Fin C) :
    Host.scatterAdd (rowScatterDims N M C wf) x (broadcastInDim ⟨2, ![M, 1]⟩ ![0] g i) u (ix2 n j)
      = x (ix2 n j) + ∑ e ∈ Finset.univ.filter (fun e : Fin M => (i (ix1 e)).toInt = (n.val : Int)),
          u (ix2 e j) := by
  show Ideal.hostScatterAdd (rowScatterDims N M C wf) x (broadcastInDim ⟨2, ![M, 1]⟩ ![0] g i) u (ix2 n j) = _
  rw [scatterAdd_row_apply]
  refine congrArg (x (ix2 n j) + ·) ?_
  refine Finset.sum_congr (Finset.filter_congr fun e _ => ?_) fun _ _ => rfl
  rw [Cert.LibHostReads.col_apply hM g i e 0]

/-- ONE ACCUMULATION OF TWO STACKED PIECES, READ AT (n, j): accumulating the rows of `[u₁ ; u₂]` at the row numbers
    `[i₁ ; i₂]` into `z` gives `z(n, j)` plus the sum of the `u₁(e, j)` with `i₁(e) = n` plus the sum of the
    `u₂(e, j)` with `i₂(e) = n`. -/
theorem scatterAdd_concat_apply {N E C w : Nat} {φ : FTy} (hEE : E + E ≠ 1)
    (wf : ScatterDims.WF ⟨2, ![N, C]⟩ ⟨2, ![E + E, 1]⟩ ⟨2, ![E + E, C]⟩ [1] [0] [0] 1)
    (z : FVec Ideal ⟨2, ![N, C]⟩ φ) (i₁ i₂ : IVec ⟨1, ![E]⟩ w) (u₁ u₂ : FVec Ideal ⟨2, ![E, C]⟩ φ)
    (hci : Shape.Concatenates [(⟨1, ![E]⟩ : Shape), ⟨1, ![E]⟩] ⟨1, ![E + E]⟩ (0 : Fin 1))
    (hcu : Shape.Concatenates [(⟨2, ![E, C]⟩ : Shape), ⟨2, ![E, C]⟩] ⟨2, ![E + E, C]⟩ (0 : Fin 2))
    (g : (⟨1, ![E + E]⟩ : Shape).BroadcastsInDim ⟨2, ![E + E, 1]⟩ ![0]) (n : Fin N) (j : Fin C) :
    Host.scatterAdd (rowScatterDims N (E + E) C wf) z
        (broadcastInDim ⟨2, ![E + E, 1]⟩ ![0] g
          (concatenate ⟨1, ![E + E]⟩ (0 : Fin 1) [⟨⟨1, ![E]⟩, i₁⟩, ⟨⟨1, ![E]⟩, i₂⟩] hci))
        (concatenate ⟨2, ![E + E, C]⟩ (0 : Fin 2) [⟨⟨2, ![E, C]⟩, u₁⟩, ⟨⟨2, ![E, C]⟩, u₂⟩] hcu) (ix2 n j)
      = z (ix2 n j)
        + (∑ e ∈ Finset.univ.filter (fun e : Fin E => (i₁ (ix1 e)).toInt = (n.val : Int)), u₁ (ix2 e j)
          + ∑ e ∈ Finset.univ.filter (fun e : Fin E => (i₂ (ix1 e)).toInt = (n.val : Int)), u₂ (ix2 e j)) := by
  rw [scatterAdd_col_apply hEE, sum_filter_fin_add]
  refine congrArg (z (ix2 n j) + ·) (congrArg₂ (· + ·) ?_ ?_)
  · refine Finset.sum_congr (Finset.filter_congr fun e _ => ?_) fun e _ => ?_
    · rw [Cert.LibStackedPieces.stack2_vec_0 i₁ i₂ hci (Fin.castAdd E e) e rfl]
    · exact Cert.LibStackedPieces.stack2_rows_0 u₁ u₂ hcu (Fin.castAdd E e) j e rfl
  · refine Finset.sum_congr (Finset.filter_congr fun e _ => ?_) fun e _ => ?_
    · rw [Cert.LibStackedPieces.stack2_vec_1 i₁ i₂ hci (Fin.natAdd E e) e rfl]
    · exact Cert.LibStackedPieces.stack2_rows_1 u₁ u₂ hcu (Fin.natAdd E e) j e rfl

/-- ONE ACCUMULATION OF TWO STACKED PIECES IS THE SUM OF TWO ACCUMULATIONS: accumulating the rows of `[u₁ ; u₂]` at
    the row numbers `[i₁ ; i₂]` into a zero matrix is the sum of the accumulation of `u₁` at `i₁` into a zero matrix
    and of `u₂` at `i₂` into a zero matrix. `E₂ = E + E` is the stack's number of rows; the dimension records are
    the row scatter's. -/
theorem scatterAdd_concat {N E E₂ C w : Nat} {φ : FTy} (hE : E₂ = E + E) (hE1 : E ≠ 1) (hE21 : E₂ ≠ 1)
    (d₂ : ScatterDims ⟨2, ![N, C]⟩ ⟨2, ![E₂, 1]⟩ ⟨2, ![E₂, C]⟩)
    (wf₂ : ScatterDims.WF ⟨2, ![N, C]⟩ ⟨2, ![E₂, 1]⟩ ⟨2, ![E₂, C]⟩ [1] [0] [0] 1) (hd₂ : d₂ = rowScatterDims N E₂ C wf₂)
    (d₁ : ScatterDims ⟨2, ![N, C]⟩ ⟨2, ![E, 1]⟩ ⟨2, ![E, C]⟩)
    (wf₁ : ScatterDims.WF ⟨2, ![N, C]⟩ ⟨2, ![E, 1]⟩ ⟨2, ![E, C]⟩ [1] [0] [0] 1) (hd₁ : d₁ = rowScatterDims N E C wf₁)
    (z z₁ z₂ : FVec Ideal ⟨2, ![N, C]⟩ φ) (hz : ∀ i, z i = 0) (hz₁ : ∀ i, z₁ i = 0) (hz₂ : ∀ i, z₂ i = 0)
    (i₁ i₂ : IVec ⟨1, ![E]⟩ w) (u₁ u₂ : FVec Ideal ⟨2, ![E, C]⟩ φ)
    (hci : Shape.Concatenates [(⟨1, ![E]⟩ : Shape), ⟨1, ![E]⟩] ⟨1, ![E₂]⟩ (0 : Fin 1))
    (hcu : Shape.Concatenates [(⟨2, ![E, C]⟩ : Shape), ⟨2, ![E, C]⟩] ⟨2, ![E₂, C]⟩ (0 : Fin 2))
    (g₂ : (⟨1, ![E₂]⟩ : Shape).BroadcastsInDim ⟨2, ![E₂, 1]⟩ ![0])
    (g₁ : (⟨1, ![E]⟩ : Shape).BroadcastsInDim ⟨2, ![E, 1]⟩ ![0]) :
    Host.scatterAdd d₂ z
        (broadcastInDim ⟨2, ![E₂, 1]⟩ ![0] g₂
          (concatenate ⟨1, ![E₂]⟩ (0 : Fin 1) [⟨⟨1, ![E]⟩, i₁⟩, ⟨⟨1, ![E]⟩, i₂⟩] hci))
        (concatenate ⟨2, ![E₂, C]⟩ (0 : Fin 2) [⟨⟨2, ![E, C]⟩, u₁⟩, ⟨⟨2, ![E, C]⟩, u₂⟩] hcu)
      = addf (Host.scatterAdd d₁ z₁ (broadcastInDim ⟨2, ![E, 1]⟩ ![0] g₁ i₁) u₁)
             (Host.scatterAdd d₁ z₂ (broadcastInDim ⟨2, ![E, 1]⟩ ![0] g₁ i₂) u₂) := by
  subst hE
  subst hd₂
  subst hd₁
  funext i
  obtain ⟨n, j, rfl⟩ : ∃ (n : Fin N) (j : Fin C), i = ix2 n j := ⟨i 0, i 1, eq_ix2 i⟩
  rw [scatterAdd_concat_apply hE21, addf_apply, scatterAdd_col_apply hE1, scatterAdd_col_apply hE1,
    hz, hz₁, hz₂, zero_add, zero_add, zero_add]

/-- The float zero word spread to any shape reads the extended real 0 everywhere. -/
theorem zeroSplat_eq_zero {s : Shape} (h : (⟨0, ![]⟩ : Shape).BroadcastsInDim s (![] : Fin 0 → Fin s.rank)) (i : s.Idx) :
    broadcastInDim s ![] h (constant (F := Ideal) ⟨0, ![]⟩ .f32 0x00000000#32) i = 0 := by
  rw [broadcastInDim_apply (![] : Fin 0 → Fin s.rank) h _ i ix0 (fun a => a.elim0), constant_apply,
    Ideal.ofBits_zero_f32]

/-- ONE ACCUMULATION OF TWO STACKED PIECES IS THE SUM OF TWO ACCUMULATIONS, each into the zero word spread to
    `[N, C]`: `scatterAdd_concat` with the three zero matrices written as that spread constant. -/
theorem scatterAdd_concat_zeroSplat {N E E₂ C w : Nat} (hE : E₂ = E + E) (hE1 : E ≠ 1) (hE21 : E₂ ≠ 1)
    (d₂ : ScatterDims ⟨2, ![N, C]⟩ ⟨2, ![E₂, 1]⟩ ⟨2, ![E₂, C]⟩)
    (wf₂ : ScatterDims.WF ⟨2, ![N, C]⟩ ⟨2, ![E₂, 1]⟩ ⟨2, ![E₂, C]⟩ [1] [0] [0] 1) (hd₂ : d₂ = rowScatterDims N E₂ C wf₂)
    (d₁ : ScatterDims ⟨2, ![N, C]⟩ ⟨2, ![E, 1]⟩ ⟨2, ![E, C]⟩)
    (wf₁ : ScatterDims.WF ⟨2, ![N, C]⟩ ⟨2, ![E, 1]⟩ ⟨2, ![E, C]⟩ [1] [0] [0] 1) (hd₁ : d₁ = rowScatterDims N E C wf₁)
    (gz : (⟨0, ![]⟩ : Shape).BroadcastsInDim ⟨2, ![N, C]⟩ (![] : Fin 0 → Fin 2))
    (i₁ i₂ : IVec ⟨1, ![E]⟩ w) (u₁ u₂ : FVec Ideal ⟨2, ![E, C]⟩ .f32)
    (hci : Shape.Concatenates [(⟨1, ![E]⟩ : Shape), ⟨1, ![E]⟩] ⟨1, ![E₂]⟩ (0 : Fin 1))
    (hcu : Shape.Concatenates [(⟨2, ![E, C]⟩ : Shape), ⟨2, ![E, C]⟩] ⟨2, ![E₂, C]⟩ (0 : Fin 2))
    (g₂ : (⟨1, ![E₂]⟩ : Shape).BroadcastsInDim ⟨2, ![E₂, 1]⟩ ![0])
    (g₁ : (⟨1, ![E]⟩ : Shape).BroadcastsInDim ⟨2, ![E, 1]⟩ ![0]) :
    Host.scatterAdd d₂ (broadcastInDim ⟨2, ![N, C]⟩ ![] gz (constant (F := Ideal) ⟨0, ![]⟩ .f32 0x00000000#32))
        (broadcastInDim ⟨2, ![E₂, 1]⟩ ![0] g₂
          (concatenate ⟨1, ![E₂]⟩ (0 : Fin 1) [⟨⟨1, ![E]⟩, i₁⟩, ⟨⟨1, ![E]⟩, i₂⟩] hci))
        (concatenate ⟨2, ![E₂, C]⟩ (0 : Fin 2) [⟨⟨2, ![E, C]⟩, u₁⟩, ⟨⟨2, ![E, C]⟩, u₂⟩] hcu)
      = addf
          (Host.scatterAdd d₁ (broadcastInDim ⟨2, ![N, C]⟩ ![] gz (constant (F := Ideal) ⟨0, ![]⟩ .f32 0x00000000#32))
            (broadcastInDim ⟨2, ![E, 1]⟩ ![0] g₁ i₁) u₁)
          (Host.scatterAdd d₁ (broadcastInDim ⟨2, ![N, C]⟩ ![] gz (constant (F := Ideal) ⟨0, ![]⟩ .f32 0x00000000#32))
            (broadcastInDim ⟨2, ![E, 1]⟩ ![0] g₁ i₂) u₂) :=
  scatterAdd_concat hE hE1 hE21 d₂ wf₂ hd₂ d₁ wf₁ hd₁ _ _ _ (zeroSplat_eq_zero gz) (zeroSplat_eq_zero gz)
    (zeroSplat_eq_zero gz) i₁ i₂ u₁ u₂ hci hcu g₂ g₁

/-- A GATHER FROM A NARROWED TABLE: at the extended reals a narrowing change of float format is the identity, so the
    gather from the narrowed table reads, at every index, what the gather from the table itself reads. -/
theorem gather_truncf {s si t : Shape} {w : Nat} {φ ψ : FTy} (gd : GatherDims s si t) (x : FVec Ideal s φ)
    (hb : ψ.bits < φ.bits) (idx : IVec si w) (j : t.Idx) :
    (Host.gather gd (truncf ψ x hb) idx : FVec Ideal t ψ) j = (Host.gather gd x idx : FVec Ideal t φ) j := rfl

/-- The same as an equation of arrays of extended reals. -/
theorem gather_truncf_eq {s si t : Shape} {w : Nat} {φ ψ : FTy} (gd : GatherDims s si t) (x : FVec Ideal s φ)
    (hb : ψ.bits < φ.bits) (idx : IVec si w) :
    (Host.gather gd (truncf ψ x hb) idx : t.Idx → EReal) = (Host.gather gd x idx : t.Idx → EReal) := rfl

end Cert.LibScatterConcat

end
-- ==== Proof.Spec.lean ====
/-
  The reference network as whole-array functions, at the extended reals.

  One message-passing layer of a graph network on N = 100000 nodes and E = 1000000 directed edges, feature width 64.
  For every edge e with receiver r(e) and sender s(e): the edge perceptron reads the row [ea(e) | x(r(e)) | x(s(e))] of
  width 192, applies x ↦ tanh(x·W₁ + b₁), x ↦ tanh(x·W₂ + b₂), x ↦ x·W₃ + b₃ and normalizes the resulting row of width 64
  (subtract the row mean, multiply by the reciprocal square root of the mean squared deviation plus a constant, scale
  by γ and shift by β): the message of e. The aggregate of node n is the sum of the messages of the edges it receives
  minus the sum of the messages of the edges it sends. The node perceptron reads the row [x(n) | aggregate(n)] of
  width 128 through the same three stages and normalization; the node result adds x(n), the edge result adds ea(e).
  Each definition below is the host program's spelling of one of these stages, over explicit arrays: the parts a tiled
  program computes block by block, and the parts both programs compute on whole arrays.
-/
import proofs.«124261_j53137335386495_2_alg».proof.Proof.Gen.ReferenceIdeal
import Idealize.ShloMosaic.PureOps.Ideal

noncomputable section

namespace Cert.Spec

open Cert.ReferenceIdeal Cert.ReferenceIdeal.Gen Idealize.ShloMosaic

/-- An index vector as jax reads it for a row lookup: a negative index counts from the end (the table has 100000 rows),
    and the result is a column of indices. -/
def gidx (i : IVec S1000000 32) : IVec S1000000x1 32 :=
  broadcastInDim S1000000x1 ![0] bcast_S1000000_S1000000x1_0 (select (cmpi .slt i (broadcastInDim S1000000 ![] bcast_S_S1000000 (constantI S_ 32 0#32))) (addi i (broadcastInDim S1000000 ![] bcast_S_S1000000 (constantI S_ 32 100000#32))) i)

/-- The rows of the node table `x` named by the index vector `i`: one row per edge. -/
def rowsAt (x : FVec Ideal S100000x64 .f32) (i : IVec S1000000 32) : FVec Ideal S1000000x64 .f32 :=
  Host.gather gather_S100000x64_S1000000x1_S1000000x64_1_0_n_n_0_1_164 x (gidx i)

/-- The edge perceptron before normalization: the three dense stages on the rows [ea | xr | xs]. -/
def edgePre (ea xr xs : FVec Ideal S1000000x64 .f32) (w1 : FVec Ideal S192x128 .f32) (b1 : FVec Ideal S128 .f32)
    (w2 : FVec Ideal S128x128 .f32) (b2 : FVec Ideal S128 .f32) (w3 : FVec Ideal S128x64 .f32) (b3 : FVec Ideal S64 .f32) : FVec Ideal S1000000x64 .f32 :=
  addf (Host.dotGeneral dot_S1000000x128_S128x64_S1000000x64_1_0_0_1_n_n none (Host.tanh (addf (Host.dotGeneral dot_S1000000x128_S128x128_S1000000x128_1_0_0_1_n_n none (Host.tanh (addf (Host.dotGeneral dot_S1000000x192_S192x128_S1000000x128_1_0_0_1_n_n none (concatenate S1000000x192 1 [⟨S1000000x64, ea⟩, ⟨S1000000x64, xr⟩, ⟨S1000000x64, xs⟩] concatenates_S1000000x64_S1000000x64_S1000000x64_S1000000x192_d1) w1) (broadcastInDim S1000000x128 ![0, 1] bcast_S1x128_S1000000x128_0_1 (broadcastInDim S1x128 ![1] bcast_S128_S1x128_1 b1)))) w2) (broadcastInDim S1000000x128 ![0, 1] bcast_S1x128_S1000000x128_0_1 (broadcastInDim S1x128 ![1] bcast_S128_S1x128_1 b2)))) w3) (broadcastInDim S1000000x64 ![0, 1] bcast_S1x64_S1000000x64_0_1 (broadcastInDim S1x64 ![1] bcast_S64_S1x64_1 b3))

/-- Row-wise normalization of an edge-sized array with weight row γ and bias row β. -/
def edgeNorm (h : FVec Ideal S1000000x64 .f32) (g β : FVec Ideal S64 .f32) : FVec Ideal S1000000x64 .f32 :=
  addf (mulf (mulf (subf h (broadcastInDim S1000000x64 ![0, 1] bcast_S1000000x1_S1000000x64_0_1 (Host.divf (broadcastInDim S1000000x1 ![0] bcast_S1000000_S1000000x1_0 (Host.reduceAdd h (constant S_ .f32 0x00000000#32) reducesTo_S1000000x64_S1000000_d1 h_S_)) (broadcastInDim S1000000x1 ![] bcast_S_S1000000x1 (constant S_ .f32 0x42800000#32))))) (broadcastInDim S1000000x64 ![0, 1] bcast_S1000000x1_S1000000x64_0_1 (Host.rsqrt (addf (Host.divf (broadcastInDim S1000000x1 ![0] bcast_S1000000_S1000000x1_0 (Host.reduceAdd (mulf (subf h (broadcastInDim S1000000x64 ![0, 1] bcast_S1000000x1_S1000000x64_0_1 (Host.divf (broadcastInDim S1000000x1 ![0] bcast_S1000000_S1000000x1_0 (Host.reduceAdd h (constant S_ .f32 0x00000000#32) reducesTo_S1000000x64_S1000000_d1 h_S_)) (broadcastInDim S1000000x1 ![] bcast_S_S1000000x1 (constant S_ .f32 0x42800000#32))))) (subf h (broadcastInDim S1000000x64 ![0, 1] bcast_S1000000x1_S1000000x64_0_1 (Host.divf (broadcastInDim S1000000x1 ![0] bcast_S1000000_S1000000x1_0 (Host.reduceAdd h (constant S_ .f32 0x00000000#32) reducesTo_S1000000x64_S1000000_d1 h_S_)) (broadcastInDim S1000000x1 ![] bcast_S_S1000000x1 (constant S_ .f32 0x42800000#32)))))) (constant S_ .f32 0x00000000#32) reducesTo_S1000000x64_S1000000_d1 h_S_)) (broadcastInDim S1000000x1 ![] bcast_S_S1000000x1 (constant S_ .f32 0x42800000#32))) (broadcastInDim S1000000x1 ![] bcast_S_S1000000x1 (constant S_ .f32 0x3727C5AC#32)))))) (broadcastInDim S1000000x64 ![0, 1] bcast_S1x64_S1000000x64_0_1 (broadcastInDim S1x64 ![1] bcast_S64_S1x64_1 g))) (broadcastInDim S1000000x64 ![0, 1] bcast_S1x64_S1000000x64_0_1 (broadcastInDim S1x64 ![1] bcast_S64_S1x64_1 β))

/-- The messages: the normalized edge perceptron. -/
def msg (ea xr xs : FVec Ideal S1000000x64 .f32) (w1 : FVec Ideal S192x128 .f32) (b1 : FVec Ideal S128 .f32)
    (w2 : FVec Ideal S128x128 .f32) (b2 : FVec Ideal S128 .f32) (w3 : FVec Ideal S128x64 .f32) (b3 g β : FVec Ideal S64 .f32) : FVec Ideal S1000000x64 .f32 :=
  edgeNorm (edgePre ea xr xs w1 b1 w2 b2 w3 b3) g β

/-- The antisymmetric aggregation: messages summed at their receivers, negated messages summed at their senders. -/
def agg (rcv snd : IVec S1000000 32) (mg : FVec Ideal S1000000x64 .f32) : FVec Ideal S100000x64 .f32 :=
  addf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 rcv) mg) (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 snd) (Host.negf mg))

/-- The node perceptron before normalization: the three dense stages on the rows [x | aggregate]. -/
def nodePre (x ag : FVec Ideal S100000x64 .f32) (w1 : FVec Ideal S128x128 .f32) (b1 : FVec Ideal S128 .f32)
    (w2 : FVec Ideal S128x128 .f32) (b2 : FVec Ideal S128 .f32) (w3 : FVec Ideal S128x64 .f32) (b3 : FVec Ideal S64 .f32) : FVec Ideal S100000x64 .f32 :=
  addf (Host.dotGeneral dot_S100000x128_S128x64_S100000x64_1_0_0_1_n_n none (Host.tanh (addf (Host.dotGeneral dot_S100000x128_S128x128_S100000x128_1_0_0_1_n_n none (Host.tanh (addf (Host.dotGeneral dot_S100000x128_S128x128_S100000x128_1_0_0_1_n_n none (concatenate S100000x128 1 [⟨S100000x64, x⟩, ⟨S100000x64, ag⟩] concatenates_S100000x64_S100000x64_S100000x128_d1) w1) (broadcastInDim S100000x128 ![0, 1] bcast_S1x128_S100000x128_0_1 (broadcastInDim S1x128 ![1] bcast_S128_S1x128_1 b1)))) w2) (broadcastInDim S100000x128 ![0, 1] bcast_S1x128_S100000x128_0_1 (broadcastInDim S1x128 ![1] bcast_S128_S1x128_1 b2)))) w3) (broadcastInDim S100000x64 ![0, 1] bcast_S1x64_S100000x64_0_1 (broadcastInDim S1x64 ![1] bcast_S64_S1x64_1 b3))

/-- Row-wise normalization of a node-sized array with weight row γ and bias row β. -/
def nodeNorm (h : FVec Ideal S100000x64 .f32) (g β : FVec Ideal S64 .f32) : FVec Ideal S100000x64 .f32 :=
  addf (mulf (mulf (subf h (broadcastInDim S100000x64 ![0, 1] bcast_S100000x1_S100000x64_0_1 (Host.divf (broadcastInDim S100000x1 ![0] bcast_S100000_S100000x1_0 (Host.reduceAdd h (constant S_ .f32 0x00000000#32) reducesTo_S100000x64_S100000_d1 h_S_)) (broadcastInDim S100000x1 ![] bcast_S_S100000x1 (constant S_ .f32 0x42800000#32))))) (broadcastInDim S100000x64 ![0, 1] bcast_S100000x1_S100000x64_0_1 (Host.rsqrt (addf (Host.divf (broadcastInDim S100000x1 ![0] bcast_S100000_S100000x1_0 (Host.reduceAdd (mulf (subf h (broadcastInDim S100000x64 ![0, 1] bcast_S100000x1_S100000x64_0_1 (Host.divf (broadcastInDim S100000x1 ![0] bcast_S100000_S100000x1_0 (Host.reduceAdd h (constant S_ .f32 0x00000000#32) reducesTo_S100000x64_S100000_d1 h_S_)) (broadcastInDim S100000x1 ![] bcast_S_S100000x1 (constant S_ .f32 0x42800000#32))))) (subf h (broadcastInDim S100000x64 ![0, 1] bcast_S100000x1_S100000x64_0_1 (Host.divf (broadcastInDim S100000x1 ![0] bcast_S100000_S100000x1_0 (Host.reduceAdd h (constant S_ .f32 0x00000000#32) reducesTo_S100000x64_S100000_d1 h_S_)) (broadcastInDim S100000x1 ![] bcast_S_S100000x1 (constant S_ .f32 0x42800000#32)))))) (constant S_ .f32 0x00000000#32) reducesTo_S100000x64_S100000_d1 h_S_)) (broadcastInDim S100000x1 ![] bcast_S_S100000x1 (constant S_ .f32 0x42800000#32))) (broadcastInDim S100000x1 ![] bcast_S_S100000x1 (constant S_ .f32 0x3727C5AC#32)))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 β))

/-- The node result: the normalized node perceptron plus the node's own features. -/
def nodeOut (x ag : FVec Ideal S100000x64 .f32) (w1 : FVec Ideal S128x128 .f32) (b1 : FVec Ideal S128 .f32)
    (w2 : FVec Ideal S128x128 .f32) (b2 : FVec Ideal S128 .f32) (w3 : FVec Ideal S128x64 .f32) (b3 g β : FVec Ideal S64 .f32) : FVec Ideal S100000x64 .f32 :=
  addf (nodeNorm (nodePre x ag w1 b1 w2 b2 w3 b3) g β) x

end Cert.Spec

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibRowwise.lean ====
/-
  Row-wise array code on a block of rows, at the extended reals.

  Much array code treats the rows of a matrix independently: row r of the result is a function of row r of the operand
  (and of small parameter arrays) alone. A dense layer x·W + b, a pointwise map, a sum along each row and a
  concatenation of columns are all of this kind. For such code, running it on a BLOCK of rows of X — any selection of
  rows, given by a map `row` from the block's row numbers to the matrix's — gives the same block of rows of the result of
  running it on the whole of X. This file states that, operation by operation, for a kernel's spelling of each
  operation on the block against the host's spelling on the whole matrix, as the closure of one relation: `RowsOf row A X`
  says entry (a, b) of the block A is entry (row a, b) of X. Nothing of real arithmetic is used beyond 0 + x = x, so
  every statement holds at the infinities too. Generic in the extents and the float formats.
-/
import Idealize.ShloMosaic.Lib.StackMember
import Idealize.ShloMosaic.Lib.KernelVsHost
import Idealize.ShloMosaic.Lib.ValueLayout
import Idealize.ShloMosaic.Lib.Pipeline.Value
import Idealize.ShloMosaic.PureOps.Ideal.Laws
import proofs.«124261_j53137335386495_2_alg».proof.Proof.LibRowBlockDot
import proofs.«124261_j53137335386495_2_alg».proof.Proof.LibHostReads
import proofs.«124261_j53137335386495_2_alg».proof.Proof.LibKeepdims

noncomputable section

open scoped BigOperators

namespace Cert.LibRowwise

open Idealize.ShloMosaic Idealize.ShloMosaic.ValueIdx

variable {m M n : Nat} {φ ψ : FTy}

/-- Entry (a, b) of the block `A` is entry (`row a`, b) of `X`: the block holds the rows `row` of `X`. -/
def RowsOf (row : Fin m → Fin M) (A : FVec Ideal ⟨2, ![m, n]⟩ φ) (X : FVec Ideal ⟨2, ![M, n]⟩ ψ) : Prop :=
  ∀ (a : Fin m) (b : Fin n), A (ix2 a b) = X (ix2 (row a) b)

/-- Entry a of the vector `u` is entry `row a` of `U`: one number per row, the same selection of rows. -/
def RowsOf1 (row : Fin m → Fin M) (u : FVec Ideal ⟨1, ![m]⟩ φ) (U : FVec Ideal ⟨1, ![M]⟩ ψ) : Prop :=
  ∀ a : Fin m, u (ix1 a) = U (ix1 (row a))

/-- A change of float format is the identity on the extended reals: the narrowed block still holds the rows. -/
theorem RowsOf.truncf {row : Fin m → Fin M} {A : FVec Ideal ⟨2, ![m, n]⟩ φ} {X : FVec Ideal ⟨2, ![M, n]⟩ ψ} {χ : FTy}
    (h : RowsOf row A X) (hb : χ.bits < φ.bits) : RowsOf row (truncf χ A hb) X :=
  fun a b => h a b

/-- A dense layer: the block's product with the weights into the zero accumulator plus the bias laid along every row,
    against the host's product of the whole matrix plus the bias broadcast to one row and then down the rows. The
    weights and the bias agree entry by entry; the two products' dimension records are the plain ones. -/
theorem RowsOf.dense {K N : Nat} {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b))
    {bk bh : FVec Ideal ⟨1, ![N]⟩ .f32} (hb : ∀ q, bk (ix1 q) = bh (ix1 q)) (hN : N ≠ 1)
    (h1 : (⟨1, ![N]⟩ : Shape).ShapeCasts ⟨2, ![1, N]⟩) (h2 : (⟨2, ![1, N]⟩ : Shape).Broadcasts ⟨2, ![m, N]⟩)
    (g1 : (⟨1, ![N]⟩ : Shape).BroadcastsInDim ⟨2, ![1, N]⟩ ![1])
    (g2 : (⟨2, ![1, N]⟩ : Shape).BroadcastsInDim ⟨2, ![M, N]⟩ ![0, 1]) :
    RowsOf row
      (addf (matmul D prec A B (constant (F := Ideal) ⟨2, ![m, N]⟩ .f32 0x00000000#32))
        (broadcastTo ⟨2, ![m, N]⟩ (shapeCast ⟨2, ![1, N]⟩ bk h1) h2))
      (addf (Host.dotGeneral D' prec' X W)
        (broadcastInDim ⟨2, ![M, N]⟩ ![0, 1] g2 (broadcastInDim ⟨2, ![1, N]⟩ ![1] g1 bh))) := by
  subst hD hD'
  intro a b
  rw [addf_apply, addf_apply,
    Cert.LibRowBlockDot.matmul_rowBlock_apply prec prec' X W A B row hA hB a b,
    broadcastTo_1b_ab_apply, shapeCast_a_1a_apply, Cert.LibHostReads.rowBias_apply hN g1 g2 bh (row a) b, hb b]

/-- The leaky rectifier x ↦ (x ≥ z ? x : c·x), the kernel's with its two scalars broadcast, the host's with the two
    scalars as rank-0 constants broadcast to the matrix (the slope through an identity conversion). -/
theorem RowsOf.leaky {row : Fin m → Fin M} {A : FVec Ideal ⟨2, ![m, n]⟩ .f32} {X : FVec Ideal ⟨2, ![M, n]⟩ .f32}
    (h : RowsOf row A X) (z c : BitVec 32)
    (g : (⟨0, ![]⟩ : Shape).BroadcastsInDim ⟨2, ![M, n]⟩ ![]) :
    RowsOf row
      (select (cmpf .oge A (broadcast ⟨2, ![m, n]⟩ (Scalar.ofBits (F := Ideal) .f32 z))) A
        (mulf (broadcast ⟨2, ![m, n]⟩ (Scalar.ofBits (F := Ideal) .f32 c)) A))
      (select (cmpf .oge X (broadcastInDim ⟨2, ![M, n]⟩ ![] g (constant (F := Ideal) ⟨0, ![]⟩ .f32 z))) X
        (mulf (broadcastInDim ⟨2, ![M, n]⟩ ![] g (id (constant (F := Ideal) ⟨0, ![]⟩ .f32 c))) X)) := by
  intro a b
  rw [select_apply, select_apply, cmpf_apply, cmpf_apply, mulf_apply, mulf_apply, broadcast_apply, broadcast_apply,
    Cert.LibHostReads.splat_apply, Cert.LibHostReads.splat_apply, h a b]
  rfl

/-- The hyperbolic tangent, entry by entry: the kernel's and the host's are one function of an extended real. -/
theorem RowsOf.tanh {row : Fin m → Fin M} {A : FVec Ideal ⟨2, ![m, n]⟩ φ} {X : FVec Ideal ⟨2, ![M, n]⟩ φ}
    (h : RowsOf row A X) : RowsOf row (tanh A) (Host.tanh X) :=
  fun a b => congrArg Ideal.tanh (h a b)

/-- The exponential, entry by entry: the kernel's and the host's are one function of an extended real. -/
theorem RowsOf.exp {row : Fin m → Fin M} {A : FVec Ideal ⟨2, ![m, n]⟩ φ} {X : FVec Ideal ⟨2, ![M, n]⟩ φ}
    (h : RowsOf row A X) : RowsOf row (exp A) (Host.exp X) :=
  fun a b => congrArg Ideal.exp (h a b)

/-- A product, entry by entry. -/
theorem RowsOf.mulf {row : Fin m → Fin M} {A B : FVec Ideal ⟨2, ![m, n]⟩ φ} {X Y : FVec Ideal ⟨2, ![M, n]⟩ φ}
    (hA : RowsOf row A X) (hB : RowsOf row B Y) : RowsOf row (mulf A B) (mulf X Y) :=
  fun a b => congrArg₂ (· * ·) (hA a b) (hB a b)

/-- A sum, entry by entry. -/
theorem RowsOf.addf {row : Fin m → Fin M} {A B : FVec Ideal ⟨2, ![m, n]⟩ φ} {X Y : FVec Ideal ⟨2, ![M, n]⟩ φ}
    (hA : RowsOf row A X) (hB : RowsOf row B Y) : RowsOf row (addf A B) (addf X Y) :=
  fun a b => congrArg₂ (· + ·) (hA a b) (hB a b)

/-- The columns from `o` on, `k` of them: the same cut of the block and of the matrix. -/
theorem RowsOf.cols {k : Nat} {row : Fin m → Fin M} {A : FVec Ideal ⟨2, ![m, n]⟩ φ} {X : FVec Ideal ⟨2, ![M, n]⟩ ψ}
    (h : RowsOf row A X) (o : Nat)
    (hs : (⟨2, ![m, n]⟩ : Shape).Slices ![0, o] ⟨2, ![m, k]⟩) (hs' : (⟨2, ![M, n]⟩ : Shape).Slices ![0, o] ⟨2, ![M, k]⟩) :
    RowsOf row (extractStridedSlice ⟨2, ![m, k]⟩ ![0, o] A hs) (extractStridedSlice ⟨2, ![M, k]⟩ ![0, o] X hs') := by
  intro a b
  rw [slice2_axis1_eq o A hs a b, slice2_axis1_eq o X hs' (row a) b]
  exact h a _

/-- The sum along each row: the kernel's lane reduction from the neutral accumulator against the host's reduction
    from an initial value that is zero. -/
theorem RowsOf.rowSum {row : Fin m → Fin M} {A : FVec Ideal ⟨2, ![m, n]⟩ φ} {X : FVec Ideal ⟨2, ![M, n]⟩ φ}
    (h : RowsOf row A X) (acc : BitVec φ.bits)
    (hr : (⟨2, ![m, n]⟩ : Shape).Reduces [(1 : Fin 2)] ⟨1, ![m]⟩) (hφ : FKind.Formats φ) (hacc : acc = FKind.add.neutral φ hφ)
    {u : Shape} (init : u.Idx → Ideal φ) (hr' : (⟨2, ![M, n]⟩ : Shape).ReducesTo [(1 : Fin 2)] ⟨1, ![M]⟩)
    (hR : (⟨2, ![M, n]⟩ : Shape).Reduces [(1 : Fin 2)] ⟨1, ![M]⟩) (hu : 0 < u.numel)
    (h0 : init (Shape.Idx.first hu) = 0) :
    RowsOf1 row (multiReduction .add [(1 : Fin 2)] ⟨1, ![m]⟩ A acc hr hφ hacc) (Host.reduceAdd X init hr' hu) := by
  intro a
  rw [multiReduction_add_row A acc hr hφ hacc a]
  show _ = Ideal.hostReduceAdd hr' X (init (Shape.Idx.first hu)) (ix1 (row a))
  rw [Ideal.hostReduceAdd_single hr' hR, h0, zero_add]
  exact Finset.sum_congr rfl fun k _ => by rw [lift_row hR (row a) k]; exact h a k

/-- A sum of two per-row vectors, entry by entry. -/
theorem RowsOf1.addf {row : Fin m → Fin M} {u v : FVec Ideal ⟨1, ![m]⟩ φ} {U V : FVec Ideal ⟨1, ![M]⟩ φ}
    (hu : RowsOf1 row u U) (hv : RowsOf1 row v V) : RowsOf1 row (addf u v) (addf U V) :=
  fun a => congrArg₂ (· + ·) (hu a) (hv a)

/-- A scalar laid along the rows: the kernel's broadcast of a scalar word against the host's rank-0 constant
    broadcast to the vector. -/
theorem RowsOf1.splat (row : Fin m → Fin M) (z : BitVec 32) (g : (⟨0, ![]⟩ : Shape).BroadcastsInDim ⟨1, ![M]⟩ ![]) :
    RowsOf1 row (broadcast ⟨1, ![m]⟩ (Scalar.ofBits (F := Ideal) .f32 z))
      (broadcastInDim ⟨1, ![M]⟩ ![] g (constant (F := Ideal) ⟨0, ![]⟩ .f32 z)) := by
  intro a
  rw [broadcast_apply, Cert.LibHostReads.splat_apply]
  rfl

/-- Two blocks set side by side along the columns: the concatenation of the blocks holds the rows of the
    concatenation of the matrices. -/
theorem RowsOf.concat {n₁ n₂ : Nat} {row : Fin m → Fin M}
    {A₁ : FVec Ideal ⟨2, ![m, n₁]⟩ φ} {X₁ : FVec Ideal ⟨2, ![M, n₁]⟩ φ} (h₁ : RowsOf row A₁ X₁)
    {A₂ : FVec Ideal ⟨2, ![m, n₂]⟩ φ} {X₂ : FVec Ideal ⟨2, ![M, n₂]⟩ φ} (h₂ : RowsOf row A₂ X₂)
    (hc : Shape.Concatenates [(⟨2, ![m, n₁]⟩ : Shape), ⟨2, ![m, n₂]⟩] ⟨2, ![m, n]⟩ (1 : Fin 2))
    (hc' : Shape.Concatenates [(⟨2, ![M, n₁]⟩ : Shape), ⟨2, ![M, n₂]⟩] ⟨2, ![M, n]⟩ (1 : Fin 2)) :
    RowsOf row (concatenate ⟨2, ![m, n]⟩ (1 : Fin 2) [⟨⟨2, ![m, n₁]⟩, A₁⟩, ⟨⟨2, ![m, n₂]⟩, A₂⟩] hc)
      (concatenate ⟨2, ![M, n]⟩ (1 : Fin 2) [⟨⟨2, ![M, n₁]⟩, X₁⟩, ⟨⟨2, ![M, n₂]⟩, X₂⟩] hc') := by
  intro a b
  by_cases hb : b.val < n₁
  · rw [concatenate_pair_apply_left (1 : Fin 2) A₁ A₂ hc (ix2 a b) rfl (ix2 a ⟨b.val, hb⟩)
        (fun c => by match c with | ⟨0, _⟩ => rfl | ⟨1, _⟩ => rfl),
      concatenate_pair_apply_left (1 : Fin 2) X₁ X₂ hc' (ix2 (row a) b) rfl (ix2 (row a) ⟨b.val, hb⟩)
        (fun c => by match c with | ⟨0, _⟩ => rfl | ⟨1, _⟩ => rfl)]
    exact h₁ a _
  · have hn : n₁ + n₂ = n := by have e := hc.2.2; simpa using e
    have hb2 : b.val - n₁ < n₂ := by have := b.isLt; omega
    rw [concatenate_pair_apply_right (1 : Fin 2) A₁ A₂ hc (ix2 a b) rfl rfl (ix2 a ⟨b.val - n₁, hb2⟩)
        (fun c hne => by match c with | ⟨0, _⟩ => rfl | ⟨1, _⟩ => exact absurd rfl hne)
        (by show b.val - n₁ + n₁ = b.val; omega),
      concatenate_pair_apply_right (1 : Fin 2) X₁ X₂ hc' (ix2 (row a) b) rfl rfl (ix2 (row a) ⟨b.val - n₁, hb2⟩)
        (fun c hne => by match c with | ⟨0, _⟩ => rfl | ⟨1, _⟩ => exact absurd rfl hne)
        (by show b.val - n₁ + n₁ = b.val; omega)]
    exact h₂ a _

end Cert.LibRowwise

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibMlpBlock.lean ====
/-
  A perceptron layer whose bias is held as a one-row matrix, on a block of rows, at the extended reals.

  A dense layer X·W + B with the bias B of shape [1,N] treats the rows of X independently: row r of the result depends
  on row r of X alone. So a tiled program that runs the layer on a block of rows of X (any selection of rows, given by
  a map `row` from the block's row numbers to the matrix's) gets that block of rows of the host's layer on the whole
  of X. This file states that for the three forms such a program prints — the product alone, the product plus the bias
  row, and a bias row added to a block that is already there — against the host's spelling with the row broadcast down
  the rows, as closure lemmas of the relation `RowsOf row A X` (entry (a, b) of the block A is entry (row a, b) of X).
  Nothing of real arithmetic is used beyond 0 + x = x, so every statement holds at the infinities too. Generic in the
  extents and the operand formats.
-/
import proofs.«124261_j53137335386495_2_alg».proof.Proof.LibRowwise
import proofs.«124261_j53137335386495_2_alg».proof.Proof.LibBiasRows

noncomputable section

namespace Cert.LibMlpBlock

open Idealize.ShloMosaic Idealize.ShloMosaic.ValueIdx Cert.LibRowwise

variable {m M K N : Nat}

/-- A one-row matrix passed through an identity cast and laid along the `m` rows of a block reads, at (p, q), the
    row's entry q. -/
theorem rowDown_apply (B : FVec Ideal ⟨2, ![1, N]⟩ .f32)
    (hs : (⟨2, ![1, N]⟩ : Shape).ShapeCasts ⟨2, ![1, N]⟩) (hbc : (⟨2, ![1, N]⟩ : Shape).Broadcasts ⟨2, ![m, N]⟩)
    (p : Fin m) (q : Fin N) :
    broadcastTo ⟨2, ![m, N]⟩ (shapeCast ⟨2, ![1, N]⟩ B hs) hbc (ix2 p q) = B (ix2 (0 : Fin 1) q) := by
  rw [broadcastTo_1b_ab_apply, shapeCast_self]

/-- A block that holds rows of X, read at a block index `j` against a matrix index `i` whose row is the row that
    `j`'s row stands for and whose column is `j`'s. -/
theorem RowsOf.entry {n : Nat} {φ ψ : FTy} {row : Fin m → Fin M}
    {A : FVec Ideal ⟨2, ![m, n]⟩ φ} {X : FVec Ideal ⟨2, ![M, n]⟩ ψ} (h : RowsOf row A X)
    (j : (⟨2, ![m, n]⟩ : Shape).Idx) (i : (⟨2, ![M, n]⟩ : Shape).Idx)
    (h0 : (i 0).val = (row (j 0)).val) (h1 : (i 1).val = (j 1).val) : A j = X i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact h (j 0) (j 1)

/-- The product alone: the block's product with the weights into the zero accumulator holds the rows of the host's
    product of the whole matrix. The weights agree entry by entry; the two dimension records are the plain ones. -/
theorem RowsOf.product {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b)) :
    RowsOf row (matmul D prec A B (constant (F := Ideal) ⟨2, ![m, N]⟩ .f32 0x00000000#32))
      (Host.dotGeneral D' prec' X W) := by
  subst hD hD'
  intro a b
  exact Cert.LibRowBlockDot.matmul_rowBlock_apply prec prec' X W A B row hA hB a b

/-- A bias row added to a block that holds rows of X, through the identity casts and the row broadcast a tiled
    program prints, holds the same rows of the host's X plus the row broadcast down the rows. -/
theorem RowsOf.biasRow {row : Fin m → Fin M}
    {A : FVec Ideal ⟨2, ![m, N]⟩ .f32} {X : FVec Ideal ⟨2, ![M, N]⟩ .f32} (hA : RowsOf row A X)
    {bk bh : FVec Ideal ⟨2, ![1, N]⟩ .f32} (hb : ∀ q, bk (ix2 (0 : Fin 1) q) = bh (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (g : (⟨2, ![1, N]⟩ : Shape).BroadcastsInDim ⟨2, ![M, N]⟩ (![0, 1] : Fin 2 → Fin 2)) :
    RowsOf row (addf (shapeCast ⟨2, ![m, N]⟩ A hs) (broadcastTo ⟨2, ![m, N]⟩ (shapeCast ⟨2, ![1, N]⟩ bk hs') hbc))
      (addf X (broadcastInDim ⟨2, ![M, N]⟩ ![0, 1] g bh)) := by
  intro a b
  rw [addf_apply, addf_apply, shapeCast_self, rowDown_apply, Cert.LibBiasRows.rowBcast_apply, hA a b, hb b]

/-- A dense layer with the bias as a one-row matrix: the block's product into the zero accumulator plus the row laid
    along every row of the block, against the host's product of the whole matrix plus the row broadcast down the rows. -/
theorem RowsOf.denseRow {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b))
    {bk bh : FVec Ideal ⟨2, ![1, N]⟩ .f32} (hb : ∀ q, bk (ix2 (0 : Fin 1) q) = bh (ix2 (0 : Fin 1) q))
    (hs' : (⟨2, ![1, N]⟩ : Shape).ShapeCasts ⟨2, ![1, N]⟩) (hbc : (⟨2, ![1, N]⟩ : Shape).Broadcasts ⟨2, ![m, N]⟩)
    (g : (⟨2, ![1, N]⟩ : Shape).BroadcastsInDim ⟨2, ![M, N]⟩ (![0, 1] : Fin 2 → Fin 2)) :
    RowsOf row
      (addf (matmul D prec A B (constant (F := Ideal) ⟨2, ![m, N]⟩ .f32 0x00000000#32))
        (broadcastTo ⟨2, ![m, N]⟩ (shapeCast ⟨2, ![1, N]⟩ bk hs') hbc))
      (addf (Host.dotGeneral D' prec' X W) (broadcastInDim ⟨2, ![M, N]⟩ ![0, 1] g bh)) := by
  intro a b
  rw [addf_apply, addf_apply, RowsOf.product D hD D' hD' prec prec' hA hB a b, rowDown_apply,
    Cert.LibBiasRows.rowBcast_apply, hb b]

end Cert.LibMlpBlock

end
-- ==== Proof.LibNormRows.lean ====
/-
  Row-wise normalization on a block of rows, at the extended reals.

  Layer normalization treats the rows of a matrix independently: the mean of a row, the mean of the squared
  deviations of that row, the reciprocal square root of that mean plus a constant, the scaling by a weight row and the
  shift by a bias row all read one row of the operand and small parameter rows. So a tiled program that normalizes a
  BLOCK of rows of X — the rows `row a` for a in the block — gets that block of rows of the host's normalization of the
  whole of X. This file adds the closure lemmas of the relation `RowsOf row A X` (entry (a, b) of the block A is entry
  (row a, b) of X) for the operations such code is made of, a kernel's spelling against the host's — a difference, a
  quotient, a reciprocal square root, a scalar laid over a block, a per-row vector made a column, a column laid along the
  rows, a parameter row laid down the rows — and the whole normalization as one statement. Nothing of real arithmetic is
  used beyond 0 + x = x (inside the row sum), so every statement holds at the infinities too. Generic in the extents.
-/
import proofs.«124261_j53137335386495_2_alg».proof.Proof.LibRowwise
import proofs.«124261_j53137335386495_2_alg».proof.Proof.LibMlpBlock

noncomputable section

open scoped BigOperators

namespace Cert.LibNormRows

open Idealize.ShloMosaic Idealize.ShloMosaic.ValueIdx Cert.LibRowwise

variable {m M n : Nat} {φ : FTy}

/-- A difference, entry by entry. -/
theorem rowsOf_subf {row : Fin m → Fin M} {A B : FVec Ideal ⟨2, ![m, n]⟩ φ} {X Y : FVec Ideal ⟨2, ![M, n]⟩ φ}
    (hA : RowsOf row A X) (hB : RowsOf row B Y) : RowsOf row (subf A B) (subf X Y) :=
  fun a b => congrArg₂ (· - ·) (hA a b) (hB a b)

/-- A quotient, entry by entry: the kernel's and the host's division are one function of two extended reals. -/
theorem rowsOf_divf {row : Fin m → Fin M} {A B : FVec Ideal ⟨2, ![m, n]⟩ φ} {X Y : FVec Ideal ⟨2, ![M, n]⟩ φ}
    (hA : RowsOf row A X) (hB : RowsOf row B Y) : RowsOf row (divf A B) (Host.divf X Y) :=
  fun a b => congrArg₂ Ideal.div (hA a b) (hB a b)

/-- The reciprocal square root, entry by entry: the kernel's and the host's are one function of an extended real. -/
theorem rowsOf_rsqrt {row : Fin m → Fin M} {A : FVec Ideal ⟨2, ![m, n]⟩ φ} {X : FVec Ideal ⟨2, ![M, n]⟩ φ}
    (h : RowsOf row A X) : RowsOf row (rsqrt A) (Host.rsqrt X) :=
  fun a b => congrArg Ideal.rsqrt (h a b)

/-- A scalar laid over a block: the kernel's broadcast of a scalar word against the host's rank-0 constant broadcast
    to the matrix. -/
theorem rowsOf_splat (row : Fin m → Fin M) (z : BitVec 32) (g : (⟨0, ![]⟩ : Shape).BroadcastsInDim ⟨2, ![M, n]⟩ ![]) :
    RowsOf row (broadcast ⟨2, ![m, n]⟩ (Scalar.ofBits (F := Ideal) .f32 z))
      (broadcastInDim ⟨2, ![M, n]⟩ ![] g (constant (F := Ideal) ⟨0, ![]⟩ .f32 z)) := by
  intro a b
  rw [broadcast_apply, Cert.LibHostReads.splat_apply]
  rfl

/-- One number per row made a column: the kernel's cast [m] → [m,1] against the host's broadcast [M] → [M,1] along
    axis 0. -/
theorem rowsOf_toCol {row : Fin m → Fin M} {u : FVec Ideal ⟨1, ![m]⟩ φ} {U : FVec Ideal ⟨1, ![M]⟩ φ}
    (h : RowsOf1 row u U) (hM : M ≠ 1) (hs : (⟨1, ![m]⟩ : Shape).ShapeCasts ⟨2, ![m, 1]⟩)
    (g : (⟨1, ![M]⟩ : Shape).BroadcastsInDim ⟨2, ![M, 1]⟩ ![0]) :
    RowsOf row (shapeCast ⟨2, ![m, 1]⟩ u hs) (broadcastInDim ⟨2, ![M, 1]⟩ ![0] g U) := by
  intro a b
  rw [shapeCast_a_a1_apply, Cert.LibHostReads.col_apply hM g U (row a) b]
  exact h a

/-- A column laid along the rows: the kernel's broadcast [m,1] → [m,n] against the host's [M,1] → [M,n]. -/
theorem rowsOf_colBcast {row : Fin m → Fin M} {A : FVec Ideal ⟨2, ![m, 1]⟩ φ} {X : FVec Ideal ⟨2, ![M, 1]⟩ φ}
    (h : RowsOf row A X) (hM : M ≠ 1) (hb : (⟨2, ![m, 1]⟩ : Shape).Broadcasts ⟨2, ![m, n]⟩)
    (g : (⟨2, ![M, 1]⟩ : Shape).BroadcastsInDim ⟨2, ![M, n]⟩ ![0, 1]) :
    RowsOf row (broadcastTo ⟨2, ![m, n]⟩ A hb) (broadcastInDim ⟨2, ![M, n]⟩ ![0, 1] g X) := by
  intro a b
  rw [broadcastTo_a1_ab_apply, Cert.LibHostReads.colBcast_apply hM g X (row a) b]
  exact h a 0

/-- A parameter row laid down the rows: the kernel's identity cast and broadcast [1,n] → [m,n] against the host's
    broadcast [1,n] → [M,n], for rows that agree entry by entry. -/
theorem rowsOf_rowBcast (row : Fin m → Fin M) {bk bh : FVec Ideal ⟨2, ![1, n]⟩ .f32}
    (hb : ∀ q, bk (ix2 (0 : Fin 1) q) = bh (ix2 (0 : Fin 1) q))
    (hs : (⟨2, ![1, n]⟩ : Shape).ShapeCasts ⟨2, ![1, n]⟩) (hbc : (⟨2, ![1, n]⟩ : Shape).Broadcasts ⟨2, ![m, n]⟩)
    (g : (⟨2, ![1, n]⟩ : Shape).BroadcastsInDim ⟨2, ![M, n]⟩ (![0, 1] : Fin 2 → Fin 2)) :
    RowsOf row (broadcastTo ⟨2, ![m, n]⟩ (shapeCast ⟨2, ![1, n]⟩ bk hs) hbc) (broadcastInDim ⟨2, ![M, n]⟩ ![0, 1] g bh) := by
  intro a b
  rw [Cert.LibMlpBlock.rowDown_apply, Cert.LibBiasRows.rowBcast_apply, hb b]

/-- The float zero word is the real zero, as the initial value of a host sum held in a rank-0 array. -/
theorem zeroInit (hu : 0 < (⟨0, ![]⟩ : Shape).numel) :
    (constant (F := Ideal) ⟨0, ![]⟩ .f32 0x00000000#32) (Shape.Idx.first hu) = 0 :=
  Ideal.ofBits_zero_f32

/-- LAYER NORMALIZATION ON A BLOCK OF ROWS. With H the block's rows of X and the weight and bias rows agreeing entry by
    entry, the kernel's spelling of ((H − mean) · rsqrt(var + e)) · γ + β — mean the row sum over the constant `c`, var
    the row sum of the squared deviations over `c`, both kept as columns and laid back along the rows — holds the same
    rows of the host's spelling on the whole of X. -/
theorem rowsOf_layerNorm {row : Fin m → Fin M} {H : FVec Ideal ⟨2, ![m, n]⟩ .f32} {X : FVec Ideal ⟨2, ![M, n]⟩ .f32}
    (hH : RowsOf row H X) {gk gh bk bh : FVec Ideal ⟨2, ![1, n]⟩ .f32}
    (hg : ∀ q, gk (ix2 (0 : Fin 1) q) = gh (ix2 (0 : Fin 1) q)) (hb : ∀ q, bk (ix2 (0 : Fin 1) q) = bh (ix2 (0 : Fin 1) q))
    (c e : BitVec 32) (hM : M ≠ 1)
    (acc : BitVec FTy.f32.bits) (hr : (⟨2, ![m, n]⟩ : Shape).Reduces [(1 : Fin 2)] ⟨1, ![m]⟩) (hφ : FKind.Formats FTy.f32)
    (hacc : acc = FKind.add.neutral .f32 hφ)
    (hsc : (⟨1, ![m]⟩ : Shape).ShapeCasts ⟨2, ![m, 1]⟩) (hbc : (⟨2, ![m, 1]⟩ : Shape).Broadcasts ⟨2, ![m, n]⟩)
    (hs1 : (⟨2, ![1, n]⟩ : Shape).ShapeCasts ⟨2, ![1, n]⟩) (hb1 : (⟨2, ![1, n]⟩ : Shape).Broadcasts ⟨2, ![m, n]⟩)
    (hr' : (⟨2, ![M, n]⟩ : Shape).ReducesTo [(1 : Fin 2)] ⟨1, ![M]⟩) (hR : (⟨2, ![M, n]⟩ : Shape).Reduces [(1 : Fin 2)] ⟨1, ![M]⟩)
    (hu : 0 < (⟨0, ![]⟩ : Shape).numel)
    (g0 : (⟨1, ![M]⟩ : Shape).BroadcastsInDim ⟨2, ![M, 1]⟩ ![0]) (gs : (⟨0, ![]⟩ : Shape).BroadcastsInDim ⟨2, ![M, 1]⟩ ![])
    (gc : (⟨2, ![M, 1]⟩ : Shape).BroadcastsInDim ⟨2, ![M, n]⟩ ![0, 1])
    (gr : (⟨2, ![1, n]⟩ : Shape).BroadcastsInDim ⟨2, ![M, n]⟩ (![0, 1] : Fin 2 → Fin 2)) :
    RowsOf row
      (addf (mulf (mulf
            (subf H (broadcastTo ⟨2, ![m, n]⟩ (divf (shapeCast ⟨2, ![m, 1]⟩ (multiReduction .add [(1 : Fin 2)] ⟨1, ![m]⟩ H acc hr hφ hacc) hsc)
              (broadcast ⟨2, ![m, 1]⟩ (Scalar.ofBits (F := Ideal) .f32 c))) hbc))
            (broadcastTo ⟨2, ![m, n]⟩ (rsqrt (addf (divf (shapeCast ⟨2, ![m, 1]⟩ (multiReduction .add [(1 : Fin 2)] ⟨1, ![m]⟩
                (mulf (subf H (broadcastTo ⟨2, ![m, n]⟩ (divf (shapeCast ⟨2, ![m, 1]⟩ (multiReduction .add [(1 : Fin 2)] ⟨1, ![m]⟩ H acc hr hφ hacc) hsc)
                    (broadcast ⟨2, ![m, 1]⟩ (Scalar.ofBits (F := Ideal) .f32 c))) hbc))
                  (subf H (broadcastTo ⟨2, ![m, n]⟩ (divf (shapeCast ⟨2, ![m, 1]⟩ (multiReduction .add [(1 : Fin 2)] ⟨1, ![m]⟩ H acc hr hφ hacc) hsc)
                    (broadcast ⟨2, ![m, 1]⟩ (Scalar.ofBits (F := Ideal) .f32 c))) hbc)))
                acc hr hφ hacc) hsc) (broadcast ⟨2, ![m, 1]⟩ (Scalar.ofBits (F := Ideal) .f32 c)))
              (broadcast ⟨2, ![m, 1]⟩ (Scalar.ofBits (F := Ideal) .f32 e)))) hbc))
          (broadcastTo ⟨2, ![m, n]⟩ (shapeCast ⟨2, ![1, n]⟩ gk hs1) hb1))
        (broadcastTo ⟨2, ![m, n]⟩ (shapeCast ⟨2, ![1, n]⟩ bk hs1) hb1))
      (addf (mulf (mulf
            (subf X (broadcastInDim ⟨2, ![M, n]⟩ ![0, 1] gc (Host.divf (broadcastInDim ⟨2, ![M, 1]⟩ ![0] g0
                (Host.reduceAdd X (constant (F := Ideal) ⟨0, ![]⟩ .f32 0x00000000#32) hr' hu))
              (broadcastInDim ⟨2, ![M, 1]⟩ ![] gs (constant (F := Ideal) ⟨0, ![]⟩ .f32 c)))))
            (broadcastInDim ⟨2, ![M, n]⟩ ![0, 1] gc (Host.rsqrt (addf (Host.divf (broadcastInDim ⟨2, ![M, 1]⟩ ![0] g0
                (Host.reduceAdd
                  (mulf (subf X (broadcastInDim ⟨2, ![M, n]⟩ ![0, 1] gc (Host.divf (broadcastInDim ⟨2, ![M, 1]⟩ ![0] g0
                      (Host.reduceAdd X (constant (F := Ideal) ⟨0, ![]⟩ .f32 0x00000000#32) hr' hu))
                    (broadcastInDim ⟨2, ![M, 1]⟩ ![] gs (constant (F := Ideal) ⟨0, ![]⟩ .f32 c)))))
                  (subf X (broadcastInDim ⟨2, ![M, n]⟩ ![0, 1] gc (Host.divf (broadcastInDim ⟨2, ![M, 1]⟩ ![0] g0
                      (Host.reduceAdd X (constant (F := Ideal) ⟨0, ![]⟩ .f32 0x00000000#32) hr' hu))
                    (broadcastInDim ⟨2, ![M, 1]⟩ ![] gs (constant (F := Ideal) ⟨0, ![]⟩ .f32 c))))))
                  (constant (F := Ideal) ⟨0, ![]⟩ .f32 0x00000000#32) hr' hu))
              (broadcastInDim ⟨2, ![M, 1]⟩ ![] gs (constant (F := Ideal) ⟨0, ![]⟩ .f32 c)))
              (broadcastInDim ⟨2, ![M, 1]⟩ ![] gs (constant (F := Ideal) ⟨0, ![]⟩ .f32 e))))))
          (broadcastInDim ⟨2, ![M, n]⟩ ![0, 1] gr gh))
        (broadcastInDim ⟨2, ![M, n]⟩ ![0, 1] gr bh)) := by
  have hmean := rowsOf_divf (rowsOf_toCol (RowsOf.rowSum hH acc hr hφ hacc _ hr' hR hu (zeroInit hu)) hM hsc g0)
    (rowsOf_splat (n := 1) row c gs)
  have hdev := rowsOf_subf hH (rowsOf_colBcast hmean hM hbc gc)
  have hvar := rowsOf_divf (rowsOf_toCol (RowsOf.rowSum (RowsOf.mulf hdev hdev) acc hr hφ hacc _ hr' hR hu (zeroInit hu)) hM hsc g0)
    (rowsOf_splat (n := 1) row c gs)
  have hinv := rowsOf_colBcast (rowsOf_rsqrt (RowsOf.addf hvar (rowsOf_splat (n := 1) row e gs))) hM hbc gc
  exact RowsOf.addf (RowsOf.mulf (RowsOf.mulf hdev hinv) (rowsOf_rowBcast row hg hs1 hb1 gr)) (rowsOf_rowBcast row hb hs1 hb1 gr)

end Cert.LibNormRows

end
-- ==== Proof.LibSplitDot.lean ====
/-
  A matrix product whose contracted extent is cut into blocks, at the extended reals.

  Write [ X₁ | X₂ | X₃ ] for matrices of M rows and k₁, k₂, k₃ columns laid side by side (M x (k₁ + k₂ + k₃)), and W
  for a (k₁ + k₂ + k₃) x N matrix whose first k₁ rows are B₁, next k₂ rows B₂ and last k₃ rows B₃. Then

      [ X₁ | X₂ | X₃ ] · W  =  (X₁ · B₁ + X₂ · B₂) + X₃ · B₃        entry by entry,

  because a sum over the k₁ + k₂ + k₃ contracted positions is the sum over the first k₁, plus the sum over the next k₂,
  plus the sum over the last k₃: a finite sum split at two places. Nothing of the entries is needed — only that the
  sum is that of a commutative monoid — so it holds at the infinities too. The same with two blocks.

  Stated row-wise: if the blocks A_i hold the rows "row" of the X_i, then the sum of the blocks' products A_i · B_i,
  each accumulated into a zero block, holds the rows "row" of the one product of the concatenation with W. Generic in
  all the extents, the float formats and the precision keys.
-/
import Idealize.ShloMosaic.Lib.StackMember
import Idealize.ShloMosaic.Lib.KernelVsHost
import Idealize.ShloMosaic.Lib.Pipeline.Value
import Idealize.ShloMosaic.Lib.ValueIdx
import proofs.«124261_j53137335386495_2_alg».proof.Proof.LibRowwise

noncomputable section

open scoped BigOperators

namespace Cert.LibSplitDot

open Idealize.ShloMosaic Idealize.ShloMosaic.ValueIdx Cert.LibRowwise

/-! ### A finite sum split at one and at two places -/

/-- A sum over n = a + b positions is the sum over the first a plus the sum over the last b. -/
theorem sum_split2 {R : Type*} [AddCommMonoid R] {a b n : Nat} (hn : a + b = n) (f : Fin n → R) :
    ∑ k : Fin n, f k = ∑ k : Fin a, f ⟨k.val, by omega⟩ + ∑ k : Fin b, f ⟨a + k.val, by omega⟩ := by
  subst hn
  exact Fin.sum_univ_add (a := a) (b := b) f

/-- A sum over n = a + b + c positions is the sum over the first a, plus the sum over the next b, plus the sum over the
    last c. -/
theorem sum_split3 {R : Type*} [AddCommMonoid R] {a b c n : Nat} (hn : a + b + c = n) (f : Fin n → R) :
    ∑ k : Fin n, f k
      = (∑ k : Fin a, f ⟨k.val, by omega⟩ + ∑ k : Fin b, f ⟨a + k.val, by omega⟩)
        + ∑ k : Fin c, f ⟨a + b + k.val, by omega⟩ := by
  rw [sum_split2 (a := a + b) (b := c) hn f,
    sum_split2 (a := a) (b := b) rfl (fun k : Fin (a + b) => f ⟨k.val, by have := k.isLt; omega⟩)]

/-! ### Blocks of columns side by side, read at an entry -/

section Reads
variable {α : Type}

/-- Two blocks of columns side by side, read in the first block: column q of the whole is column k of the block. -/
theorem cols2_first {m a b n : Nat} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ (1 : Fin 2))
    (r : Fin m) (k : Fin a) (q : Fin n) (hq : q.val = k.val) :
    concatenate ⟨2, ![m, n]⟩ (1 : Fin 2) [⟨⟨2, ![m, a]⟩, x₁⟩, ⟨⟨2, ![m, b]⟩, x₂⟩] h (ix2 r q) = x₁ (ix2 r k) :=
  concatenate_apply_piece (t := ⟨2, ![m, n]⟩) (1 : Fin 2) [⟨⟨2, ![m, a]⟩, x₁⟩, ⟨⟨2, ![m, b]⟩, x₂⟩] h (ix2 r q)
    0 (by simp) ⟨2, ![m, a]⟩ x₁ rfl rfl 0 rfl (ix2 r k)
    (fun d hd => by
      match d with
      | ⟨0, _⟩ => rfl
      | ⟨1, _⟩ => exact absurd rfl hd)
    (by show 0 + k.val = q.val; omega)

/-- Two blocks of columns side by side, read in the second block: column q = a + k of the whole is column k of it. -/
theorem cols2_second {m a b n : Nat} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ (1 : Fin 2))
    (r : Fin m) (k : Fin b) (q : Fin n) (hq : q.val = a + k.val) :
    concatenate ⟨2, ![m, n]⟩ (1 : Fin 2) [⟨⟨2, ![m, a]⟩, x₁⟩, ⟨⟨2, ![m, b]⟩, x₂⟩] h (ix2 r q) = x₂ (ix2 r k) :=
  concatenate_apply_piece (t := ⟨2, ![m, n]⟩) (1 : Fin 2) [⟨⟨2, ![m, a]⟩, x₁⟩, ⟨⟨2, ![m, b]⟩, x₂⟩] h (ix2 r q)
    1 (by simp) ⟨2, ![m, b]⟩ x₂ rfl rfl a (by simp) (ix2 r k)
    (fun d hd => by
      match d with
      | ⟨0, _⟩ => rfl
      | ⟨1, _⟩ => exact absurd rfl hd)
    (by show a + k.val = q.val; omega)

/-- Three blocks of columns side by side, read in the first block. -/
theorem cols3_first {m a b c n : Nat} (x₁ : (⟨2, ![m, a]⟩ : Shape).Idx → α) (x₂ : (⟨2, ![m, b]⟩ : Shape).Idx → α)
    (x₃ : (⟨2, ![m, c]⟩ : Shape).Idx → α)
    (h : Shape.Concatenates [(⟨2, ![m, a]⟩ : Shape), ⟨2, ![m, b]⟩, ⟨2, ![m, c]⟩] ⟨2, ![m, n]⟩ (1 : Fin 2))
    (r : Fin m) (k : Fin a) (q : Fin n) (hq : q.val = k.val) :
    concatenate ⟨2, ![m, n]⟩ (1 : Fin 2) [⟨⟨2, ![m, a]⟩, x₁⟩, ⟨⟨2, ![m, b]⟩, x₂⟩, ⟨⟨2, ![m, c]⟩, x₃⟩] h (ix2 r q)
      = x₁ (ix2 r k) :=
  concatenate_apply_piece (t := ⟨2, ![m, n]⟩) (1 : Fin 2)
    [⟨⟨2, ![m, a]⟩, x₁⟩, ⟨⟨2, ![m, b]⟩, x₂⟩, ⟨⟨2, ![m, c]⟩, x₃⟩] h (ix2 r q)
    0 (by simp) ⟨2, ![m, a]⟩ x₁ rfl rfl 0 rfl (ix2 r k)
    (fun d hd => by
      match d with
      | ⟨0, _⟩ => rfl
      | ⟨1, _⟩ => exact absurd rfl hd)
    (by show 0 + k.val = q.val; omega)

/-- Three blocks of columns side by side, read in the second block: column q = a + k of the whole. -/
theorem cols3_second {m a b c n : Nat} (x₁ : (⟨2, ![m, a]⟩ : Shape).Idx → α) (x₂ : (⟨2, ![m, b]⟩ : Shape).Idx → α)
    (x₃ : (⟨2, ![m, c]⟩ : Shape).Idx → α)
    (h : Shape.Concatenates [(⟨2, ![m, a]⟩ : Shape), ⟨2, ![m, b]⟩, ⟨2, ![m, c]⟩] ⟨2, ![m, n]⟩ (1 : Fin 2))
    (r : Fin m) (k : Fin b) (q : Fin n) (hq : q.val = a + k.val) :
    concatenate ⟨2, ![m, n]⟩ (1 : Fin 2) [⟨⟨2, ![m, a]⟩, x₁⟩, ⟨⟨2, ![m, b]⟩, x₂⟩, ⟨⟨2, ![m, c]⟩, x₃⟩] h (ix2 r q)
      = x₂ (ix2 r k) :=
  concatenate_apply_piece (t := ⟨2, ![m, n]⟩) (1 : Fin 2)
    [⟨⟨2, ![m, a]⟩, x₁⟩, ⟨⟨2, ![m, b]⟩, x₂⟩, ⟨⟨2, ![m, c]⟩, x₃⟩] h (ix2 r q)
    1 (by simp) ⟨2, ![m, b]⟩ x₂ rfl rfl a (by simp) (ix2 r k)
    (fun d hd => by
      match d with
      | ⟨0, _⟩ => rfl
      | ⟨1, _⟩ => exact absurd rfl hd)
    (by show a + k.val = q.val; omega)

/-- Three blocks of columns side by side, read in the third block: column q = a + b + k of the whole. -/
theorem cols3_third {m a b c n : Nat} (x₁ : (⟨2, ![m, a]⟩ : Shape).Idx → α) (x₂ : (⟨2, ![m, b]⟩ : Shape).Idx → α)
    (x₃ : (⟨2, ![m, c]⟩ : Shape).Idx → α)
    (h : Shape.Concatenates [(⟨2, ![m, a]⟩ : Shape), ⟨2, ![m, b]⟩, ⟨2, ![m, c]⟩] ⟨2, ![m, n]⟩ (1 : Fin 2))
    (r : Fin m) (k : Fin c) (q : Fin n) (hq : q.val = a + b + k.val) :
    concatenate ⟨2, ![m, n]⟩ (1 : Fin 2) [⟨⟨2, ![m, a]⟩, x₁⟩, ⟨⟨2, ![m, b]⟩, x₂⟩, ⟨⟨2, ![m, c]⟩, x₃⟩] h (ix2 r q)
      = x₃ (ix2 r k) :=
  concatenate_apply_piece (t := ⟨2, ![m, n]⟩) (1 : Fin 2)
    [⟨⟨2, ![m, a]⟩, x₁⟩, ⟨⟨2, ![m, b]⟩, x₂⟩, ⟨⟨2, ![m, c]⟩, x₃⟩] h (ix2 r q)
    2 (by simp) ⟨2, ![m, c]⟩ x₃ rfl rfl (a + b) (by simp) (ix2 r k)
    (fun d hd => by
      match d with
      | ⟨0, _⟩ => rfl
      | ⟨1, _⟩ => exact absurd rfl hd)
    (by show a + b + k.val = q.val; omega)

end Reads

/-! ### The product of blocks of columns with the matching blocks of rows of the weights -/

/-- THE LAW, three blocks: the rows of ((A₁·B₁ + A₂·B₂) + A₃·B₃), each product accumulated into a zero block, are
    the rows of the one product [X₁ | X₂ | X₃]·W, when the A_i hold the rows of the X_i and B₁, B₂, B₃ are the first
    k₁, the next k₂ and the last k₃ rows of W. Entry (a, b): the sum over the K = k₁ + k₂ + k₃ contracted positions
    split at k₁ and at k₁ + k₂. -/
theorem rowsOf_dot3 {m M k₁ k₂ k₃ K N : Nat} {φ φw ψ₁ ψ₂ ψ₃ χ₁ χ₂ χ₃ : FTy} {row : Fin m → Fin M}
    (D₁ : DotDims ⟨2, ![m, k₁]⟩ ⟨2, ![k₁, N]⟩ ⟨2, ![m, N]⟩) (hD₁ : D₁ = DotDims.plain m k₁ N)
    (D₂ : DotDims ⟨2, ![m, k₂]⟩ ⟨2, ![k₂, N]⟩ ⟨2, ![m, N]⟩) (hD₂ : D₂ = DotDims.plain m k₂ N)
    (D₃ : DotDims ⟨2, ![m, k₃]⟩ ⟨2, ![k₃, N]⟩ ⟨2, ![m, N]⟩) (hD₃ : D₃ = DotDims.plain m k₃ N)
    (D' : DotDims ⟨2, ![M, K]⟩ ⟨2, ![K, N]⟩ ⟨2, ![M, N]⟩) (hD' : D' = DotDims.plain M K N)
    (prec₁ prec₂ prec₃ prec' : Option ContractPrecision)
    {A₁ : FVec Ideal ⟨2, ![m, k₁]⟩ ψ₁} {X₁ : FVec Ideal ⟨2, ![M, k₁]⟩ φ} (h₁ : RowsOf row A₁ X₁)
    {A₂ : FVec Ideal ⟨2, ![m, k₂]⟩ ψ₂} {X₂ : FVec Ideal ⟨2, ![M, k₂]⟩ φ} (h₂ : RowsOf row A₂ X₂)
    {A₃ : FVec Ideal ⟨2, ![m, k₃]⟩ ψ₃} {X₃ : FVec Ideal ⟨2, ![M, k₃]⟩ φ} (h₃ : RowsOf row A₃ X₃)
    {B₁ : FVec Ideal ⟨2, ![k₁, N]⟩ χ₁} {B₂ : FVec Ideal ⟨2, ![k₂, N]⟩ χ₂} {B₃ : FVec Ideal ⟨2, ![k₃, N]⟩ χ₃}
    {W : FVec Ideal ⟨2, ![K, N]⟩ φw}
    (hB₁ : ∀ (c : Fin k₁) (b : Fin N) (i : Fin K), i.val = c.val → B₁ (ix2 c b) = W (ix2 i b))
    (hB₂ : ∀ (c : Fin k₂) (b : Fin N) (i : Fin K), i.val = k₁ + c.val → B₂ (ix2 c b) = W (ix2 i b))
    (hB₃ : ∀ (c : Fin k₃) (b : Fin N) (i : Fin K), i.val = k₁ + k₂ + c.val → B₃ (ix2 c b) = W (ix2 i b))
    (hc : Shape.Concatenates [(⟨2, ![M, k₁]⟩ : Shape), ⟨2, ![M, k₂]⟩, ⟨2, ![M, k₃]⟩] ⟨2, ![M, K]⟩ (1 : Fin 2)) :
    RowsOf row
      (addf (addf (matmul D₁ prec₁ A₁ B₁ (constant (F := Ideal) ⟨2, ![m, N]⟩ .f32 0x00000000#32))
                  (matmul D₂ prec₂ A₂ B₂ (constant (F := Ideal) ⟨2, ![m, N]⟩ .f32 0x00000000#32)))
            (matmul D₃ prec₃ A₃ B₃ (constant (F := Ideal) ⟨2, ![m, N]⟩ .f32 0x00000000#32)))
      (Host.dotGeneral D' prec' (concatenate ⟨2, ![M, K]⟩ (1 : Fin 2)
          [⟨⟨2, ![M, k₁]⟩, X₁⟩, ⟨⟨2, ![M, k₂]⟩, X₂⟩, ⟨⟨2, ![M, k₃]⟩, X₃⟩] hc) W) := by
  subst hD₁ hD₂ hD₃ hD'
  have hK : k₁ + k₂ + k₃ = K := by
    have e := hc.2.2
    simp at e
    omega
  intro a b
  rw [addf_apply, addf_apply, matmul_zero_eq_dotGeneral, matmul_zero_eq_dotGeneral, matmul_zero_eq_dotGeneral,
    StackMember.dotGeneral_plain_apply, StackMember.dotGeneral_plain_apply, StackMember.dotGeneral_plain_apply,
    StackMember.dotGeneral_plain_apply, sum_split3 hK]
  refine congrArg₂ (· + ·) (congrArg₂ (· + ·) ?_ ?_) ?_
  · exact Finset.sum_congr rfl fun c _ => by
      rw [h₁ a c, hB₁ c b ⟨c.val, by omega⟩ rfl, cols3_first X₁ X₂ X₃ hc (row a) c ⟨c.val, by omega⟩ rfl]
  · exact Finset.sum_congr rfl fun c _ => by
      rw [h₂ a c, hB₂ c b ⟨k₁ + c.val, by omega⟩ rfl, cols3_second X₁ X₂ X₃ hc (row a) c ⟨k₁ + c.val, by omega⟩ rfl]
  · exact Finset.sum_congr rfl fun c _ => by
      rw [h₃ a c, hB₃ c b ⟨k₁ + k₂ + c.val, by omega⟩ rfl,
        cols3_third X₁ X₂ X₃ hc (row a) c ⟨k₁ + k₂ + c.val, by omega⟩ rfl]

/-- THE LAW, two blocks: the rows of A₁·B₁ + A₂·B₂, each product accumulated into a zero block, are the rows of the
    one product [X₁ | X₂]·W, when the A_i hold the rows of the X_i and B₁, B₂ are the first k₁ and the last k₂ rows
    of W. Entry (a, b): the sum over the K = k₁ + k₂ contracted positions split at k₁. -/
theorem rowsOf_dot2 {m M k₁ k₂ K N : Nat} {φ φw ψ₁ ψ₂ χ₁ χ₂ : FTy} {row : Fin m → Fin M}
    (D₁ : DotDims ⟨2, ![m, k₁]⟩ ⟨2, ![k₁, N]⟩ ⟨2, ![m, N]⟩) (hD₁ : D₁ = DotDims.plain m k₁ N)
    (D₂ : DotDims ⟨2, ![m, k₂]⟩ ⟨2, ![k₂, N]⟩ ⟨2, ![m, N]⟩) (hD₂ : D₂ = DotDims.plain m k₂ N)
    (D' : DotDims ⟨2, ![M, K]⟩ ⟨2, ![K, N]⟩ ⟨2, ![M, N]⟩) (hD' : D' = DotDims.plain M K N)
    (prec₁ prec₂ prec' : Option ContractPrecision)
    {A₁ : FVec Ideal ⟨2, ![m, k₁]⟩ ψ₁} {X₁ : FVec Ideal ⟨2, ![M, k₁]⟩ φ} (h₁ : RowsOf row A₁ X₁)
    {A₂ : FVec Ideal ⟨2, ![m, k₂]⟩ ψ₂} {X₂ : FVec Ideal ⟨2, ![M, k₂]⟩ φ} (h₂ : RowsOf row A₂ X₂)
    {B₁ : FVec Ideal ⟨2, ![k₁, N]⟩ χ₁} {B₂ : FVec Ideal ⟨2, ![k₂, N]⟩ χ₂}
    {W : FVec Ideal ⟨2, ![K, N]⟩ φw}
    (hB₁ : ∀ (c : Fin k₁) (b : Fin N) (i : Fin K), i.val = c.val → B₁ (ix2 c b) = W (ix2 i b))
    (hB₂ : ∀ (c : Fin k₂) (b : Fin N) (i : Fin K), i.val = k₁ + c.val → B₂ (ix2 c b) = W (ix2 i b))
    (hc : Shape.Concatenates [(⟨2, ![M, k₁]⟩ : Shape), ⟨2, ![M, k₂]⟩] ⟨2, ![M, K]⟩ (1 : Fin 2)) :
    RowsOf row
      (addf (matmul D₁ prec₁ A₁ B₁ (constant (F := Ideal) ⟨2, ![m, N]⟩ .f32 0x00000000#32))
            (matmul D₂ prec₂ A₂ B₂ (constant (F := Ideal) ⟨2, ![m, N]⟩ .f32 0x00000000#32)))
      (Host.dotGeneral D' prec' (concatenate ⟨2, ![M, K]⟩ (1 : Fin 2)
          [⟨⟨2, ![M, k₁]⟩, X₁⟩, ⟨⟨2, ![M, k₂]⟩, X₂⟩] hc) W) := by
  subst hD₁ hD₂ hD'
  have hK : k₁ + k₂ = K := by
    have e := hc.2.2
    simp at e
    omega
  intro a b
  rw [addf_apply, matmul_zero_eq_dotGeneral, matmul_zero_eq_dotGeneral,
    StackMember.dotGeneral_plain_apply, StackMember.dotGeneral_plain_apply, StackMember.dotGeneral_plain_apply,
    sum_split2 hK]
  refine congrArg₂ (· + ·) ?_ ?_
  · exact Finset.sum_congr rfl fun c _ => by
      rw [h₁ a c, hB₁ c b ⟨c.val, by omega⟩ rfl, cols2_first X₁ X₂ hc (row a) c ⟨c.val, by omega⟩ rfl]
  · exact Finset.sum_congr rfl fun c _ => by
      rw [h₂ a c, hB₂ c b ⟨k₁ + c.val, by omega⟩ rfl, cols2_second X₁ X₂ hc (row a) c ⟨k₁ + c.val, by omega⟩ rfl]

end Cert.LibSplitDot

end
-- ==== Proof.LibColumnBlocks.lean ====
/-
  Matrices cut into blocks of rows or of columns, and a product whose left factor is two blocks of columns side by side.

  Writing [ A | B ] for an m x a matrix A and an m x b matrix B laid side by side (m x (a + b)), and P for an (a + b) x p
  matrix with top a rows P_top and bottom b rows P_bot,

      [ A | B ] · P  =  A · P_top  +  B · P_bot        entry by entry,

  because a sum over the a + b contracted positions is the sum over the first a plus the sum over the last b. This is the
  law behind factoring a projection of two concatenated feature rows, concat(h[row], h[col]) · P, into two projections
  added. On the extended reals it needs nothing of the entries: only associativity and commutativity of the sum are used.
  Also here, generic in the extents and the element type: the entry reads of two column blocks side by side, of a block of
  consecutive rows of a matrix, and of a block of consecutive columns.
-/
import Idealize.ShloMosaic.Lib.StackMember
import Idealize.ShloMosaic.Lib.Pipeline.Value
import Idealize.ShloMosaic.Lib.ValueIdx

noncomputable section

open scoped BigOperators

namespace Cert.LibColumnBlocks

open Idealize.ShloMosaic Idealize.ShloMosaic.ValueIdx

variable {α : Type}

/-- A sum over n = a + b positions is the sum over the first a plus the sum over the last b. -/
theorem sum_split {M : Type*} [AddCommMonoid M] {a b n : Nat} (hn : a + b = n) (f : Fin n → M) :
    ∑ k : Fin n, f k = ∑ k : Fin a, f ⟨k.val, by omega⟩ + ∑ k : Fin b, f ⟨a + k.val, by omega⟩ := by
  subst hn
  exact Fin.sum_univ_add (a := a) (b := b) f

/-- Two blocks of columns side by side, read in the first block. -/
theorem colBlocks_left {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin a) :
    concatenate ⟨2, ![m, n]⟩ 1 [⟨⟨2, ![m, a]⟩, x₁⟩, ⟨⟨2, ![m, b]⟩, x₂⟩] h (ix2 r (⟨k.val, by omega⟩ : Fin n)) = x₁ (ix2 r k) :=
  concatenate_pair_apply_left (t := ⟨2, ![m, n]⟩) (s₁ := ⟨2, ![m, a]⟩) (s₂ := ⟨2, ![m, b]⟩) (1 : Fin 2) x₁ x₂ h
    (ix2 r (⟨k.val, by omega⟩ : Fin n)) rfl (ix2 r k) (fun d => by
      match d with
      | ⟨0, _⟩ => rfl
      | ⟨1, _⟩ => rfl)

/-- Two blocks of columns side by side, read in the second block. -/
theorem colBlocks_right {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin b) :
    concatenate ⟨2, ![m, n]⟩ 1 [⟨⟨2, ![m, a]⟩, x₁⟩, ⟨⟨2, ![m, b]⟩, x₂⟩] h (ix2 r (⟨a + k.val, by omega⟩ : Fin n)) = x₂ (ix2 r k) :=
  concatenate_pair_apply_right (t := ⟨2, ![m, n]⟩) (s₁ := ⟨2, ![m, a]⟩) (s₂ := ⟨2, ![m, b]⟩) (1 : Fin 2) x₁ x₂ h
    (ix2 r (⟨a + k.val, by omega⟩ : Fin n)) rfl rfl (ix2 r k) (fun d hd => by
      match d with
      | ⟨0, _⟩ => rfl
      | ⟨1, _⟩ => exact absurd rfl hd) (by show k.val + a = a + k.val; omega)

/-- A block of m consecutive rows of a matrix, starting at row o, read at an entry. -/
theorem rowBlock_apply {M m n : Nat} (o : Nat) (ho : o + m ≤ M) (x : (⟨2, ![M, n]⟩ : Shape).Idx → α)
    (h : (⟨2, ![M, n]⟩ : Shape).Slices ![o, 0] ⟨2, ![m, n]⟩) (r : Fin m) (j : Fin n) :
    extractStridedSlice ⟨2, ![m, n]⟩ ![o, 0] x h (ix2 r j) = x (ix2 (⟨o + r.val, by omega⟩ : Fin M) j) :=
  extractStridedSlice_apply _ x h (ix2 r j) (ix2 (⟨o + r.val, by omega⟩ : Fin M) j) (fun d => by
    match d with
    | ⟨0, _⟩ => rfl
    | ⟨1, _⟩ => show j.val = 0 + j.val; omega)

/-- A block of n consecutive columns of a matrix, starting at column o, read at an entry. -/
theorem colBlock_apply {m N n : Nat} (o : Nat) (ho : o + n ≤ N) (x : (⟨2, ![m, N]⟩ : Shape).Idx → α)
    (h : (⟨2, ![m, N]⟩ : Shape).Slices ![0, o] ⟨2, ![m, n]⟩) (r : Fin m) (j : Fin n) :
    extractStridedSlice ⟨2, ![m, n]⟩ ![0, o] x h (ix2 r j) = x (ix2 r (⟨o + j.val, by omega⟩ : Fin N)) :=
  extractStridedSlice_apply _ x h (ix2 r j) (ix2 r (⟨o + j.val, by omega⟩ : Fin N)) (fun d => by
    match d with
    | ⟨0, _⟩ => show r.val = 0 + r.val; omega
    | ⟨1, _⟩ => rfl)

/-- THE LAW: [ A | B ] · P at (e, j) is Σ_k A(e,k) · P(k, j) + Σ_k B(e,k) · P(a + k, j), under any printed record equal to
    the plain one. -/
theorem dot_colBlocks_apply {m a b n p : Nat} (hn : a + b = n)
    (D : DotDims ⟨2, ![m, n]⟩ ⟨2, ![n, p]⟩ ⟨2, ![m, p]⟩) (hD : D = DotDims.plain m n p)
    (A : FVec Ideal ⟨2, ![m, a]⟩ .f32) (B : FVec Ideal ⟨2, ![m, b]⟩ .f32)
    (h : Shape.Concatenates [(⟨2, ![m, a]⟩ : Shape), ⟨2, ![m, b]⟩] ⟨2, ![m, n]⟩ 1)
    (P : FVec Ideal ⟨2, ![n, p]⟩ .f32) (e : Fin m) (j : Fin p) :
    Host.dotGeneral D none (concatenate ⟨2, ![m, n]⟩ 1 [⟨⟨2, ![m, a]⟩, A⟩, ⟨⟨2, ![m, b]⟩, B⟩] h : FVec Ideal ⟨2, ![m, n]⟩ .f32) P (ix2 e j)
      = ∑ k : Fin a, A (ix2 e k) * P (ix2 (⟨k.val, by omega⟩ : Fin n) j)
        + ∑ k : Fin b, B (ix2 e k) * P (ix2 (⟨a + k.val, by omega⟩ : Fin n) j) := by
  subst hD
  rw [StackMember.dotGeneral_plain_apply, sum_split hn]
  congr 1
  · exact Finset.sum_congr rfl fun k _ => by rw [colBlocks_left hn A B h e k]
  · exact Finset.sum_congr rfl fun k _ => by rw [colBlocks_right hn A B h e k]

end Cert.LibColumnBlocks

end
-- ==== Proof.Region0.lean ====
/-
  The edge stage of the idealized kernel program as one whole-array equation.

  The first grid runs the edge perceptron on blocks of 4000 edges: point t loads rows 4000·t … 4000·t + 3999 of the edge
  features and of the two gathered node-feature arrays, the whole weight and bias arrays, and stores the block's
  messages and the block's edge result. Row e of either result depends only on row e of the three edge-sized inputs
  and on the parameter arrays, so the block at point t is the rows 4000·t + a of the host program's spelling of the
  stage on the whole arrays (`Cert.Spec.msg`): the first layer's three partial products over the column blocks of the
  weight matrix are one product with the concatenated rows, and every other operation acts row by row. The 250 blocks
  tile the arrays, so after the last point each result array is the whole-array function.
-/
import proofs.«124261_j53137335386495_2_alg».proof.Proof.Gen.KernelIdeal.Frame
import proofs.«124261_j53137335386495_2_alg».proof.Proof.Spec
import proofs.«124261_j53137335386495_2_alg».proof.Proof.LibRowwise
import proofs.«124261_j53137335386495_2_alg».proof.Proof.LibMlpBlock
import proofs.«124261_j53137335386495_2_alg».proof.Proof.LibNormRows
import proofs.«124261_j53137335386495_2_alg».proof.Proof.LibSplitDot
import proofs.«124261_j53137335386495_2_alg».proof.Proof.LibColumnBlocks
import Idealize.ShloMosaic.Lib.Pipeline.Value

set_option maxRecDepth 16384

noncomputable section

namespace Cert.KernelIdeal.EdgeStage

open Cert.KernelIdeal Cert.KernelIdeal.Gen Idealize.ShloMosaic Idealize.ShloMosaic.TcCoe Idealize.ShloMosaic.ValueIdx
open Cert.LibRowwise Cert.LibNormRows Cert.LibSplitDot
open Idealize.ShloMosaic.Pipeline (Dat)

/-- An identity cast of a block keeps its rows. -/
theorem rowsOf_castSelf {m M n : Nat} {φ ψ : FTy} {row : Fin m → Fin M} {A : FVec Ideal ⟨2, ![m, n]⟩ φ} {X : FVec Ideal ⟨2, ![M, n]⟩ ψ}
    (h : RowsOf row A X) (hs : (⟨2, ![m, n]⟩ : Shape).ShapeCasts ⟨2, ![m, n]⟩) : RowsOf row (shapeCast ⟨2, ![m, n]⟩ A hs) X := by
  intro a b
  rw [shapeCast_self]
  exact h a b

/-- A parameter vector laid as one row by the host reads, at (0, q), the vector at q. -/
theorem hostRow_apply {N : Nat} (b : FVec Ideal ⟨1, ![N]⟩ .f32)
    (hb : (⟨1, ![N]⟩ : Shape).BroadcastsInDim ⟨2, ![1, N]⟩ (![1] : Fin 1 → Fin 2)) (q : Fin N) :
    broadcastInDim ⟨2, ![1, N]⟩ ![1] hb b (ix2 (0 : Fin 1) q) = b (ix1 q) := by
  refine broadcastInDim_apply (![1] : Fin 1 → Fin 2) hb b (ix2 (0 : Fin 1) q) (ix1 q) fun ax => ?_
  match ax with
  | ⟨0, _⟩ =>
    show q.val = if N = 1 then 0 else q.val
    split
    · have := q.isLt; omega
    · rfl

/-- A weight block passed through an identity cast and narrowed reads the block. -/
theorem weightCast_apply {k n : Nat} (x : FVec Ideal ⟨2, ![k, n]⟩ .f32) (hs : (⟨2, ![k, n]⟩ : Shape).ShapeCasts ⟨2, ![k, n]⟩)
    (hb : FTy.bf16.bits < FTy.f32.bits) (c : Fin k) (b : Fin n) :
    (truncf .bf16 (shapeCast ⟨2, ![k, n]⟩ x hs) hb : FVec Ideal ⟨2, ![k, n]⟩ .bf16) (ix2 c b) = x (ix2 c b) := by
  rw [truncf_apply, shapeCast_self]

/-- The body's arithmetic on a block of rows is that block of rows of the stage on the whole arrays: the messages and
    the edge result. The blocks are variables here; the facts about them are what the grid's windows provide. -/
theorem edge_rows {row : Fin 4000 → Fin 1000000}
    (x0 : FVec Ideal S4000x64 .f32) (x1 x2 : FVec Ideal S4000x64 .bf16) (x3 x4 x5 : FVec Ideal S64x128 .f32)
    (x6 : FVec Ideal S1x128 .f32) (x7 : FVec Ideal S128x128 .f32) (x8 : FVec Ideal S1x128 .f32) (x9 : FVec Ideal S128x64 .f32)
    (x10 x11 x12 : FVec Ideal S1x64 .f32)
    (ea xr xs : FVec Ideal S1000000x64 .f32) (w1 : FVec Ideal S192x128 .f32) (b1 : FVec Ideal S128 .f32)
    (w2 : FVec Ideal S128x128 .f32) (b2 : FVec Ideal S128 .f32) (w3 : FVec Ideal S128x64 .f32) (b3 g β : FVec Ideal S64 .f32)
    (h0 : RowsOf row x0 ea) (h1 : RowsOf row x1 xr) (h2 : RowsOf row x2 xs)
    (h3 : ∀ (c : Fin 64) (b : Fin 128) (i : Fin 192), i.val = c.val → x3 (ix2 c b) = w1 (ix2 i b))
    (h4 : ∀ (c : Fin 64) (b : Fin 128) (i : Fin 192), i.val = 64 + c.val → x4 (ix2 c b) = w1 (ix2 i b))
    (h5 : ∀ (c : Fin 64) (b : Fin 128) (i : Fin 192), i.val = 64 + 64 + c.val → x5 (ix2 c b) = w1 (ix2 i b))
    (h6 : ∀ q : Fin 128, x6 (ix2 (0 : Fin 1) q) = b1 (ix1 q))
    (h7 : ∀ (c : Fin 128) (b : Fin 128), x7 (ix2 c b) = w2 (ix2 c b))
    (h8 : ∀ q : Fin 128, x8 (ix2 (0 : Fin 1) q) = b2 (ix1 q))
    (h9 : ∀ (c : Fin 128) (b : Fin 64), x9 (ix2 c b) = w3 (ix2 c b))
    (h10 : ∀ q : Fin 64, x10 (ix2 (0 : Fin 1) q) = b3 (ix1 q))
    (h11 : ∀ q : Fin 64, x11 (ix2 (0 : Fin 1) q) = g (ix1 q))
    (h12 : ∀ q : Fin 64, x12 (ix2 (0 : Fin 1) q) = β (ix1 q)) :
    RowsOf row (k0_pay1 (k0_pay3 x0 x1 x2 x3 x4 x5 x6 x7 x8) x9 x10 x11 x12) (Cert.Spec.msg ea xr xs w1 b1 w2 b2 w3 b3 g β) := by
  unfold k0_pay1 k0_pay3 Cert.Spec.msg Cert.Spec.edgeNorm Cert.Spec.edgePre
  dsimp only
  refine rowsOf_layerNorm ?hH (fun q => (h11 q).trans (hostRow_apply _ _ q).symm) (fun q => (h12 q).trans (hostRow_apply _ _ q).symm)
    _ _ (by decide) _ _ _ _ _ _ _ _ _ (by decide) _ _ _ _ _
  refine Cert.LibMlpBlock.RowsOf.denseRow _ rfl _ rfl none none (RowsOf.truncf (RowsOf.tanh ?h2l) _) (fun c b => h9 c b)
    (fun q => (h10 q).trans (hostRow_apply _ _ q).symm) _ _ _
  refine Cert.LibMlpBlock.RowsOf.denseRow _ rfl _ rfl none none (RowsOf.truncf (RowsOf.tanh ?h1l) _) (fun c b => h7 c b)
    (fun q => (h8 q).trans (hostRow_apply _ _ q).symm) _ _ _
  refine RowsOf.addf ?hdot (rowsOf_rowBcast row (fun q => (h6 q).trans (hostRow_apply _ _ q).symm) _ _ _)
  exact rowsOf_dot3 _ rfl _ rfl _ rfl _ rfl none none none none (RowsOf.truncf h0 _) (rowsOf_castSelf h1 _) (rowsOf_castSelf h2 _)
    (fun c b i hi => (weightCast_apply x3 _ _ c b).trans (h3 c b i hi))
    (fun c b i hi => (weightCast_apply x4 _ _ c b).trans (h4 c b i hi))
    (fun c b i hi => (weightCast_apply x5 _ _ c b).trans (h5 c b i hi)) _

/-- The same for the block's edge result: the block of edge features plus the block's messages. -/
theorem edge_rows_out {row : Fin 4000 → Fin 1000000}
    (x0 : FVec Ideal S4000x64 .f32) (x1 x2 : FVec Ideal S4000x64 .bf16) (x3 x4 x5 : FVec Ideal S64x128 .f32)
    (x6 : FVec Ideal S1x128 .f32) (x7 : FVec Ideal S128x128 .f32) (x8 : FVec Ideal S1x128 .f32) (x9 : FVec Ideal S128x64 .f32)
    (x10 x11 x12 : FVec Ideal S1x64 .f32)
    (ea xr xs : FVec Ideal S1000000x64 .f32) (w1 : FVec Ideal S192x128 .f32) (b1 : FVec Ideal S128 .f32)
    (w2 : FVec Ideal S128x128 .f32) (b2 : FVec Ideal S128 .f32) (w3 : FVec Ideal S128x64 .f32) (b3 g β : FVec Ideal S64 .f32)
    (h0 : RowsOf row x0 ea) (h1 : RowsOf row x1 xr) (h2 : RowsOf row x2 xs)
    (h3 : ∀ (c : Fin 64) (b : Fin 128) (i : Fin 192), i.val = c.val → x3 (ix2 c b) = w1 (ix2 i b))
    (h4 : ∀ (c : Fin 64) (b : Fin 128) (i : Fin 192), i.val = 64 + c.val → x4 (ix2 c b) = w1 (ix2 i b))
    (h5 : ∀ (c : Fin 64) (b : Fin 128) (i : Fin 192), i.val = 64 + 64 + c.val → x5 (ix2 c b) = w1 (ix2 i b))
    (h6 : ∀ q : Fin 128, x6 (ix2 (0 : Fin 1) q) = b1 (ix1 q))
    (h7 : ∀ (c : Fin 128) (b : Fin 128), x7 (ix2 c b) = w2 (ix2 c b))
    (h8 : ∀ q : Fin 128, x8 (ix2 (0 : Fin 1) q) = b2 (ix1 q))
    (h9 : ∀ (c : Fin 128) (b : Fin 64), x9 (ix2 c b) = w3 (ix2 c b))
    (h10 : ∀ q : Fin 64, x10 (ix2 (0 : Fin 1) q) = b3 (ix1 q))
    (h11 : ∀ q : Fin 64, x11 (ix2 (0 : Fin 1) q) = g (ix1 q))
    (h12 : ∀ q : Fin 64, x12 (ix2 (0 : Fin 1) q) = β (ix1 q)) :
    RowsOf row (k0_pay2 x0 (k0_pay3 x0 x1 x2 x3 x4 x5 x6 x7 x8) x9 x10 x11 x12)
      (addf ea (Cert.Spec.msg ea xr xs w1 b1 w2 b2 w3 b3 g β)) := by
  unfold k0_pay2
  exact RowsOf.addf h0 (edge_rows x0 x1 x2 x3 x4 x5 x6 x7 x8 x9 x10 x11 x12 ea xr xs w1 b1 w2 b2 w3 b3 g β
    h0 h1 h2 h3 h4 h5 h6 h7 h8 h9 h10 h11 h12)

/-! ## From blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: the five edge-sized windows move with the point along the
    rows, the ten parameter windows stay at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The row of the whole array that row `a` of the block at point `t` stands for. -/
def rowAt (t : Fin cfg0.N) (a : Fin 4000) : Fin 1000000 :=
  ⟨4000 * t.val + a.val, by have := t.isLt; have hN : cfg0.N = 250 := N_0; have := a.isLt; omega⟩

/-- Window 0's block at point `t` is the rows `rowAt t` of its array. -/
theorem iblk_0 (c : Dev nD) (t : Fin cfg0.N) (a : Fin 4000) (b : Fin 64) :
    (iblk0 V c 0 t : FVec Ideal S4000x64 .f32) (ix2 a b) = (V c main_arg3 : FVec Ideal S1000000x64 .f32) (ix2 (rowAt t a) b) := by
  obtain ⟨e0, e1⟩ := (idx_facts t).1
  unfold iblk0
  rw [View.read_apply]
  show V c main_arg3 _ = V c main_arg3 _
  refine congrArg (V c main_arg3) ?_
  funext ax
  apply Fin.ext
  match ax with
  | ⟨0, _⟩ => show win0_0.index t (0 : Fin 2) * 4000 + 1 * a.val = 4000 * t.val + a.val; rw [e0]; omega
  | ⟨1, _⟩ => show win0_0.index t (1 : Fin 2) * 64 + 1 * b.val = b.val; rw [e1]; omega

/-- Window 1's block at point `t` is the rows `rowAt t` of its array. -/
theorem iblk_1 (c : Dev nD) (t : Fin cfg0.N) (a : Fin 4000) (b : Fin 64) :
    (iblk0 V c 1 t : FVec Ideal S4000x64 .bf16) (ix2 a b) = (V c main_v7 : FVec Ideal S1000000x64 .bf16) (ix2 (rowAt t a) b) := by
  obtain ⟨e0, e1⟩ := (idx_facts t).2.1
  unfold iblk0
  rw [View.read_apply]
  show V c main_v7 _ = V c main_v7 _
  refine congrArg (V c main_v7) ?_
  funext ax
  apply Fin.ext
  match ax with
  | ⟨0, _⟩ => show win0_1.index t (0 : Fin 2) * 4000 + 1 * a.val = 4000 * t.val + a.val; rw [e0]; omega
  | ⟨1, _⟩ => show win0_1.index t (1 : Fin 2) * 64 + 1 * b.val = b.val; rw [e1]; omega

/-- Window 2's block at point `t` is the rows `rowAt t` of its array. -/
theorem iblk_2 (c : Dev nD) (t : Fin cfg0.N) (a : Fin 4000) (b : Fin 64) :
    (iblk0 V c 2 t : FVec Ideal S4000x64 .bf16) (ix2 a b) = (V c main_v14 : FVec Ideal S1000000x64 .bf16) (ix2 (rowAt t a) b) := by
  obtain ⟨e0, e1⟩ := (idx_facts t).2.2.1
  unfold iblk0
  rw [View.read_apply]
  show V c main_v14 _ = V c main_v14 _
  refine congrArg (V c main_v14) ?_
  funext ax
  apply Fin.ext
  match ax with
  | ⟨0, _⟩ => show win0_2.index t (0 : Fin 2) * 4000 + 1 * a.val = 4000 * t.val + a.val; rw [e0]; omega
  | ⟨1, _⟩ => show win0_2.index t (1 : Fin 2) * 64 + 1 * b.val = b.val; rw [e1]; omega

/-- Window 3 is its whole array at every point. -/
theorem iblk_3 (c : Dev nD) (t : Fin cfg0.N) (a : Fin 64) (b : Fin 128) :
    (iblk0 V c 3 t : FVec Ideal S64x128 .f32) (ix2 a b) = (V c main_v25 : FVec Ideal S64x128 .f32) (ix2 a b) := by
  obtain ⟨e0, e1⟩ := (idx_facts t).2.2.2.2.2.1
  unfold iblk0
  rw [View.read_apply]
  show V c main_v25 _ = V c main_v25 _
  refine congrArg (V c main_v25) ?_
  funext ax
  apply Fin.ext
  match ax with
  | ⟨0, _⟩ => show win0_3.index t (0 : Fin 2) * 64 + 1 * a.val = a.val; rw [e0]; omega
  | ⟨1, _⟩ => show win0_3.index t (1 : Fin 2) * 128 + 1 * b.val = b.val; rw [e1]; omega

/-- Window 4 is its whole array at every point. -/
theorem iblk_4 (c : Dev nD) (t : Fin cfg0.N) (a : Fin 64) (b : Fin 128) :
    (iblk0 V c 4 t : FVec Ideal S64x128 .f32) (ix2 a b) = (V c main_v26 : FVec Ideal S64x128 .f32) (ix2 a b) := by
  obtain ⟨e0, e1⟩ := (idx_facts t).2.2.2.2.2.2.1
  unfold iblk0
  rw [View.read_apply]
  show V c main_v26 _ = V c main_v26 _
  refine congrArg (V c main_v26) ?_
  funext ax
  apply Fin.ext
  match ax with
  | ⟨0, _⟩ => show win0_4.index t (0 : Fin 2) * 64 + 1 * a.val = a.val; rw [e0]; omega
  | ⟨1, _⟩ => show win0_4.index t (1 : Fin 2) * 128 + 1 * b.val = b.val; rw [e1]; omega

/-- Window 5 is its whole array at every point. -/
theorem iblk_5 (c : Dev nD) (t : Fin cfg0.N) (a : Fin 64) (b : Fin 128) :
    (iblk0 V c 5 t : FVec Ideal S64x128 .f32) (ix2 a b) = (V c main_v27 : FVec Ideal S64x128 .f32) (ix2 a b) := by
  obtain ⟨e0, e1⟩ := (idx_facts t).2.2.2.2.2.2.2.1
  unfold iblk0
  rw [View.read_apply]
  show V c main_v27 _ = V c main_v27 _
  refine congrArg (V c main_v27) ?_
  funext ax
  apply Fin.ext
  match ax with
  | ⟨0, _⟩ => show win0_5.index t (0 : Fin 2) * 64 + 1 * a.val = a.val; rw [e0]; omega
  | ⟨1, _⟩ => show win0_5.index t (1 : Fin 2) * 128 + 1 * b.val = b.val; rw [e1]; omega

/-- Window 6 is its whole array at every point. -/
theorem iblk_6 (c : Dev nD) (t : Fin cfg0.N) (a : Fin 1) (b : Fin 128) :
    (iblk0 V c 6 t : FVec Ideal S1x128 .f32) (ix2 a b) = (V c main_v15 : FVec Ideal S1x128 .f32) (ix2 a b) := by
  obtain ⟨e0, e1⟩ := (idx_facts t).2.2.2.2.2.2.2.2.1
  unfold iblk0
  rw [View.read_apply]
  show V c main_v15 _ = V c main_v15 _
  refine congrArg (V c main_v15) ?_
  funext ax
  apply Fin.ext
  match ax with
  | ⟨0, _⟩ => show win0_6.index t (0 : Fin 2) * 1 + 1 * a.val = a.val; rw [e0]; omega
  | ⟨1, _⟩ => show win0_6.index t (1 : Fin 2) * 128 + 1 * b.val = b.val; rw [e1]; omega

/-- Window 7 is its whole array at every point. -/
theorem iblk_7 (c : Dev nD) (t : Fin cfg0.N) (a : Fin 128) (b : Fin 128) :
    (iblk0 V c 7 t : FVec Ideal S128x128 .f32) (ix2 a b) = (V c main_arg6 : FVec Ideal S128x128 .f32) (ix2 a b) := by
  obtain ⟨e0, e1⟩ := (idx_facts t).2.2.2.2.2.2.2.2.2.1
  unfold iblk0
  rw [View.read_apply]
  show V c main_arg6 _ = V c main_arg6 _
  refine congrArg (V c main_arg6) ?_
  funext ax
  apply Fin.ext
  match ax with
  | ⟨0, _⟩ => show win0_7.index t (0 : Fin 2) * 128 + 1 * a.val = a.val; rw [e0]; omega
  | ⟨1, _⟩ => show win0_7.index t (1 : Fin 2) * 128 + 1 * b.val = b.val; rw [e1]; omega

/-- Window 8 is its whole array at every point. -/
theorem iblk_8 (c : Dev nD) (t : Fin cfg0.N) (a : Fin 1) (b : Fin 128) :
    (iblk0 V c 8 t : FVec Ideal S1x128 .f32) (ix2 a b) = (V c main_v16 : FVec Ideal S1x128 .f32) (ix2 a b) := by
  obtain ⟨e0, e1⟩ := (idx_facts t).2.2.2.2.2.2.2.2.2.2.1
  unfold iblk0
  rw [View.read_apply]
  show V c main_v16 _ = V c main_v16 _
  refine congrArg (V c main_v16) ?_
  funext ax
  apply Fin.ext
  match ax with
  | ⟨0, _⟩ => show win0_8.index t (0 : Fin 2) * 1 + 1 * a.val = a.val; rw [e0]; omega
  | ⟨1, _⟩ => show win0_8.index t (1 : Fin 2) * 128 + 1 * b.val = b.val; rw [e1]; omega

/-- Window 9 is its whole array at every point. -/
theorem iblk_9 (c : Dev nD) (t : Fin cfg0.N) (a : Fin 128) (b : Fin 64) :
    (iblk0 V c 9 t : FVec Ideal S128x64 .f32) (ix2 a b) = (V c main_arg8 : FVec Ideal S128x64 .f32) (ix2 a b) := by
  obtain ⟨e0, e1⟩ := (idx_facts t).2.2.2.2.2.2.2.2.2.2.2.1
  unfold iblk0
  rw [View.read_apply]
  show V c main_arg8 _ = V c main_arg8 _
  refine congrArg (V c main_arg8) ?_
  funext ax
  apply Fin.ext
  match ax with
  | ⟨0, _⟩ => show win0_9.index t (0 : Fin 2) * 128 + 1 * a.val = a.val; rw [e0]; omega
  | ⟨1, _⟩ => show win0_9.index t (1 : Fin 2) * 64 + 1 * b.val = b.val; rw [e1]; omega

/-- Window 10 is its whole array at every point. -/
theorem iblk_10 (c : Dev nD) (t : Fin cfg0.N) (a : Fin 1) (b : Fin 64) :
    (iblk0 V c 10 t : FVec Ideal S1x64 .f32) (ix2 a b) = (V c main_v17 : FVec Ideal S1x64 .f32) (ix2 a b) := by
  obtain ⟨e0, e1⟩ := (idx_facts t).2.2.2.2.2.2.2.2.2.2.2.2.1
  unfold iblk0
  rw [View.read_apply]
  show V c main_v17 _ = V c main_v17 _
  refine congrArg (V c main_v17) ?_
  funext ax
  apply Fin.ext
  match ax with
  | ⟨0, _⟩ => show win0_10.index t (0 : Fin 2) * 1 + 1 * a.val = a.val; rw [e0]; omega
  | ⟨1, _⟩ => show win0_10.index t (1 : Fin 2) * 64 + 1 * b.val = b.val; rw [e1]; omega

/-- Window 11 is its whole array at every point. -/
theorem iblk_11 (c : Dev nD) (t : Fin cfg0.N) (a : Fin 1) (b : Fin 64) :
    (iblk0 V c 11 t : FVec Ideal S1x64 .f32) (ix2 a b) = (V c main_v18 : FVec Ideal S1x64 .f32) (ix2 a b) := by
  obtain ⟨e0, e1⟩ := (idx_facts t).2.2.2.2.2.2.2.2.2.2.2.2.2.1
  unfold iblk0
  rw [View.read_apply]
  show V c main_v18 _ = V c main_v18 _
  refine congrArg (V c main_v18) ?_
  funext ax
  apply Fin.ext
  match ax with
  | ⟨0, _⟩ => show win0_11.index t (0 : Fin 2) * 1 + 1 * a.val = a.val; rw [e0]; omega
  | ⟨1, _⟩ => show win0_11.index t (1 : Fin 2) * 64 + 1 * b.val = b.val; rw [e1]; omega

/-- Window 12 is its whole array at every point. -/
theorem iblk_12 (c : Dev nD) (t : Fin cfg0.N) (a : Fin 1) (b : Fin 64) :
    (iblk0 V c 12 t : FVec Ideal S1x64 .f32) (ix2 a b) = (V c main_v19 : FVec Ideal S1x64 .f32) (ix2 a b) := by
  obtain ⟨e0, e1⟩ := (idx_facts t).2.2.2.2.2.2.2.2.2.2.2.2.2.2
  unfold iblk0
  rw [View.read_apply]
  show V c main_v19 _ = V c main_v19 _
  refine congrArg (V c main_v19) ?_
  funext ax
  apply Fin.ext
  match ax with
  | ⟨0, _⟩ => show win0_12.index t (0 : Fin 2) * 1 + 1 * a.val = a.val; rw [e0]; omega
  | ⟨1, _⟩ => show win0_12.index t (1 : Fin 2) * 64 + 1 * b.val = b.val; rw [e1]; omega

/-- A block of consecutive rows of a matrix read at an entry, the row given by its number. -/
theorem sliceRow_apply {M m n : Nat} (o : Nat) (ho : o + m ≤ M) (x : FVec Ideal ⟨2, ![M, n]⟩ .f32)
    (h : (⟨2, ![M, n]⟩ : Shape).Slices ![o, 0] ⟨2, ![m, n]⟩) (k : Fin m) (b : Fin n) (i : Fin M) (hi : i.val = o + k.val) :
    extractStridedSlice ⟨2, ![m, n]⟩ ![o, 0] x h (ix2 k b) = x (ix2 i b) := by
  rw [Cert.LibColumnBlocks.rowBlock_apply o ho x h k b]
  exact congrArg (fun r => x (ix2 r b)) (Fin.ext hi.symm)

/-- The body's payload on the blocks at point `t` is the rows `rowAt t` of the messages. -/
theorem rows_msg (c : Dev nD) (xr xs : FVec Ideal S1000000x64 .f32) (w1 : FVec Ideal S192x128 .f32) (b1 b2 : FVec Ideal S128 .f32) (b3 g β : FVec Ideal S64 .f32)
    (hxr : ∀ i, (V c main_v7 : FVec Ideal S1000000x64 .bf16) i = xr i) (hxs : ∀ i, (V c main_v14 : FVec Ideal S1000000x64 .bf16) i = xs i)
    (hw1a : (V c main_v25 : FVec Ideal S64x128 .f32) = extractStridedSlice S64x128 ![0, 0] w1 slices_S192x128_S64x128_0_0)
    (hw1b : (V c main_v26 : FVec Ideal S64x128 .f32) = extractStridedSlice S64x128 ![64, 0] w1 slices_S192x128_S64x128_64_0)
    (hw1c : (V c main_v27 : FVec Ideal S64x128 .f32) = extractStridedSlice S64x128 ![128, 0] w1 slices_S192x128_S64x128_128_0)
    (hb1 : (V c main_v15 : FVec Ideal S1x128 .f32) = shapeCast S1x128 b1 shapeCasts_S128_S1x128)
    (hb2 : (V c main_v16 : FVec Ideal S1x128 .f32) = shapeCast S1x128 b2 shapeCasts_S128_S1x128)
    (hb3 : (V c main_v17 : FVec Ideal S1x64 .f32) = shapeCast S1x64 b3 shapeCasts_S64_S1x64)
    (hg : (V c main_v18 : FVec Ideal S1x64 .f32) = shapeCast S1x64 g shapeCasts_S64_S1x64)
    (hβ : (V c main_v19 : FVec Ideal S1x64 .f32) = shapeCast S1x64 β shapeCasts_S64_S1x64) (t : Fin cfg0.N) :
    RowsOf (rowAt t) (k0_pay1 (k0_pay3 (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t) (iblk0 V c 12 t)) (Cert.Spec.msg (V c main_arg3) xr xs w1 b1 (V c main_arg6) b2 (V c main_arg8) b3 g β) :=
  edge_rows (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    (V c main_arg3) xr xs w1 b1 (V c main_arg6) b2 (V c main_arg8) b3 g β
    (fun a b => iblk_0 V c t a b) (fun a b => (iblk_1 V c t a b).trans (hxr _)) (fun a b => (iblk_2 V c t a b).trans (hxs _))
    (fun k b i hi => (iblk_3 V c t k b).trans (by rw [hw1a]; exact sliceRow_apply 0 (by decide) w1 _ k b i (by omega)))
    (fun k b i hi => (iblk_4 V c t k b).trans (by rw [hw1b]; exact sliceRow_apply 64 (by decide) w1 _ k b i hi))
    (fun k b i hi => (iblk_5 V c t k b).trans (by rw [hw1c]; exact sliceRow_apply 128 (by decide) w1 _ k b i (by omega)))
    (fun q => (iblk_6 V c t 0 q).trans (by rw [hb1]; exact shapeCast_a_1a_apply b1 _ 0 q))
    (fun k b => iblk_7 V c t k b)
    (fun q => (iblk_8 V c t 0 q).trans (by rw [hb2]; exact shapeCast_a_1a_apply b2 _ 0 q))
    (fun k b => iblk_9 V c t k b)
    (fun q => (iblk_10 V c t 0 q).trans (by rw [hb3]; exact shapeCast_a_1a_apply b3 _ 0 q))
    (fun q => (iblk_11 V c t 0 q).trans (by rw [hg]; exact shapeCast_a_1a_apply g _ 0 q))
    (fun q => (iblk_12 V c t 0 q).trans (by rw [hβ]; exact shapeCast_a_1a_apply β _ 0 q))

/-- The same for the edge result. -/
theorem rows_out (c : Dev nD) (xr xs : FVec Ideal S1000000x64 .f32) (w1 : FVec Ideal S192x128 .f32) (b1 b2 : FVec Ideal S128 .f32) (b3 g β : FVec Ideal S64 .f32)
    (hxr : ∀ i, (V c main_v7 : FVec Ideal S1000000x64 .bf16) i = xr i) (hxs : ∀ i, (V c main_v14 : FVec Ideal S1000000x64 .bf16) i = xs i)
    (hw1a : (V c main_v25 : FVec Ideal S64x128 .f32) = extractStridedSlice S64x128 ![0, 0] w1 slices_S192x128_S64x128_0_0)
    (hw1b : (V c main_v26 : FVec Ideal S64x128 .f32) = extractStridedSlice S64x128 ![64, 0] w1 slices_S192x128_S64x128_64_0)
    (hw1c : (V c main_v27 : FVec Ideal S64x128 .f32) = extractStridedSlice S64x128 ![128, 0] w1 slices_S192x128_S64x128_128_0)
    (hb1 : (V c main_v15 : FVec Ideal S1x128 .f32) = shapeCast S1x128 b1 shapeCasts_S128_S1x128)
    (hb2 : (V c main_v16 : FVec Ideal S1x128 .f32) = shapeCast S1x128 b2 shapeCasts_S128_S1x128)
    (hb3 : (V c main_v17 : FVec Ideal S1x64 .f32) = shapeCast S1x64 b3 shapeCasts_S64_S1x64)
    (hg : (V c main_v18 : FVec Ideal S1x64 .f32) = shapeCast S1x64 g shapeCasts_S64_S1x64)
    (hβ : (V c main_v19 : FVec Ideal S1x64 .f32) = shapeCast S1x64 β shapeCasts_S64_S1x64) (t : Fin cfg0.N) :
    RowsOf (rowAt t) (k0_pay2 (iblk0 V c 0 t) (k0_pay3 (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t) (iblk0 V c 12 t)) (addf (V c main_arg3) (Cert.Spec.msg (V c main_arg3) xr xs w1 b1 (V c main_arg6) b2 (V c main_arg8) b3 g β)) :=
  edge_rows_out (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    (V c main_arg3) xr xs w1 b1 (V c main_arg6) b2 (V c main_arg8) b3 g β
    (fun a b => iblk_0 V c t a b) (fun a b => (iblk_1 V c t a b).trans (hxr _)) (fun a b => (iblk_2 V c t a b).trans (hxs _))
    (fun k b i hi => (iblk_3 V c t k b).trans (by rw [hw1a]; exact sliceRow_apply 0 (by decide) w1 _ k b i (by omega)))
    (fun k b i hi => (iblk_4 V c t k b).trans (by rw [hw1b]; exact sliceRow_apply 64 (by decide) w1 _ k b i hi))
    (fun k b i hi => (iblk_5 V c t k b).trans (by rw [hw1c]; exact sliceRow_apply 128 (by decide) w1 _ k b i (by omega)))
    (fun q => (iblk_6 V c t 0 q).trans (by rw [hb1]; exact shapeCast_a_1a_apply b1 _ 0 q))
    (fun k b => iblk_7 V c t k b)
    (fun q => (iblk_8 V c t 0 q).trans (by rw [hb2]; exact shapeCast_a_1a_apply b2 _ 0 q))
    (fun k b => iblk_9 V c t k b)
    (fun q => (iblk_10 V c t 0 q).trans (by rw [hb3]; exact shapeCast_a_1a_apply b3 _ 0 q))
    (fun q => (iblk_11 V c t 0 q).trans (by rw [hg]; exact shapeCast_a_1a_apply g _ 0 q))
    (fun q => (iblk_12 V c t 0 q).trans (by rw [hβ]; exact shapeCast_a_1a_apply β _ 0 q))

/-- What point `t` writes back through output window 13 is block `t` of the whole-array function. -/
theorem flushed_13 (c : Dev nD) (xr xs : FVec Ideal S1000000x64 .f32) (w1 : FVec Ideal S192x128 .f32) (b1 b2 : FVec Ideal S128 .f32) (b3 g β : FVec Ideal S64 .f32)
    (hxr : ∀ i, (V c main_v7 : FVec Ideal S1000000x64 .bf16) i = xr i) (hxs : ∀ i, (V c main_v14 : FVec Ideal S1000000x64 .bf16) i = xs i)
    (hw1a : (V c main_v25 : FVec Ideal S64x128 .f32) = extractStridedSlice S64x128 ![0, 0] w1 slices_S192x128_S64x128_0_0)
    (hw1b : (V c main_v26 : FVec Ideal S64x128 .f32) = extractStridedSlice S64x128 ![64, 0] w1 slices_S192x128_S64x128_64_0)
    (hw1c : (V c main_v27 : FVec Ideal S64x128 .f32) = extractStridedSlice S64x128 ![128, 0] w1 slices_S192x128_S64x128_128_0)
    (hb1 : (V c main_v15 : FVec Ideal S1x128 .f32) = shapeCast S1x128 b1 shapeCasts_S128_S1x128)
    (hb2 : (V c main_v16 : FVec Ideal S1x128 .f32) = shapeCast S1x128 b2 shapeCasts_S128_S1x128)
    (hb3 : (V c main_v17 : FVec Ideal S1x64 .f32) = shapeCast S1x64 b3 shapeCasts_S64_S1x64)
    (hg : (V c main_v18 : FVec Ideal S1x64 .f32) = shapeCast S1x64 g shapeCasts_S64_S1x64)
    (hβ : (V c main_v19 : FVec Ideal S1x64 .f32) = shapeCast S1x64 β shapeCasts_S64_S1x64) (t : Fin cfg0.N) :
    (dat0 V c).flushed 13 t = ((cfg0.win 13).blk t).view.read (Elt Ideal) (Cert.Spec.msg (V c main_arg3) xr xs w1 b1 (V c main_arg6) b2 (V c main_arg8) b3 g β) := by
  show (cfg0.win 13).cut (grid0.coords t) ((dat0 V c).after 13 t) = _
  rw [after0_13]
  unfold out0_13
  rw [View.canon_unit_zero hz]
  simp only [View.ld_unit_zero (S := S4000x64) hz, View.ld_unit_zero (S := S64x128) hz, View.ld_unit_zero (S := S1x128) hz,
    View.ld_unit_zero (S := S128x128) hz, View.ld_unit_zero (S := S128x64) hz, View.ld_unit_zero (S := S1x64) hz]
  funext y
  obtain ⟨a, b, rfl⟩ : ∃ (a : Fin 4000) (b : Fin 64), y = ix2 a b := ⟨y 0, y 1, eq_ix2 y⟩
  refine (rows_msg V c xr xs w1 b1 b2 b3 g β hxr hxs hw1a hw1b hw1c hb1 hb2 hb3 hg hβ t a b).trans ?_
  rw [View.read_apply]
  refine congrArg (Cert.Spec.msg (V c main_arg3) xr xs w1 b1 (V c main_arg6) b2 (V c main_arg8) b3 g β) ?_
  obtain ⟨e0, e1⟩ := (idx_facts t).2.2.2.1
  funext ax
  apply Fin.ext
  match ax with
  | ⟨0, _⟩ => show 4000 * t.val + a.val = win0_13.index t (0 : Fin 2) * 4000 + 1 * a.val; rw [e0]; omega
  | ⟨1, _⟩ => show b.val = win0_13.index t (1 : Fin 2) * 64 + 1 * b.val; rw [e1]; omega

/-- An index of the array is in point `t`'s block of window 13 iff each coordinate is in the block's range. -/
theorem mem_blk_13 (t : Fin cfg0.N) (i : S1000000x64.Idx) :
    i ∈ ((cfg0.win 13).blk t).view.set ↔ ∀ ax : Fin 2, win0_13.index t ax * S4000x64.size ax ≤ (i ax).val ∧ (i ax).val < win0_13.index t ax * S4000x64.size ax + S4000x64.size ax := by
  show i ∈ ((View.whole main_v30_0).slice (win0_13.rect t)).set ↔ _
  rw [View.set_slice_whole, Rect.mem_set_unit]
  exact Iff.rfl

/-- The 250 blocks of window 13 tile the array: row r lies in the block of point r / 4000. -/
theorem cover_13 (i : S1000000x64.Idx) : ∃ t : Fin cfg0.N, (cfg0.win 13).flush t = true ∧ i ∈ ((cfg0.win 13).blk t).view.set := by
  have hN : cfg0.N = 250 := N_0
  have hi0 : (i 0).val < 1000000 := (i 0).isLt
  have hi1 : (i 1).val < 64 := (i 1).isLt
  refine ⟨⟨(i 0).val / 4000, by omega⟩, flush0_13 _, ?_⟩
  rw [mem_blk_13]
  obtain ⟨e0, e1⟩ := (idx_facts ⟨(i 0).val / 4000, by omega⟩).2.2.2.1
  intro ax
  match ax with
  | ⟨0, _⟩ =>
    show win0_13.index _ (0 : Fin 2) * 4000 ≤ (i 0).val ∧ (i 0).val < win0_13.index _ (0 : Fin 2) * 4000 + 4000
    rw [e0]; show (i 0).val / 4000 * 4000 ≤ (i 0).val ∧ (i 0).val < (i 0).val / 4000 * 4000 + 4000; omega
  | ⟨1, _⟩ =>
    show win0_13.index _ (1 : Fin 2) * 64 ≤ (i 1).val ∧ (i 1).val < win0_13.index _ (1 : Fin 2) * 64 + 64
    rw [e1]; omega

/-- What point `t` writes back through output window 14 is block `t` of the whole-array function. -/
theorem flushed_14 (c : Dev nD) (xr xs : FVec Ideal S1000000x64 .f32) (w1 : FVec Ideal S192x128 .f32) (b1 b2 : FVec Ideal S128 .f32) (b3 g β : FVec Ideal S64 .f32)
    (hxr : ∀ i, (V c main_v7 : FVec Ideal S1000000x64 .bf16) i = xr i) (hxs : ∀ i, (V c main_v14 : FVec Ideal S1000000x64 .bf16) i = xs i)
    (hw1a : (V c main_v25 : FVec Ideal S64x128 .f32) = extractStridedSlice S64x128 ![0, 0] w1 slices_S192x128_S64x128_0_0)
    (hw1b : (V c main_v26 : FVec Ideal S64x128 .f32) = extractStridedSlice S64x128 ![64, 0] w1 slices_S192x128_S64x128_64_0)
    (hw1c : (V c main_v27 : FVec Ideal S64x128 .f32) = extractStridedSlice S64x128 ![128, 0] w1 slices_S192x128_S64x128_128_0)
    (hb1 : (V c main_v15 : FVec Ideal S1x128 .f32) = shapeCast S1x128 b1 shapeCasts_S128_S1x128)
    (hb2 : (V c main_v16 : FVec Ideal S1x128 .f32) = shapeCast S1x128 b2 shapeCasts_S128_S1x128)
    (hb3 : (V c main_v17 : FVec Ideal S1x64 .f32) = shapeCast S1x64 b3 shapeCasts_S64_S1x64)
    (hg : (V c main_v18 : FVec Ideal S1x64 .f32) = shapeCast S1x64 g shapeCasts_S64_S1x64)
    (hβ : (V c main_v19 : FVec Ideal S1x64 .f32) = shapeCast S1x64 β shapeCasts_S64_S1x64) (t : Fin cfg0.N) :
    (dat0 V c).flushed 14 t = ((cfg0.win 14).blk t).view.read (Elt Ideal) (addf (V c main_arg3) (Cert.Spec.msg (V c main_arg3) xr xs w1 b1 (V c main_arg6) b2 (V c main_arg8) b3 g β)) := by
  show (cfg0.win 14).cut (grid0.coords t) ((dat0 V c).after 14 t) = _
  rw [after0_14]
  unfold out0_14
  rw [View.canon_unit_zero hz]
  simp only [View.ld_unit_zero (S := S4000x64) hz, View.ld_unit_zero (S := S64x128) hz, View.ld_unit_zero (S := S1x128) hz,
    View.ld_unit_zero (S := S128x128) hz, View.ld_unit_zero (S := S128x64) hz, View.ld_unit_zero (S := S1x64) hz]
  funext y
  obtain ⟨a, b, rfl⟩ : ∃ (a : Fin 4000) (b : Fin 64), y = ix2 a b := ⟨y 0, y 1, eq_ix2 y⟩
  refine (rows_out V c xr xs w1 b1 b2 b3 g β hxr hxs hw1a hw1b hw1c hb1 hb2 hb3 hg hβ t a b).trans ?_
  rw [View.read_apply]
  refine congrArg (addf (V c main_arg3) (Cert.Spec.msg (V c main_arg3) xr xs w1 b1 (V c main_arg6) b2 (V c main_arg8) b3 g β)) ?_
  obtain ⟨e0, e1⟩ := (idx_facts t).2.2.2.2.1
  funext ax
  apply Fin.ext
  match ax with
  | ⟨0, _⟩ => show 4000 * t.val + a.val = win0_14.index t (0 : Fin 2) * 4000 + 1 * a.val; rw [e0]; omega
  | ⟨1, _⟩ => show b.val = win0_14.index t (1 : Fin 2) * 64 + 1 * b.val; rw [e1]; omega

/-- An index of the array is in point `t`'s block of window 14 iff each coordinate is in the block's range. -/
theorem mem_blk_14 (t : Fin cfg0.N) (i : S1000000x64.Idx) :
    i ∈ ((cfg0.win 14).blk t).view.set ↔ ∀ ax : Fin 2, win0_14.index t ax * S4000x64.size ax ≤ (i ax).val ∧ (i ax).val < win0_14.index t ax * S4000x64.size ax + S4000x64.size ax := by
  show i ∈ ((View.whole main_v30_1).slice (win0_14.rect t)).set ↔ _
  rw [View.set_slice_whole, Rect.mem_set_unit]
  exact Iff.rfl

/-- The 250 blocks of window 14 tile the array: row r lies in the block of point r / 4000. -/
theorem cover_14 (i : S1000000x64.Idx) : ∃ t : Fin cfg0.N, (cfg0.win 14).flush t = true ∧ i ∈ ((cfg0.win 14).blk t).view.set := by
  have hN : cfg0.N = 250 := N_0
  have hi0 : (i 0).val < 1000000 := (i 0).isLt
  have hi1 : (i 1).val < 64 := (i 1).isLt
  refine ⟨⟨(i 0).val / 4000, by omega⟩, flush0_14 _, ?_⟩
  rw [mem_blk_14]
  obtain ⟨e0, e1⟩ := (idx_facts ⟨(i 0).val / 4000, by omega⟩).2.2.2.2.1
  intro ax
  match ax with
  | ⟨0, _⟩ =>
    show win0_14.index _ (0 : Fin 2) * 4000 ≤ (i 0).val ∧ (i 0).val < win0_14.index _ (0 : Fin 2) * 4000 + 4000
    rw [e0]; show (i 0).val / 4000 * 4000 ≤ (i 0).val ∧ (i 0).val < (i 0).val / 4000 * 4000 + 4000; omega
  | ⟨1, _⟩ =>
    show win0_14.index _ (1 : Fin 2) * 64 ≤ (i 1).val ∧ (i 1).val < win0_14.index _ (1 : Fin 2) * 64 + 64
    rw [e1]; omega

/-- THE EDGE STAGE: after the last point the messages array is the whole-array messages and the edge-result array the
    edge features plus the messages, as functions of the arrays the stage finds at its entry. -/
theorem edge_final (V : (c : Dev nD) → (b : Ref sig .tc) → Buf (Elt Ideal) ((c : Thread nD τ).loc b)) (c : Dev nD)
    (xr xs : FVec Ideal S1000000x64 .f32) (w1 : FVec Ideal S192x128 .f32) (b1 b2 : FVec Ideal S128 .f32) (b3 g β : FVec Ideal S64 .f32)
    (hxr : ∀ i, (V c main_v7 : FVec Ideal S1000000x64 .bf16) i = xr i) (hxs : ∀ i, (V c main_v14 : FVec Ideal S1000000x64 .bf16) i = xs i)
    (hw1a : (V c main_v25 : FVec Ideal S64x128 .f32) = extractStridedSlice S64x128 ![0, 0] w1 slices_S192x128_S64x128_0_0)
    (hw1b : (V c main_v26 : FVec Ideal S64x128 .f32) = extractStridedSlice S64x128 ![64, 0] w1 slices_S192x128_S64x128_64_0)
    (hw1c : (V c main_v27 : FVec Ideal S64x128 .f32) = extractStridedSlice S64x128 ![128, 0] w1 slices_S192x128_S64x128_128_0)
    (hb1 : (V c main_v15 : FVec Ideal S1x128 .f32) = shapeCast S1x128 b1 shapeCasts_S128_S1x128)
    (hb2 : (V c main_v16 : FVec Ideal S1x128 .f32) = shapeCast S1x128 b2 shapeCasts_S128_S1x128)
    (hb3 : (V c main_v17 : FVec Ideal S1x64 .f32) = shapeCast S1x64 b3 shapeCasts_S64_S1x64)
    (hg : (V c main_v18 : FVec Ideal S1x64 .f32) = shapeCast S1x64 g shapeCasts_S64_S1x64)
    (hβ : (V c main_v19 : FVec Ideal S1x64 .f32) = shapeCast S1x64 β shapeCasts_S64_S1x64) :
    (dat0 V c).arrAt 13 cfg0.N = Cert.Spec.msg (V c main_arg3) xr xs w1 b1 (V c main_arg6) b2 (V c main_arg8) b3 g β
    ∧ (dat0 V c).arrAt 14 cfg0.N = addf (V c main_arg3) (Cert.Spec.msg (V c main_arg3) xr xs w1 b1 (V c main_arg6) b2 (V c main_arg8) b3 g β) :=
  ⟨(dat0 V c).arrAt_eq_of_cover 13 _ (fun t _ => flushed_13 V c xr xs w1 b1 b2 b3 g β hxr hxs hw1a hw1b hw1c hb1 hb2 hb3 hg hβ t) (cover_13),
   (dat0 V c).arrAt_eq_of_cover 14 _ (fun t _ => flushed_14 V c xr xs w1 b1 b2 b3 g β hxr hxs hw1a hw1b hw1c hb1 hb2 hb3 hg hβ t) (cover_14)⟩

end Cert.KernelIdeal.EdgeStage

end
-- ==== Proof.Region1.lean ====
/-
  The node stage of the tiled program as one whole-array equation, at the extended reals.

  The stage runs over a grid of 20 points. Point t reads rows 5000·t … 5000·t + 4999 of the node features x and of the
  aggregate (two tiled blocks of 5000 rows and 64 columns), and the whole of the small parameter arrays: the two
  64-row halves of the first weight matrix, the bias rows, the second and third weight matrices, the weight row γ and
  the shift row β of the normalization. Its body computes, on the block,

      h₁ = tanh(x_blk·W₁[0:64] + agg_blk·W₁[64:128] + b₁),  h₂ = tanh(h₁·W₂ + b₂),  h₃ = h₂·W₃ + b₃,
      out = x_blk + ((h₃ − mean) · rsqrt(var + e)) · γ + β      (mean and var along each row),

  and writes the result back as block t of the output. Every operation treats the rows independently, so the block's
  result holds the rows 5000·t … of the host's spelling of the same stage on the whole arrays: the split product
  x_blk·W₁[0:64] + agg_blk·W₁[64:128] is the row block of [x | agg]·W₁ (a finite sum split in two), and x + ln is
  ln + x (addition of extended reals is commutative). The 20 output blocks tile the 100000 rows (row r lies in the
  block of point r / 5000), so after the last point the output array is the whole-array node stage.
-/
import proofs.«124261_j53137335386495_2_alg».proof.Proof.Gen.KernelIdeal.Frame
import proofs.«124261_j53137335386495_2_alg».proof.Proof.Spec
import proofs.«124261_j53137335386495_2_alg».proof.Proof.LibRowwise
import proofs.«124261_j53137335386495_2_alg».proof.Proof.LibMlpBlock
import proofs.«124261_j53137335386495_2_alg».proof.Proof.LibNormRows
import proofs.«124261_j53137335386495_2_alg».proof.Proof.LibSplitDot
import proofs.«124261_j53137335386495_2_alg».proof.Proof.LibColumnBlocks
import Idealize.ShloMosaic.Lib.Pipeline.Value

set_option maxRecDepth 16384

noncomputable section

namespace Cert.KernelIdeal.NodeStage

open Cert.KernelIdeal Cert.KernelIdeal.Gen Idealize.ShloMosaic Idealize.ShloMosaic.TcCoe Idealize.ShloMosaic.ValueIdx
open Cert.LibRowwise Cert.LibNormRows Cert.LibSplitDot

/-! ## Small closure lemmas -/

/-- A vector broadcast along the columns of a one-row matrix reads, at (0, q), the vector at q. -/
theorem hostRow_apply {N : Nat} (b : FVec Ideal ⟨1, ![N]⟩ .f32)
    (hb : (⟨1, ![N]⟩ : Shape).BroadcastsInDim ⟨2, ![1, N]⟩ (![1] : Fin 1 → Fin 2)) (q : Fin N) :
    broadcastInDim ⟨2, ![1, N]⟩ ![1] hb b (ix2 (0 : Fin 1) q) = b (ix1 q) := by
  refine broadcastInDim_apply (![1] : Fin 1 → Fin 2) hb b (ix2 (0 : Fin 1) q) (ix1 q) fun ax => ?_
  match ax with
  | ⟨0, _⟩ =>
    show q.val = if N = 1 then 0 else q.val
    split
    · have := q.isLt; omega
    · rfl

/-- A weight block through an identity cast and a narrowing of the float format reads the block. -/
theorem weightCast_apply {k n : Nat} (x : FVec Ideal ⟨2, ![k, n]⟩ .f32)
    (hs : (⟨2, ![k, n]⟩ : Shape).ShapeCasts ⟨2, ![k, n]⟩) (hb : FTy.bf16.bits < FTy.f32.bits) (c : Fin k) (b : Fin n) :
    (truncf .bf16 (shapeCast ⟨2, ![k, n]⟩ x hs) hb : FVec Ideal ⟨2, ![k, n]⟩ .bf16) (ix2 c b) = x (ix2 c b) := by
  rw [truncf_apply, shapeCast_self]

/-- An identity cast of a block that holds rows of X still holds them. -/
theorem rowsOf_castSelf {m M n : Nat} {φ ψ : FTy} {row : Fin m → Fin M} {A : FVec Ideal ⟨2, ![m, n]⟩ φ}
    {X : FVec Ideal ⟨2, ![M, n]⟩ ψ} (h : RowsOf row A X) (hs : (⟨2, ![m, n]⟩ : Shape).ShapeCasts ⟨2, ![m, n]⟩) :
    RowsOf row (shapeCast ⟨2, ![m, n]⟩ A hs) X := by
  intro a b; rw [shapeCast_self]; exact h a b

/-- A sum with the summands in the other order: addition of extended reals is commutative. -/
theorem rowsOf_addf_comm {m M n : Nat} {φ : FTy} {row : Fin m → Fin M} {A B : FVec Ideal ⟨2, ![m, n]⟩ φ}
    {X Y : FVec Ideal ⟨2, ![M, n]⟩ φ} (hA : RowsOf row A X) (hB : RowsOf row B Y) :
    RowsOf row (addf A B) (addf Y X) := fun a b => by
  rw [addf_apply, addf_apply, hA a b, hB a b, add_comm]

/-! ## The body's arithmetic on a block of rows -/

/-- THE NODE BODY ON A BLOCK OF ROWS: if the two tiled blocks hold the rows "row" of x and of the aggregate, the two
    weight blocks are the first and the last 64 rows of the first weight matrix, and the other blocks are the other
    parameters (a bias, weight or shift row read at (0, q) is the vector at q), then the body's result holds the same
    rows of the node stage of the whole arrays. -/
theorem node_payload_rows {row : Fin 5000 → Fin 100000}
    (x0 x1 : FVec Ideal S5000x64 .f32) (x2 x3 : FVec Ideal S64x128 .f32) (x4 : FVec Ideal S1x128 .f32)
    (x5 : FVec Ideal S128x128 .f32) (x6 : FVec Ideal S1x128 .f32) (x7 : FVec Ideal S128x64 .f32)
    (x8 x9 x10 : FVec Ideal S1x64 .f32)
    (x ag : FVec Ideal S100000x64 .f32) (w1 : FVec Ideal S128x128 .f32) (b1 : FVec Ideal S128 .f32)
    (w2 : FVec Ideal S128x128 .f32) (b2 : FVec Ideal S128 .f32) (w3 : FVec Ideal S128x64 .f32)
    (b3 g β : FVec Ideal S64 .f32)
    (h0 : RowsOf row x0 x) (h1 : RowsOf row x1 ag)
    (h2 : ∀ (c : Fin 64) (b : Fin 128) (i : Fin 128), i.val = c.val → x2 (ix2 c b) = w1 (ix2 i b))
    (h3 : ∀ (c : Fin 64) (b : Fin 128) (i : Fin 128), i.val = 64 + c.val → x3 (ix2 c b) = w1 (ix2 i b))
    (h4 : ∀ q : Fin 128, x4 (ix2 (0 : Fin 1) q) = b1 (ix1 q))
    (h5 : ∀ (c : Fin 128) (b : Fin 128), x5 (ix2 c b) = w2 (ix2 c b))
    (h6 : ∀ q : Fin 128, x6 (ix2 (0 : Fin 1) q) = b2 (ix1 q))
    (h7 : ∀ (c : Fin 128) (b : Fin 64), x7 (ix2 c b) = w3 (ix2 c b))
    (h8 : ∀ q : Fin 64, x8 (ix2 (0 : Fin 1) q) = b3 (ix1 q))
    (h9 : ∀ q : Fin 64, x9 (ix2 (0 : Fin 1) q) = g (ix1 q))
    (h10 : ∀ q : Fin 64, x10 (ix2 (0 : Fin 1) q) = β (ix1 q)) :
    RowsOf row (k1_pay1 x0 (k1_pay2 x0 x1 x2 x3 x4 x5 x6 x7 x8) x9 x10)
      (Cert.Spec.nodeOut x ag w1 b1 w2 b2 w3 b3 g β) := by
  unfold k1_pay1 k1_pay2 Cert.Spec.nodeOut Cert.Spec.nodeNorm Cert.Spec.nodePre
  dsimp only
  refine rowsOf_addf_comm h0 ?ln
  refine rowsOf_layerNorm ?hH (fun q => (h9 q).trans (hostRow_apply _ _ q).symm)
    (fun q => (h10 q).trans (hostRow_apply _ _ q).symm)
    _ _ (by decide) _ _ _ _ _ _ _ _ _ (by decide) _ _ _ _ _
  refine Cert.LibMlpBlock.RowsOf.denseRow _ rfl _ rfl none none (RowsOf.truncf (RowsOf.tanh ?h2l) _) (fun c b => h7 c b)
    (fun q => (h8 q).trans (hostRow_apply _ _ q).symm) _ _ _
  refine Cert.LibMlpBlock.RowsOf.denseRow _ rfl _ rfl none none (RowsOf.truncf (RowsOf.tanh ?h1l) _) (fun c b => h5 c b)
    (fun q => (h6 q).trans (hostRow_apply _ _ q).symm) _ _ _
  refine RowsOf.addf ?hdot (rowsOf_rowBcast row (fun q => (h4 q).trans (hostRow_apply _ _ q).symm) _ _ _)
  exact rowsOf_dot2 _ rfl _ rfl _ rfl none none none (RowsOf.truncf h0 _) (RowsOf.truncf (rowsOf_castSelf h1 _) _)
    (fun c b i hi => (weightCast_apply x2 _ _ c b).trans (h2 c b i hi))
    (fun c b i hi => (weightCast_apply x3 _ _ c b).trans (h3 c b i hi)) _

/-! ## The windows' blocks as rows of the arrays -/

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The grid has 20 points. -/
theorem t_lt (t : Fin cfg1.N) : t.val < 20 := lt_of_lt_of_eq t.isLt N_1

/-- Point t works on rows 5000·t … 5000·t + 4999. -/
def rowOf (t : Fin cfg1.N) : Fin 5000 → Fin 100000 :=
  fun a => ⟨5000 * t.val + a.val, by have := t_lt t; have := a.isLt; omega⟩

/-- The printed index maps, decided over the grid: the two tiled inputs and the output are at block (t, 0); every
    other window stays at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- Window 0's block at point t holds the rows 5000·t … of the array it is cut from. -/
theorem blk0_rows (c : Dev nD) (t : Fin cfg1.N) :
    RowsOf (φ := .f32) (ψ := .f32) (rowOf t) (iblk1 V c 0 t : FVec Ideal S5000x64 .f32) (V c main_arg0 : FVec Ideal S100000x64 .f32) := by
  intro a b
  obtain ⟨e0, e1⟩ := (idx_facts t).1
  unfold iblk1
  rw [View.read_apply]
  show V c main_arg0 _ = V c main_arg0 _
  refine congrArg (V c main_arg0) ?_
  funext ax
  apply Fin.ext
  match ax with
  | ⟨0, _⟩ => show win1_0.index t (0 : Fin 2) * 5000 + 1 * a.val = 5000 * t.val + a.val; rw [e0]; omega
  | ⟨1, _⟩ => show win1_0.index t (1 : Fin 2) * 64 + 1 * b.val = b.val; rw [e1]; omega

/-- Window 1's block at point t holds the rows 5000·t … of the array it is cut from. -/
theorem blk1_rows (c : Dev nD) (t : Fin cfg1.N) :
    RowsOf (φ := .f32) (ψ := .f32) (rowOf t) (iblk1 V c 1 t : FVec Ideal S5000x64 .f32) (V c main_v36 : FVec Ideal S100000x64 .f32) := by
  intro a b
  obtain ⟨e0, e1⟩ := (idx_facts t).2.1
  unfold iblk1
  rw [View.read_apply]
  show V c main_v36 _ = V c main_v36 _
  refine congrArg (V c main_v36) ?_
  funext ax
  apply Fin.ext
  match ax with
  | ⟨0, _⟩ => show win1_1.index t (0 : Fin 2) * 5000 + 1 * a.val = 5000 * t.val + a.val; rw [e0]; omega
  | ⟨1, _⟩ => show win1_1.index t (1 : Fin 2) * 64 + 1 * b.val = b.val; rw [e1]; omega

/-- Window 2's block at every point is the whole of its array. -/
theorem blk2_apply (c : Dev nD) (t : Fin cfg1.N) (a : Fin 64) (b : Fin 128) :
    (iblk1 V c 2 t : FVec Ideal S64x128 .f32) (ix2 a b) = (V c main_v28 : FVec Ideal S64x128 .f32) (ix2 a b) := by
  obtain ⟨e0, e1⟩ := (idx_facts t).2.2.1
  unfold iblk1
  rw [View.read_apply]
  show V c main_v28 _ = V c main_v28 _
  refine congrArg (V c main_v28) ?_
  funext ax
  apply Fin.ext
  match ax with
  | ⟨0, _⟩ => show win1_2.index t (0 : Fin 2) * 64 + 1 * a.val = a.val; rw [e0]; omega
  | ⟨1, _⟩ => show win1_2.index t (1 : Fin 2) * 128 + 1 * b.val = b.val; rw [e1]; omega

/-- Window 3's block at every point is the whole of its array. -/
theorem blk3_apply (c : Dev nD) (t : Fin cfg1.N) (a : Fin 64) (b : Fin 128) :
    (iblk1 V c 3 t : FVec Ideal S64x128 .f32) (ix2 a b) = (V c main_v29 : FVec Ideal S64x128 .f32) (ix2 a b) := by
  obtain ⟨e0, e1⟩ := (idx_facts t).2.2.2.1
  unfold iblk1
  rw [View.read_apply]
  show V c main_v29 _ = V c main_v29 _
  refine congrArg (V c main_v29) ?_
  funext ax
  apply Fin.ext
  match ax with
  | ⟨0, _⟩ => show win1_3.index t (0 : Fin 2) * 64 + 1 * a.val = a.val; rw [e0]; omega
  | ⟨1, _⟩ => show win1_3.index t (1 : Fin 2) * 128 + 1 * b.val = b.val; rw [e1]; omega

/-- Window 4's block at every point is the whole of its array. -/
theorem blk4_apply (c : Dev nD) (t : Fin cfg1.N) (a : Fin 1) (b : Fin 128) :
    (iblk1 V c 4 t : FVec Ideal S1x128 .f32) (ix2 a b) = (V c main_v20 : FVec Ideal S1x128 .f32) (ix2 a b) := by
  obtain ⟨e0, e1⟩ := (idx_facts t).2.2.2.2.1
  unfold iblk1
  rw [View.read_apply]
  show V c main_v20 _ = V c main_v20 _
  refine congrArg (V c main_v20) ?_
  funext ax
  apply Fin.ext
  match ax with
  | ⟨0, _⟩ => show win1_4.index t (0 : Fin 2) * 1 + 1 * a.val = a.val; rw [e0]; omega
  | ⟨1, _⟩ => show win1_4.index t (1 : Fin 2) * 128 + 1 * b.val = b.val; rw [e1]; omega

/-- Window 5's block at every point is the whole of its array. -/
theorem blk5_apply (c : Dev nD) (t : Fin cfg1.N) (a : Fin 128) (b : Fin 128) :
    (iblk1 V c 5 t : FVec Ideal S128x128 .f32) (ix2 a b) = (V c main_arg14 : FVec Ideal S128x128 .f32) (ix2 a b) := by
  obtain ⟨e0, e1⟩ := (idx_facts t).2.2.2.2.2.1
  unfold iblk1
  rw [View.read_apply]
  show V c main_arg14 _ = V c main_arg14 _
  refine congrArg (V c main_arg14) ?_
  funext ax
  apply Fin.ext
  match ax with
  | ⟨0, _⟩ => show win1_5.index t (0 : Fin 2) * 128 + 1 * a.val = a.val; rw [e0]; omega
  | ⟨1, _⟩ => show win1_5.index t (1 : Fin 2) * 128 + 1 * b.val = b.val; rw [e1]; omega

/-- Window 6's block at every point is the whole of its array. -/
theorem blk6_apply (c : Dev nD) (t : Fin cfg1.N) (a : Fin 1) (b : Fin 128) :
    (iblk1 V c 6 t : FVec Ideal S1x128 .f32) (ix2 a b) = (V c main_v21 : FVec Ideal S1x128 .f32) (ix2 a b) := by
  obtain ⟨e0, e1⟩ := (idx_facts t).2.2.2.2.2.2.1
  unfold iblk1
  rw [View.read_apply]
  show V c main_v21 _ = V c main_v21 _
  refine congrArg (V c main_v21) ?_
  funext ax
  apply Fin.ext
  match ax with
  | ⟨0, _⟩ => show win1_6.index t (0 : Fin 2) * 1 + 1 * a.val = a.val; rw [e0]; omega
  | ⟨1, _⟩ => show win1_6.index t (1 : Fin 2) * 128 + 1 * b.val = b.val; rw [e1]; omega

/-- Window 7's block at every point is the whole of its array. -/
theorem blk7_apply (c : Dev nD) (t : Fin cfg1.N) (a : Fin 128) (b : Fin 64) :
    (iblk1 V c 7 t : FVec Ideal S128x64 .f32) (ix2 a b) = (V c main_arg16 : FVec Ideal S128x64 .f32) (ix2 a b) := by
  obtain ⟨e0, e1⟩ := (idx_facts t).2.2.2.2.2.2.2.1
  unfold iblk1
  rw [View.read_apply]
  show V c main_arg16 _ = V c main_arg16 _
  refine congrArg (V c main_arg16) ?_
  funext ax
  apply Fin.ext
  match ax with
  | ⟨0, _⟩ => show win1_7.index t (0 : Fin 2) * 128 + 1 * a.val = a.val; rw [e0]; omega
  | ⟨1, _⟩ => show win1_7.index t (1 : Fin 2) * 64 + 1 * b.val = b.val; rw [e1]; omega

/-- Window 8's block at every point is the whole of its array. -/
theorem blk8_apply (c : Dev nD) (t : Fin cfg1.N) (a : Fin 1) (b : Fin 64) :
    (iblk1 V c 8 t : FVec Ideal S1x64 .f32) (ix2 a b) = (V c main_v22 : FVec Ideal S1x64 .f32) (ix2 a b) := by
  obtain ⟨e0, e1⟩ := (idx_facts t).2.2.2.2.2.2.2.2.1
  unfold iblk1
  rw [View.read_apply]
  show V c main_v22 _ = V c main_v22 _
  refine congrArg (V c main_v22) ?_
  funext ax
  apply Fin.ext
  match ax with
  | ⟨0, _⟩ => show win1_8.index t (0 : Fin 2) * 1 + 1 * a.val = a.val; rw [e0]; omega
  | ⟨1, _⟩ => show win1_8.index t (1 : Fin 2) * 64 + 1 * b.val = b.val; rw [e1]; omega

/-- Window 9's block at every point is the whole of its array. -/
theorem blk9_apply (c : Dev nD) (t : Fin cfg1.N) (a : Fin 1) (b : Fin 64) :
    (iblk1 V c 9 t : FVec Ideal S1x64 .f32) (ix2 a b) = (V c main_v23 : FVec Ideal S1x64 .f32) (ix2 a b) := by
  obtain ⟨e0, e1⟩ := (idx_facts t).2.2.2.2.2.2.2.2.2.1
  unfold iblk1
  rw [View.read_apply]
  show V c main_v23 _ = V c main_v23 _
  refine congrArg (V c main_v23) ?_
  funext ax
  apply Fin.ext
  match ax with
  | ⟨0, _⟩ => show win1_9.index t (0 : Fin 2) * 1 + 1 * a.val = a.val; rw [e0]; omega
  | ⟨1, _⟩ => show win1_9.index t (1 : Fin 2) * 64 + 1 * b.val = b.val; rw [e1]; omega

/-- Window 10's block at every point is the whole of its array. -/
theorem blk10_apply (c : Dev nD) (t : Fin cfg1.N) (a : Fin 1) (b : Fin 64) :
    (iblk1 V c 10 t : FVec Ideal S1x64 .f32) (ix2 a b) = (V c main_v24 : FVec Ideal S1x64 .f32) (ix2 a b) := by
  obtain ⟨e0, e1⟩ := (idx_facts t).2.2.2.2.2.2.2.2.2.2.1
  unfold iblk1
  rw [View.read_apply]
  show V c main_v24 _ = V c main_v24 _
  refine congrArg (V c main_v24) ?_
  funext ax
  apply Fin.ext
  match ax with
  | ⟨0, _⟩ => show win1_10.index t (0 : Fin 2) * 1 + 1 * a.val = a.val; rw [e0]; omega
  | ⟨1, _⟩ => show win1_10.index t (1 : Fin 2) * 64 + 1 * b.val = b.val; rw [e1]; omega

/-! ## From the blocks to the array -/

section Final
variable (c : Dev nD) (ag : FVec Ideal S100000x64 .f32) (w1 : FVec Ideal S128x128 .f32) (b1 b2 : FVec Ideal S128 .f32)
  (b3 g β : FVec Ideal S64 .f32)

/-- Where point t's output block sits in the array: entry (a, b) of the block is entry (5000·t + a, b). -/
theorem out_emb (t : Fin cfg1.N) (a : Fin 5000) (b : Fin 64) :
    ((cfg1.win 11).blk t).view.emb (ix2 a b : S5000x64.Idx) = (ix2 (rowOf t a) b : S100000x64.Idx) := by
  obtain ⟨e0, e1⟩ := (idx_facts t).2.2.2.2.2.2.2.2.2.2.2
  funext ax
  apply Fin.ext
  match ax with
  | ⟨0, _⟩ => show win1_11.index t (0 : Fin 2) * 5000 + 1 * a.val = 5000 * t.val + a.val; rw [e0]; omega
  | ⟨1, _⟩ => show win1_11.index t (1 : Fin 2) * 64 + 1 * b.val = b.val; rw [e1]; omega

/-- WHAT POINT t WRITES BACK is block t of the node stage of the whole arrays. -/
theorem flushed_eq (t : Fin cfg1.N)
    (hag : V c main_v36 = ag)
    (hw1a : V c main_v28 = extractStridedSlice S64x128 ![0, 0] w1 slices_S128x128_S64x128_0_0)
    (hw1b : V c main_v29 = extractStridedSlice S64x128 ![64, 0] w1 slices_S128x128_S64x128_64_0)
    (hb1 : V c main_v20 = shapeCast S1x128 b1 shapeCasts_S128_S1x128) (hb2 : V c main_v21 = shapeCast S1x128 b2 shapeCasts_S128_S1x128)
    (hb3 : V c main_v22 = shapeCast S1x64 b3 shapeCasts_S64_S1x64) (hg : V c main_v23 = shapeCast S1x64 g shapeCasts_S64_S1x64)
    (hβ : V c main_v24 = shapeCast S1x64 β shapeCasts_S64_S1x64) :
    (dat1 V c).flushed 11 t = ((cfg1.win 11).blk t).view.read (Elt Ideal)
      (Cert.Spec.nodeOut (V c main_arg0) ag w1 b1 (V c main_arg14) b2 (V c main_arg16) b3 g β) := by
  show (cfg1.win 11).cut (grid1.coords t) ((dat1 V c).after 11 t) = _
  rw [after1_11]
  unfold out1_11
  rw [View.canon_unit_zero hz]
  simp only [View.ld_unit_zero (S := S5000x64) hz, View.ld_unit_zero (S := S64x128) hz, View.ld_unit_zero (S := S1x128) hz,
    View.ld_unit_zero (S := S128x128) hz, View.ld_unit_zero (S := S128x64) hz, View.ld_unit_zero (S := S1x64) hz]
  funext y
  obtain ⟨a, b, rfl⟩ : ∃ (a : Fin 5000) (b : Fin 64), y = ix2 a b := ⟨y 0, y 1, eq_ix2 y⟩
  rw [View.read_apply, out_emb]
  have h1 : RowsOf (φ := .f32) (ψ := .f32) (rowOf t) (iblk1 V c 1 t : FVec Ideal S5000x64 .f32) ag := hag ▸ blk1_rows V c t
  have h2 : ∀ (k : Fin 64) (q : Fin 128) (i : Fin 128), i.val = k.val →
      (iblk1 V c 2 t : FVec Ideal S64x128 .f32) (ix2 k q) = w1 (ix2 i q) := by
    intro k q i hi
    rw [blk2_apply, hw1a, Cert.LibColumnBlocks.rowBlock_apply 0 (by omega) w1 _ k q]
    exact congrArg (fun r => w1 (ix2 r q)) (Fin.ext (by show 0 + k.val = i.val; omega))
  have h3 : ∀ (k : Fin 64) (q : Fin 128) (i : Fin 128), i.val = 64 + k.val →
      (iblk1 V c 3 t : FVec Ideal S64x128 .f32) (ix2 k q) = w1 (ix2 i q) := by
    intro k q i hi
    rw [blk3_apply, hw1b, Cert.LibColumnBlocks.rowBlock_apply 64 (by omega) w1 _ k q]
    exact congrArg (fun r => w1 (ix2 r q)) (Fin.ext (by show 64 + k.val = i.val; omega))
  have h4 : ∀ q : Fin 128, (iblk1 V c 4 t : FVec Ideal S1x128 .f32) (ix2 (0 : Fin 1) q) = b1 (ix1 q) := by
    intro q; rw [blk4_apply, hb1, shapeCast_a_1a_apply]
  have h6 : ∀ q : Fin 128, (iblk1 V c 6 t : FVec Ideal S1x128 .f32) (ix2 (0 : Fin 1) q) = b2 (ix1 q) := by
    intro q; rw [blk6_apply, hb2, shapeCast_a_1a_apply]
  have h8 : ∀ q : Fin 64, (iblk1 V c 8 t : FVec Ideal S1x64 .f32) (ix2 (0 : Fin 1) q) = b3 (ix1 q) := by
    intro q; rw [blk8_apply, hb3, shapeCast_a_1a_apply]
  have h9 : ∀ q : Fin 64, (iblk1 V c 9 t : FVec Ideal S1x64 .f32) (ix2 (0 : Fin 1) q) = g (ix1 q) := by
    intro q; rw [blk9_apply, hg, shapeCast_a_1a_apply]
  have h10 : ∀ q : Fin 64, (iblk1 V c 10 t : FVec Ideal S1x64 .f32) (ix2 (0 : Fin 1) q) = β (ix1 q) := by
    intro q; rw [blk10_apply, hβ, shapeCast_a_1a_apply]
  exact node_payload_rows (row := rowOf t) (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t)
    (V c main_arg0) ag w1 b1 (V c main_arg14) b2 (V c main_arg16) b3 g β
    (blk0_rows V c t) h1 h2 h3 h4 (blk5_apply V c t) h6 (blk7_apply V c t) h8 h9 h10 a b

end Final

/-- An index of the array is in point t's output block iff each coordinate is in the block's range. -/
theorem mem_blk (t : Fin cfg1.N) (i : S100000x64.Idx) :
    i ∈ ((cfg1.win 11).blk t).view.set ↔ ∀ ax : Fin 2, win1_11.index t ax * S5000x64.size ax ≤ (i ax).val
      ∧ (i ax).val < win1_11.index t ax * S5000x64.size ax + S5000x64.size ax := by
  show i ∈ ((View.whole main_v37).slice (win1_11.rect t)).set ↔ _
  rw [View.set_slice_whole, Rect.mem_set_unit]
  exact Iff.rfl

/-- The 20 output blocks tile the array: row r lies in the block of point r / 5000. -/
theorem cover (i : S100000x64.Idx) :
    ∃ t : Fin cfg1.N, (cfg1.win 11).flush t = true ∧ i ∈ ((cfg1.win 11).blk t).view.set := by
  have hN : cfg1.N = 20 := N_1
  have hi0 : (i 0).val < 100000 := (i 0).isLt
  have hi1 : (i 1).val < 64 := (i 1).isLt
  refine ⟨⟨(i 0).val / 5000, by omega⟩, flush1_11 _, ?_⟩
  rw [mem_blk]
  obtain ⟨e0, e1⟩ := (idx_facts ⟨(i 0).val / 5000, by omega⟩).2.2.2.2.2.2.2.2.2.2.2
  intro ax
  match ax with
  | ⟨0, _⟩ =>
    show win1_11.index _ (0 : Fin 2) * 5000 ≤ (i 0).val ∧ (i 0).val < win1_11.index _ (0 : Fin 2) * 5000 + 5000
    rw [e0]; show (i 0).val / 5000 * 5000 ≤ (i 0).val ∧ (i 0).val < (i 0).val / 5000 * 5000 + 5000; omega
  | ⟨1, _⟩ =>
    show win1_11.index _ (1 : Fin 2) * 64 ≤ (i 1).val ∧ (i 1).val < win1_11.index _ (1 : Fin 2) * 64 + 64
    rw [e1]; omega

/-- THE NODE STAGE: after the last point the output array is the node stage of the whole arrays — a function of the
    node features, the aggregate and the parameter arrays the stage finds at its entry. -/
theorem node_final (c : Dev nD) (ag : FVec Ideal S100000x64 .f32) (w1 : FVec Ideal S128x128 .f32)
    (b1 b2 : FVec Ideal S128 .f32) (b3 g β : FVec Ideal S64 .f32)
    (hag : V c main_v36 = ag)
    (hw1a : V c main_v28 = extractStridedSlice S64x128 ![0, 0] w1 slices_S128x128_S64x128_0_0)
    (hw1b : V c main_v29 = extractStridedSlice S64x128 ![64, 0] w1 slices_S128x128_S64x128_64_0)
    (hb1 : V c main_v20 = shapeCast S1x128 b1 shapeCasts_S128_S1x128) (hb2 : V c main_v21 = shapeCast S1x128 b2 shapeCasts_S128_S1x128)
    (hb3 : V c main_v22 = shapeCast S1x64 b3 shapeCasts_S64_S1x64) (hg : V c main_v23 = shapeCast S1x64 g shapeCasts_S64_S1x64)
    (hβ : V c main_v24 = shapeCast S1x64 β shapeCasts_S64_S1x64) :
    (dat1 V c).arrAt 11 cfg1.N
      = Cert.Spec.nodeOut (V c main_arg0) ag w1 b1 (V c main_arg14) b2 (V c main_arg16) b3 g β :=
  (dat1 V c).arrAt_eq_of_cover 11 _ (fun t _ => flushed_eq V c ag w1 b1 b2 b3 g β t hag hw1a hw1b hb1 hb2 hb3 hg hβ) cover

end Cert.KernelIdeal.NodeStage

end
-- ==== Proof.KernelValue.lean ====
/-
  The tiled program's two result arrays as the network's stages.

  The program runs in four segments: host operations, the edge stage's grid, host operations, the node stage's grid.
  Written over the launch contents A 0 … A 19 of its twenty arguments:

    * the edge stage finds in its input arrays the edge features A 3, the rows of the node table A 0 at the receivers
      A 2 and at the senders A 1 (negative row numbers wrapped), the three row blocks of the first weights A 4, and the
      remaining weights and vectors; so its two output arrays are MSG, the messages of the layer, and A 3 + MSG;
    * between the stages the host adds the rows [ MSG ; -MSG ] at the row numbers [ A 2 ; A 1 ] into a zero table in
      ONE scatter; that is the sum of the scatter of MSG at A 2 and of -MSG at A 1, the layer's aggregation;
    * the node stage finds the node table A 0, that aggregate, the two row blocks of its first weights A 12 and the
      remaining weights and vectors; so its output array is the node result of the layer.

  Hence the first result array ends at nodeOut(A 0, agg(A 2, A 1, MSG), …) and the second at A 3 + MSG, the arguments
  unchanged: the same terms the whole-array program's run ends at.
-/
import proofs.«124261_j53137335386495_2_alg».proof.Proof.KernelRun
import proofs.«124261_j53137335386495_2_alg».proof.Proof.HostStages
import proofs.«124261_j53137335386495_2_alg».proof.Proof.LibScatterConcat
import proofs.«124261_j53137335386495_2_alg».proof.Proof.Spec
import proofs.«124261_j53137335386495_2_alg».proof.Proof.Region0
import proofs.«124261_j53137335386495_2_alg».proof.Proof.Region1

set_option maxRecDepth 16384

noncomputable section

namespace Cert.KernelIdeal.KernelValue

open Cert.KernelIdeal Cert.KernelIdeal.Gen Cert.KernelIdeal.HostStages Idealize.ShloMosaic Idealize.ShloMosaic.TcCoe Idealize.SL.Sem

variable (m : (ℓ : Loc nD τ sig) → Buf (Elt Ideal) ℓ) (ρ : Dev nD → PrngReg)

/-- The messages of the layer as a function of the launch contents of the arguments: the normalized edge perceptron
    on the rows [ A 3 | rows of A 0 at A 2 | rows of A 0 at A 1 ]. -/
abbrev MSG (c : Dev nD) : FVec Ideal S1000000x64 .f32 :=
  Cert.Spec.msg (m ((c.tc : Thread nD τ).loc main_arg3)) (Cert.Spec.rowsAt (m ((c.tc : Thread nD τ).loc main_arg0)) (m ((c.tc : Thread nD τ).loc main_arg2))) (Cert.Spec.rowsAt (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-! ## The edge stage at the run's entry contents -/

/-- The first gathered input of the edge stage, entry by entry: the rows of A 0 at the wrapped row numbers A 2 (the
    narrowing of the table is the identity on the extended reals; the two programs spell the wrapped row numbers by
    the same term). -/
theorem rows_rcv (c : Dev nD) (i : S1000000x64.Idx) :
    (V1 m ρ c main_v7 : FVec Ideal S1000000x64 .bf16) i = Cert.Spec.rowsAt (m ((c.tc : Thread nD τ).loc main_arg0)) (m ((c.tc : Thread nD τ).loc main_arg2)) i :=
  (congrFun (V1_v7 m ρ c) i).trans ((Cert.LibScatterConcat.gather_truncf (φ := .f32) (ψ := .bf16) gather_S100000x64_S1000000x1_S1000000x64_1_0_n_n_0_1_164 _ bitsLt_bf16_f32 _ i).trans rfl)

/-- The second gathered input of the edge stage, entry by entry: the rows of A 0 at the wrapped row numbers A 1. -/
theorem rows_snd (c : Dev nD) (i : S1000000x64.Idx) :
    (V1 m ρ c main_v14 : FVec Ideal S1000000x64 .bf16) i = Cert.Spec.rowsAt (m ((c.tc : Thread nD τ).loc main_arg0)) (m ((c.tc : Thread nD τ).loc main_arg1)) i :=
  (congrFun (V1_v14 m ρ c) i).trans ((Cert.LibScatterConcat.gather_truncf (φ := .f32) (ψ := .bf16) gather_S100000x64_S1000000x1_S1000000x64_1_0_n_n_0_1_164 _ bitsLt_bf16_f32 _ i).trans rfl)

/-- The edge stage's two output arrays, as it leaves them: the messages, and the edge features plus the messages. -/
theorem edge_outputs (c : Dev nD) :
    (dat0 (V1 m ρ) c).arrAt 13 cfg0.N = MSG m c ∧ (dat0 (V1 m ρ) c).arrAt 14 cfg0.N = addf (m ((c.tc : Thread nD τ).loc main_arg3)) (MSG m c) := by
  have h := Cert.KernelIdeal.EdgeStage.edge_final (V1 m ρ) c (Cert.Spec.rowsAt (m ((c.tc : Thread nD τ).loc main_arg0)) (m ((c.tc : Thread nD τ).loc main_arg2))) (Cert.Spec.rowsAt (m ((c.tc : Thread nD τ).loc main_arg0)) (m ((c.tc : Thread nD τ).loc main_arg1)))
    (m ((c.tc : Thread nD τ).loc main_arg4)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg11)) (rows_rcv m ρ c) (rows_snd m ρ c)
    (V1_v25 m ρ c) (V1_v26 m ρ c) (V1_v27 m ρ c) (V1_v15 m ρ c) (V1_v16 m ρ c) (V1_v17 m ρ c) (V1_v18 m ρ c) (V1_v19 m ρ c)
  rw [V1_arg3 m ρ c, V1_arg6 m ρ c, V1_arg8 m ρ c] at h
  exact h

/-! ## The aggregation between the stages -/

/-- The node stage's aggregate input: the one scatter-add of [ Msg ; -Msg ] at [ A 2 ; A 1 ] into a zero table is the
    sum of the two scatter-adds of the layer's aggregation, at the messages. -/
theorem agg_eq (c : Dev nD) :
    (V3 m ρ c main_v36 : FVec Ideal S100000x64 .f32) = Cert.Spec.agg (m ((c.tc : Thread nD τ).loc main_arg2)) (m ((c.tc : Thread nD τ).loc main_arg1)) (MSG m c) := by
  rw [V3_v36 m ρ c, show Msg m ρ c = MSG m c from (edge_outputs m ρ c).1]
  exact Cert.LibScatterConcat.scatterAdd_concat_zeroSplat (N := 100000) (E := 1000000) (E₂ := 2000000) (C := 64) rfl
    (by decide) (by decide) scatter_S100000x64_S2000000x1_S2000000x64_1_0_0_1
    scatter_S100000x64_S2000000x1_S2000000x64_1_0_0_1_wf rfl
    Cert.ReferenceIdeal.scatter_S100000x64_S1000000x1_S1000000x64_1_0_0_1
    Cert.ReferenceIdeal.Gen.scatter_S100000x64_S1000000x1_S1000000x64_1_0_0_1_wf rfl
    bcast_S_S100000x64 (m ((c.tc : Thread nD τ).loc main_arg2)) (m ((c.tc : Thread nD τ).loc main_arg1)) (MSG m c) (Host.negf (MSG m c))
    concatenates_S1000000_S1000000_S2000000_d0 concatenates_S1000000x64_S1000000x64_S2000000x64_d0
    bcast_S2000000_S2000000x1_0 Cert.ReferenceIdeal.Gen.bcast_S1000000_S1000000x1_0

/-! ## The node stage at the run's entry contents, and the two result arrays -/

/-- The node stage's output array, as it leaves it: the node result of the layer at the aggregate of the messages. -/
theorem node_output (c : Dev nD) :
    (dat1 (V3 m ρ) c).arrAt 11 cfg1.N
      = Cert.Spec.nodeOut (m ((c.tc : Thread nD τ).loc main_arg0)) (Cert.Spec.agg (m ((c.tc : Thread nD τ).loc main_arg2)) (m ((c.tc : Thread nD τ).loc main_arg1)) (MSG m c)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  have h := Cert.KernelIdeal.NodeStage.node_final (V3 m ρ) c (Cert.Spec.agg (m ((c.tc : Thread nD τ).loc main_arg2)) (m ((c.tc : Thread nD τ).loc main_arg1)) (MSG m c))
    (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg19)) (agg_eq m ρ c)
    (V3_v28 m ρ c) (V3_v29 m ρ c) (V3_v20 m ρ c) (V3_v21 m ρ c) (V3_v22 m ρ c) (V3_v23 m ρ c) (V3_v24 m ρ c)
  rw [V3_arg0 m ρ c, V3_arg14 m ρ c, V3_arg16 m ρ c] at h
  exact h

/-- The first result array at the end of the run: the node result of the layer. -/
theorem out_eq (c : Dev nD) :
    W4 m ρ c (Proc.devRef .tc main_v37)
      = Cert.Spec.nodeOut (m ((c.tc : Thread nD τ).loc main_arg0)) (Cert.Spec.agg (m ((c.tc : Thread nD τ).loc main_arg2)) (m ((c.tc : Thread nD τ).loc main_arg1)) (MSG m c)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (Cert.KernelIdeal.RunValue.W4_out m ρ c).trans (node_output m ρ c)

/-- The second result array at the end of the run: the edge features plus the messages. -/
theorem edgeOut_eq (c : Dev nD) : W4 m ρ c (Proc.devRef .tc main_v30_1) = addf (m ((c.tc : Thread nD τ).loc main_arg3)) (MSG m c) :=
  (Cert.KernelIdeal.RunValue.W4_edgeOut m ρ c).trans (edge_outputs m ρ c).2

/-- THE RUN, with each result at its stage of the layer: from any memory with zero counters every weakly fair
    execution of the program terminates, nothing faulting, the first result array at the node result, the second at
    the edge result, the twenty argument arrays as launched. -/
theorem run : θ_run (defs (F := Ideal)) (onTc (τ := τ) (main (F := Ideal))) ⟨m, fun _ => 0, ρ⟩ (fun r => ∀ c : Dev nD,
      r.2.mem ((c.tc : Thread nD τ).loc main_v37)
        = Cert.Spec.nodeOut (m ((c.tc : Thread nD τ).loc main_arg0)) (Cert.Spec.agg (m ((c.tc : Thread nD τ).loc main_arg2)) (m ((c.tc : Thread nD τ).loc main_arg1)) (MSG m c)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v30_1) = addf (m ((c.tc : Thread nD τ).loc main_arg3)) (MSG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c).1.trans (out_eq m ρ c), (h c).2.1.trans (edgeOut_eq m ρ c), (h c).2.2⟩)
    (Cert.KernelIdeal.RunValue.run (F := Ideal) m ρ)

end Cert.KernelIdeal.KernelValue

end
-- ==== Proof.RefRun.lean ====
/-
  The reference's run, read in the network's own terms.

  The host program's run ends with its first result at the node result of the layer and its second at the edge result,
  as functions of the launch contents of its twenty argument arrays (the stages are named in the specification module);
  the arguments end unchanged. The composed term of the run IS that nesting of stages: the two are equal by unfolding
  the stage names.
-/
import proofs.«124261_j53137335386495_2_alg».proof.Proof.Gen.ReferenceIdeal.Run
import proofs.«124261_j53137335386495_2_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

/-- The run, with each result at its stage of the layer. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v100)
        = Cert.Spec.nodeOut (m ((c.tc : Thread nD τ).loc main_arg0)) (Cert.Spec.agg (m ((c.tc : Thread nD τ).loc main_arg2)) (m ((c.tc : Thread nD τ).loc main_arg1)) (Cert.Spec.msg (m ((c.tc : Thread nD τ).loc main_arg3)) (Cert.Spec.rowsAt (m ((c.tc : Thread nD τ).loc main_arg0)) (m ((c.tc : Thread nD τ).loc main_arg2))) (Cert.Spec.rowsAt (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v101) = addf (m ((c.tc : Thread nD τ).loc main_arg3)) (Cert.Spec.msg (m ((c.tc : Thread nD τ).loc main_arg3)) (Cert.Spec.rowsAt (m ((c.tc : Thread nD τ).loc main_arg0)) (m ((c.tc : Thread nD τ).loc main_arg2))) (Cert.Spec.rowsAt (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c).1.trans rfl, (h c).2.1.trans rfl, (h c).2.2⟩)
    (Cert.ReferenceIdeal.Value.run (F := Ideal) m ρ)

end Cert.ReferenceIdeal.RefValue

end
-- ==== Proof.lean ====
/-
  The certificate of one message-passing layer of a graph network: a tiled kernel program against a plain reference.

  Both programs compute, on 100000 nodes and 1000000 directed edges with 64 features each, a message per edge (a
  three-stage perceptron with tanh on the row [edge features | receiver's features | sender's features], then a
  row-wise normalization), the antisymmetric aggregate per node (messages received minus messages sent), and a node
  update (the same kind of perceptron and normalization on [node features | aggregate]), and return the node update
  plus the node features and the edge features plus the messages.

  The kernel program runs the two perceptrons as grids over blocks of rows (4000 edges, 5000 nodes per point), forms
  the first dense stage of each as a sum of partial products over column blocks of its weight matrix, gathers the node
  rows and accumulates the aggregate on whole arrays between the grids, and accumulates it as ONE scatter of the
  messages and their negations at the concatenated receiver and sender indices. At the extended reals the two programs
  agree entry by entry: every operation of a perceptron and of the normalization acts row by row, so a block of rows
  of the result is the result on the block of rows; a sum over the 192 (128) concatenated columns is the sum of the
  sums over its 64-column parts; one scatter into zero of two stacked update arrays is the sum of the two scatters;
  a change of float format is the identity; and the last addition commutes. Only 0 + x = x and the commutativity and
  associativity of + on the extended reals are used, so the precondition's finiteness is never opened.

  The frames of the two kernel programs are the generated frame certificates, the reference's frame is its generated
  run with the results dropped, and the idealization rewrote no operation.
-/
import proofs.«124261_j53137335386495_2_alg».proof.Defs
import proofs.«124261_j53137335386495_2_alg».proof.Proof.Gen.Kernel
import proofs.«124261_j53137335386495_2_alg».proof.Proof.Gen.Kernel.Skeleton
import proofs.«124261_j53137335386495_2_alg».proof.Proof.Gen.Kernel.Launch
import proofs.«124261_j53137335386495_2_alg».proof.Proof.Gen.Kernel.Points
import proofs.«124261_j53137335386495_2_alg».proof.Proof.Gen.Kernel.Frame
import proofs.«124261_j53137335386495_2_alg».proof.Proof.Gen.KernelIdeal
import proofs.«124261_j53137335386495_2_alg».proof.Proof.Gen.KernelIdeal.Skeleton
import proofs.«124261_j53137335386495_2_alg».proof.Proof.Gen.KernelIdeal.Launch
import proofs.«124261_j53137335386495_2_alg».proof.Proof.Gen.KernelIdeal.Points
import proofs.«124261_j53137335386495_2_alg».proof.Proof.Gen.KernelIdeal.Frame
import proofs.«124261_j53137335386495_2_alg».proof.Proof.Gen.ReferenceIdeal
import proofs.«124261_j53137335386495_2_alg».proof.Proof.Gen.ReferenceIdeal.Run
import proofs.«124261_j53137335386495_2_alg».proof.Proof.Gen.Pre_finite_inputs
import proofs.«124261_j53137335386495_2_alg».proof.Proof.KernelValue
import proofs.«124261_j53137335386495_2_alg».proof.Proof.RefRun
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the extended reals both programs end with the node result and the edge result of the layer, as the same
    functions of argument arrays that agree. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ?_) (Cert.ReferenceIdeal.RefValue.run m' ρ')
  obtain ⟨h0, h1, hargs⟩ := h c
  obtain ⟨a0, a1, a2, a3, a4, a5, a6, a7, a8, a9, a10, a11, a12, a13, a14, a15, a16, a17, a18, a19⟩ := hagree c
  refine ⟨h0.trans ?_, h1.trans ?_, hargs⟩
  · rw [a0, a1, a2, a3, a4, a5, a6, a7, a8, a9, a10, a11, a12, a13, a14, a15, a16, a17, a18, a19]
  · rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
